-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x10 : S_.BroadcastsInDim S8x10 (![] : Fin 0 → Fin S8x10.rank)
  reducesTo_S8x10_S_d0_1 : S8x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S16x8 .f32) (main_arg9 : FVec F S8 .f32) (main_arg10 : FVec F S8x10 .f32) (main_arg11 : FVec F S10 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x10 .f32 := Host.absf main_arg10
  let main_cst_16 : FVec F S_ .f32 := constant S_ .f32 0x7F800000#32
  let main_v45 : FVec F S8x10 .f32 := broadcastInDim S8x10 ![] bcast_S_S8x10 main_cst_16
  let main_v46 : IVec S8x10 1 := cmpf .olt main_v44 main_v45
  let main_c_17 : IVec S_ 1 := constantI S_ 1 1#1
  let main_v47 : IVec S_ 1 := (fun x v => Host.reduce IntOp.andi x v reducesTo_S8x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S32 .f32) (main_arg6 : FVec F S32x16 .f32) (main_arg7 : FVec F S16 .f32) (main_arg8 : FVec F S16x8 .f32) (main_arg9 : FVec F S8 .f32) (main_arg10 : FVec F S8x10 .f32) (main_arg11 : FVec F S10 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x3200000 32) (main_arg2 : FVec F S256x64 .f32) (main_arg3 : FVec F S64 .f32) (main_arg4 : FVec F S64x32 .f32) (main_arg5 : FVec F S32 .f32) (main_arg6 : FVec F S32x16 .f32) (main_arg7 : FVec F S16 .f32) (main_arg8 : FVec F S16x8 .f32) (main_arg9 : FVec F S8 .f32) (main_arg10 : FVec F S8x10 .f32) (main_arg11 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x64 : Shape := ⟨2, ![1, 64]⟩
abbrev S100000x1 : Shape := ⟨2, ![100000, 1]⟩
abbrev S100000x64 : Shape := ⟨2, ![100000, 64]⟩
abbrev S4000x256 : Shape := ⟨2, ![4000, 256]⟩
abbrev S4000x1 : Shape := ⟨2, ![4000, 1]⟩
abbrev S4000x64 : Shape := ⟨2, ![4000, 64]⟩
abbrev S3200000x64 : Shape := ⟨2, ![3200000, 64]⟩
abbrev S1x32 : Shape := ⟨2, ![1, 32]⟩
abbrev S100000x32 : Shape := ⟨2, ![100000, 32]⟩
abbrev S4000x32 : Shape := ⟨2, ![4000, 32]⟩
abbrev S3200000x32 : Shape := ⟨2, ![3200000, 32]⟩
abbrev S1x16 : Shape := ⟨2, ![1, 16]⟩
abbrev S100000x16 : Shape := ⟨2, ![100000, 16]⟩
abbrev S4000x16 : Shape := ⟨2, ![4000, 16]⟩
abbrev S3200000x16 : Shape := ⟨2, ![3200000, 16]⟩
abbrev S12500x128 : Shape := ⟨2, ![12500, 128]⟩
abbrev S1x8 : Shape := ⟨2, ![1, 8]⟩
abbrev S1x10 : Shape := ⟨2, ![1, 10]⟩
abbrev S1 : Shape := ⟨1, ![1]⟩
abbrev S1x1 : Shape := ⟨2, ![1, 1]⟩

abbrev nBuf : Space → Nat
  | .hbm => 146
  | .vmem => 37
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x8, .f32⟩
  | 9 => ⟨S8, .f32⟩
  | 10 => ⟨S8x10, .f32⟩
  | 11 => ⟨S10, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S100000, .f32⟩
  | 46 => ⟨S256x64, .bf16⟩
  | 47 => ⟨S1x64, .f32⟩
  | 48 => ⟨S100000x1, .f32⟩
  | 49 => ⟨S100000x64, .bf16⟩
  | 50 => ⟨S100000x64, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .bf16⟩
  | 60 => ⟨S3200000x64, .f32⟩
  | 61 => ⟨S3200000x1, .f32⟩
  | 62 => ⟨S3200000x64, .f32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S64x32, .bf16⟩
  | 69 => ⟨S1x32, .f32⟩
  | 70 => ⟨S100000x1, .f32⟩
  | 71 => ⟨S100000x32, .bf16⟩
  | 72 => ⟨S100000x32, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x32, .bf16⟩
  | 82 => ⟨S3200000x32, .f32⟩
  | 83 => ⟨S3200000x1, .f32⟩
  | 84 => ⟨S3200000x32, .f32⟩
  | 85 => ⟨S3200000x32, .f32⟩
  | 86 => ⟨S_, .f32⟩
  | 87 => ⟨S100000x32, .f32⟩
  | 88 => ⟨S3200000x1, .i32⟩
  | 89 => ⟨S100000x32, .f32⟩
  | 90 => ⟨S32x16, .bf16⟩
  | 91 => ⟨S1x16, .f32⟩
  | 92 => ⟨S100000x1, .f32⟩
  | 93 => ⟨S100000x16, .bf16⟩
  | 94 => ⟨S100000x16, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x16, .bf16⟩
  | 104 => ⟨S3200000x16, .f32⟩
  | 105 => ⟨S3200000x1, .f32⟩
  | 106 => ⟨S3200000x16, .f32⟩
  | 107 => ⟨S3200000x16, .f32⟩
  | 108 => ⟨S_, .f32⟩
  | 109 => ⟨S100000x16, .f32⟩
  | 110 => ⟨S3200000x1, .i32⟩
  | 111 => ⟨S100000x16, .f32⟩
  | 112 => ⟨S12500x128, .f32⟩
  | 113 => ⟨S12500x128, .f32⟩
  | 114 => ⟨S12500x128, .f32⟩
  | 115 => ⟨S100000x16, .f32⟩
  | 116 => ⟨S_, .f32⟩
  | 117 => ⟨S16, .f32⟩
  | 118 => ⟨S1x16, .f32⟩
  | 119 => ⟨S_, .f32⟩
  | 120 => ⟨S1x16, .f32⟩
  | 121 => ⟨S1x16, .f32⟩
  | 122 => ⟨S1x8, .f32⟩
  | 123 => ⟨S1x8, .f32⟩
  | 124 => ⟨S1x8, .f32⟩
  | 125 => ⟨S_, .f32⟩
  | 126 => ⟨S1x8, .f32⟩
  | 127 => ⟨S1x8, .f32⟩
  | _ => ⟨S100000x256, .f32⟩

abbrev hbmTy0_1 (i : Nat) : BufTy := match i % 128 with
  | 0 => ⟨S1x10, .f32⟩
  | 1 => ⟨S1x10, .f32⟩
  | 2 => ⟨S1x10, .f32⟩
  | 3 => ⟨S_, .f32⟩
  | 4 => ⟨S1, .f32⟩
  | 5 => ⟨S_, .f32⟩
  | 6 => ⟨S1, .f32⟩
  | 7 => ⟨S1, .f32⟩
  | 8 => ⟨S1x1, .f32⟩
  | 9 => ⟨S1x10, .f32⟩
  | 10 => ⟨S1x10, .f32⟩
  | 11 => ⟨S1x10, .f32⟩
  | 12 => ⟨S_, .f32⟩
  | 13 => ⟨S1, .f32⟩
  | 14 => ⟨S1x1, .f32⟩
  | 15 => ⟨S1x1, .f32⟩
  | 16 => ⟨S1x10, .f32⟩
  | 17 => ⟨S1x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x64, .bf16⟩
  | .local _ .vmem, ⟨3, _⟩ => ⟨S1x64, .f32⟩
  | .local _ .vmem, ⟨4, _⟩ => ⟨S4000x1, .f32⟩
  | .local _ .vmem, ⟨5, _⟩ => ⟨S4000x1, .f32⟩
  | .local _ .vmem, ⟨6, _⟩ => ⟨S4000x64, .bf16⟩
  | .local _ .vmem, ⟨7, _⟩ => ⟨S4000x64, .bf16⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x32, .bf16⟩
  | .local _ .vmem, ⟨15, _⟩ => ⟨S1x32, .f32⟩
  | .local _ .vmem, ⟨16, _⟩ => ⟨S4000x1, .f32⟩
  | .local _ .vmem, ⟨17, _⟩ => ⟨S4000x1, .f32⟩
  | .local _ .vmem, ⟨18, _⟩ => ⟨S4000x32, .bf16⟩
  | .local _ .vmem, ⟨19, _⟩ => ⟨S4000x32, .bf16⟩
  | .local _ .vmem, ⟨20, _⟩ => ⟨S4000x32, .f32⟩
  | .local _ .vmem, ⟨21, _⟩ => ⟨S4000x32, .f32⟩
  | .local _ .vmem, ⟨22, _⟩ => ⟨S4000x32, .f32⟩
  | .local _ .vmem, ⟨23, _⟩ => ⟨S4000x32, .f32⟩
  | .local _ .vmem, ⟨24, _⟩ => ⟨S4000x32, .f32⟩
  | .local _ .vmem, ⟨25, _⟩ => ⟨S4000x32, .f32⟩
  | .local _ .vmem, ⟨26, _⟩ => ⟨S32x16, .bf16⟩
  | .local _ .vmem, ⟨27, _⟩ => ⟨S1x16, .f32⟩
  | .local _ .vmem, ⟨28, _⟩ => ⟨S4000x1, .f32⟩
  | .local _ .vmem, ⟨29, _⟩ => ⟨S4000x1, .f32⟩
  | .local _ .vmem, ⟨30, _⟩ => ⟨S4000x16, .bf16⟩
  | .local _ .vmem, ⟨31, _⟩ => ⟨S4000x16, .bf16⟩
  | .local _ .vmem, ⟨32, _⟩ => ⟨S4000x16, .f32⟩
  | .local _ .vmem, ⟨33, _⟩ => ⟨S4000x16, .f32⟩
  | .local _ .vmem, ⟨34, _⟩ => ⟨S12500x128, .f32⟩
  | .local _ .vmem, ⟨35, _⟩ => ⟨S12500x128, .f32⟩
  | .local _ .vmem, ⟨36, _⟩ => ⟨S12500x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call0_cst : Ref sig .tc := ⟨.hbm, 125, rfl⟩
abbrev main_call0_v0 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call1_cst : Ref sig .tc := ⟨.hbm, 131, rfl⟩
abbrev main_call1_v0 : Ref sig .tc := ⟨.hbm, 132, rfl⟩
abbrev main_call1_cst_0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_call1_v5 : Ref sig .tc := ⟨.hbm, 138, rfl⟩
abbrev main_call1_v6 : Ref sig .tc := ⟨.hbm, 139, rfl⟩
abbrev main_call1_cst_1 : Ref sig .tc := ⟨.hbm, 140, rfl⟩
abbrev main_call1_v7 : Ref sig .tc := ⟨.hbm, 141, rfl⟩
abbrev main_call1_v8 : Ref sig .tc := ⟨.hbm, 142, rfl⟩
abbrev main_call1_v9 : Ref sig .tc := ⟨.hbm, 143, rfl⟩
abbrev main_call1_v10 : Ref sig .tc := ⟨.hbm, 144, rfl⟩
abbrev main_v96 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem1_0 : DmaSem sig := 35
abbrev cc3_sem2_0 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x16 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S12500x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S12500x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S12500x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bitsLt_bf16_f32 : FTy.bits .bf16 < FTy.bits .f32
  shapeCasts_S64_S1x64 : S64.ShapeCasts S1x64
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S32_S1x32 : S32.ShapeCasts S1x32
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  broadcasts_S4000x1_S4000x32 : S4000x1.Broadcasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S16_S1x16 : S16.ShapeCasts S1x16
  shapeCasts_S4000x32_S4000x32 : S4000x32.ShapeCasts S4000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  broadcasts_S4000x1_S4000x16 : S4000x1.Broadcasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S100000x16_S12500x128 : S100000x16.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  shapeCasts_S12500x128_S100000x16 : S12500x128.ShapeCasts S100000x16
  reducesTo_S100000x16_S16_d0 : S100000x16.ReducesTo [0] S16
  h_S_ : 0 < S_.numel
  bcast_S16_S1x16_1 : S16.BroadcastsInDim S1x16 (![1] : Fin 1 → Fin S1x16.rank)
  bcast_S_S1x16 : S_.BroadcastsInDim S1x16 (![] : Fin 0 → Fin S1x16.rank)
  bcast_S8_S1x8_1 : S8.BroadcastsInDim S1x8 (![1] : Fin 1 → Fin S1x8.rank)
  bcast_S_S1x8 : S_.BroadcastsInDim S1x8 (![] : Fin 0 → Fin S1x8.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x256_S256x64_S4000x64_1_0_0_1_n_n_wf : DotDims.WF S4000x256 S256x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x32_S4000x32_1_0_0_1_n_n_wf : DotDims.WF S4000x64 S64x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4000x32_S32x16_S4000x16_1_0_0_1_n_n_wf : DotDims.WF S4000x32 S32x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S1x16_S16x8_S1x8_1_0_0_1_n_n_wf : DotDims.WF S1x16 S16x8 S1x8 [1] [0] [0] [1] [] []
  dot_S1x8_S8x10_S1x10_1_0_0_1_n_n_wf : DotDims.WF S1x8 S8x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .bf16 = 32 ∨ (Rect.block (s := S100000x64) S4000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S100000x32.size a
  hwx1_5 : ∀ i : grid1.Coords, EltTy.bits .bf16 = 32 ∨ (Rect.block (s := S100000x32) S4000x32.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x32.size a ≤ S100000x32.size a
  hwx1_6 : ∀ i : grid1.Coords, EltTy.bits .f32 = 32 ∨ (Rect.block (s := S100000x32) S4000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S100000x32.size a
  hwx2_1 : ∀ i : grid2.Coords, EltTy.bits .f32 = 32 ∨ (Rect.block (s := S100000x32) S4000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .bf16 = 32 ∨ (Rect.block (s := S32x16) S32x16.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x16.size a ≤ S100000x16.size a
  hwx2_5 : ∀ i : grid2.Coords, EltTy.bits .bf16 = 32 ∨ (Rect.block (s := S100000x16) S4000x16.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x16.size a ≤ S100000x16.size a
  hwx2_6 : ∀ i : grid2.Coords, EltTy.bits .f32 = 32 ∨ (Rect.block (s := S100000x16) S4000x16.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S12500x128.size a ≤ S12500x128.size a
  hwx3_0 : ∀ i : grid3.Coords, EltTy.bits .f32 = 32 ∨ (Rect.block (s := S12500x128) S12500x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12500x128.size a ≤ S12500x128.size a
  hwx3_1 : ∀ i : grid3.Coords, EltTy.bits .f32 = 32 ∨ (Rect.block (s := S12500x128) S12500x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S12500x128.size a ≤ S12500x128.size a
  hwx3_2 : ∀ i : grid3.Coords, EltTy.bits .f32 = 32 ∨ (Rect.block (s := S12500x128) S12500x128.size (cc3_transform_2 i) (hinb3_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S1x16_S16x8_S1x8_1_0_0_1_n_n : DotDims S1x16 S16x8 S1x8 where
  lhsContracting := [1]
  rhsContracting := [0]
  lhsNonContracting := [0]
  rhsNonContracting := [1]
  lhsBatch := []
  rhsBatch := []
  wf := dot_S1x16_S16x8_S1x8_1_0_0_1_n_n_wf
def dot_S1x8_S8x10_S1x10_1_0_0_1_n_n : DotDims S1x8 S8x10 S1x10 where
  lhsContracting := [1]
  rhsContracting := [0]
  lhsNonContracting := [0]
  rhsNonContracting := [1]
  lhsBatch := []
  rhsBatch := []
  wf := dot_S1x8_S8x10_S1x10_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_0) S4000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v48_1) S4000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v62) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48_1) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v66_0) S4000x16.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66_1) S4000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v81) S12500x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v82) S12500x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S12500x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x10 : Shape := ⟨2, ![8, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S1x8 : Shape := ⟨2, ![1, 8]⟩
abbrev S1x10 : Shape := ⟨2, ![1, 10]⟩
abbrev S1 : Shape := ⟨1, ![1]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x8, .f32⟩
  | 9 => ⟨S8, .f32⟩
  | 10 => ⟨S8x10, .f32⟩
  | 11 => ⟨S10, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S100000, .f32⟩
  | 46 => ⟨S100000x64, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x64, .f32⟩
  | 56 => ⟨S3200000x1, .f32⟩
  | 57 => ⟨S3200000x64, .f32⟩
  | 58 => ⟨S3200000x64, .f32⟩
  | 59 => ⟨S_, .f32⟩
  | 60 => ⟨S100000x64, .f32⟩
  | 61 => ⟨S3200000x1, .i32⟩
  | 62 => ⟨S100000x64, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x32, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x32, .f32⟩
  | 83 => ⟨S3200000x1, .f32⟩
  | 84 => ⟨S3200000x32, .f32⟩
  | 85 => ⟨S3200000x32, .f32⟩
  | 86 => ⟨S_, .f32⟩
  | 87 => ⟨S100000x32, .f32⟩
  | 88 => ⟨S3200000x1, .i32⟩
  | 89 => ⟨S100000x32, .f32⟩
  | 90 => ⟨S100000x1, .f32⟩
  | 91 => ⟨S100000x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x16, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x16, .f32⟩
  | 110 => ⟨S3200000x1, .f32⟩
  | 111 => ⟨S3200000x16, .f32⟩
  | 112 => ⟨S3200000x16, .f32⟩
  | 113 => ⟨S_, .f32⟩
  | 114 => ⟨S100000x16, .f32⟩
  | 115 => ⟨S3200000x1, .i32⟩
  | 116 => ⟨S100000x16, .f32⟩
  | 117 => ⟨S100000x1, .f32⟩
  | 118 => ⟨S100000x16, .f32⟩
  | 119 => ⟨S100000x16, .f32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000x16, .f32⟩
  | 126 => ⟨S100000x16, .f32⟩
  | 127 => ⟨S_, .f32⟩
  | _ => ⟨S100000x256, .f32⟩

abbrev hbmTy0_1 (i : Nat) : BufTy := match i % 128 with
  | 0 => ⟨S16, .f32⟩
  | 1 => ⟨S1x16, .f32⟩
  | 2 => ⟨S_, .f32⟩
  | 3 => ⟨S1x16, .f32⟩
  | 4 => ⟨S1x16, .f32⟩
  | 5 => ⟨S1x8, .f32⟩
  | 6 => ⟨S1x8, .f32⟩
  | 7 => ⟨S1x8, .f32⟩
  | 8 => ⟨S_, .f32⟩
  | 9 => ⟨S1x8, .f32⟩
  | 10 => ⟨S1x8, .f32⟩
  | 11 => ⟨S1x10, .f32⟩
  | 12 => ⟨S1x10, .f32⟩
  | 13 => ⟨S1x10, .f32⟩
  | 14 => ⟨S_, .f32⟩
  | 15 => ⟨S1, .f32⟩
  | 16 => ⟨S_, .f32⟩
  | 17 => ⟨S1, .f32⟩
  | 18 => ⟨S1, .f32⟩
  | 19 => ⟨S1x1, .f32⟩
  | 20 => ⟨S1x10, .f32⟩
  | 21 => ⟨S1x10, .f32⟩
  | 22 => ⟨S1x10, .f32⟩
  | 23 => ⟨S_, .f32⟩
  | 24 => ⟨S1, .f32⟩
  | 25 => ⟨S1x1, .f32⟩
  | 26 => ⟨S1x1, .f32⟩
  | 27 => ⟨S1x10, .f32⟩
  | 28 => ⟨S1x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_v70 : Ref sig .tc := ⟨.hbm, 99, rfl⟩
abbrev main_v71 : Ref sig .tc := ⟨.hbm, 100, rfl⟩
abbrev main_c_11 : Ref sig .tc := ⟨.hbm, 101, rfl⟩
abbrev main_v72 : Ref sig .tc := ⟨.hbm, 102, rfl⟩
abbrev main_v73 : Ref sig .tc := ⟨.hbm, 103, rfl⟩
abbrev main_c_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call2_cst : Ref sig .tc := ⟨.hbm, 124, rfl⟩
abbrev main_call2_v0 : Ref sig .tc := ⟨.hbm, 125, rfl⟩
abbrev main_v92 : Ref sig .tc := ⟨.hbm, 126, rfl⟩
abbrev main_cst_14 : Ref sig .tc := ⟨.hbm, 127, rfl⟩
abbrev main_v93 : Ref sig .tc := ⟨.hbm, 128, rfl⟩
abbrev main_v94 : Ref sig .tc := ⟨.hbm, 129, rfl⟩
abbrev main_cst_15 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call3_cst : Ref sig .tc := ⟨.hbm, 136, rfl⟩
abbrev main_call3_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call4_cst : Ref sig .tc := ⟨.hbm, 142, rfl⟩
abbrev main_call4_v0 : Ref sig .tc := ⟨.hbm, 143, rfl⟩
abbrev main_call4_cst_0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_v6 : Ref sig .tc := ⟨.hbm, 150, rfl⟩
abbrev main_call4_cst_1 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_v104 : Ref sig .tc := ⟨.hbm, 156, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S1x16 : S_.BroadcastsInDim S1x16 (![] : Fin 0 → Fin S1x16.rank)
  bcast_S8_S1x8_1 : S8.BroadcastsInDim S1x8 (![1] : Fin 1 → Fin S1x8.rank)
  bcast_S_S1x8 : S_.BroadcastsInDim S1x8 (![] : Fin 0 → Fin S1x8.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S1x16_S16x8_S1x8_1_0_0_1_n_n_wf : DotDims.WF S1x16 S16x8 S1x8 [1] [0] [0] [1] [] []
  dot_S1x8_S8x10_S1x10_1_0_0_1_n_n_wf : DotDims.WF S1x8 S8x10 S1x10 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S1x16_S16x8_S1x8_1_0_0_1_n_n : DotDims S1x16 S16x8 S1x8 where
  lhsContracting := [1]
  rhsContracting := [0]
  lhsNonContracting := [0]
  rhsNonContracting := [1]
  lhsBatch := []
  rhsBatch := []
  wf := dot_S1x16_S16x8_S1x8_1_0_0_1_n_n_wf
def dot_S1x8_S8x10_S1x10_1_0_0_1_n_n : DotDims S1x8 S8x10 S1x10 where
  lhsContracting := [1]
  rhsContracting := [0]
  lhsNonContracting := [0]
  rhsNonContracting := [1]
  lhsBatch := []
  rhsBatch := []
  wf := dot_S1x8_S8x10_S1x10_1_0_0_1_n_n_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RegionLib.lean ====
/-
  Two small facts the row-tiled layers share.

  A column of shape [a, 1] broadcast to [a, b] has, at (p, c), the column's entry p: the broadcast repeats the column
  along the second axis. And the zero offsets of a rank-2 rectangle are the constant zero function.
-/
import Idealize.ShloMosaic.Lib.ValueLayout

namespace Cert.KernelIdeal.RegionValue

open Idealize.ShloMosaic Idealize.ShloMosaic.ValueIdx

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a rank-2 rectangle, as the constant function. -/
theorem zeroOffsets : (![0, 0] : Fin 2 → Nat) = fun _ => 0 := funext fun a => by fin_cases a <;> rfl

end Cert.KernelIdeal.RegionValue
-- ==== Proof.RegionSpec.lean ====
/-
  What a row-tiled linear layer leaves in its result arrays, as functions of whole arrays over the extended reals:
  the plain product of two matrices, a matrix scaled row by row by a column and shifted by a row, and `max (a + p, 0)`.
-/
import Idealize.ShloMosaic.Lib.ValueIdx
import Idealize.ShloMosaic.PureOps.Ideal

noncomputable section

namespace Cert.RegionSpec

open Idealize.ShloMosaic Idealize.ShloMosaic.ValueIdx

/-- Entry `(a, b)` of the product: `∑ c, A(a,c) · B(c,b)`. -/
def prod (m k n : Nat) (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- Entry `(a, b)` of `P` times the column's entry `a` plus the row's entry `b`. -/
def scaleShift (m n : Nat) (P : (⟨2, ![m, n]⟩ : Shape).Idx → EReal) (s : (⟨2, ![m, 1]⟩ : Shape).Idx → EReal)
    (b : (⟨2, ![1, n]⟩ : Shape).Idx → EReal) : (⟨2, ![m, n]⟩ : Shape).Idx → EReal :=
  fun i => P i * s (ix2 (i 0) (0 : Fin 1)) + b (ix2 (0 : Fin 1) (i 1))

/-- `max (a + p, 0)` entry by entry. -/
def relu (m n : Nat) (a p : (⟨2, ![m, n]⟩ : Shape).Idx → EReal) : (⟨2, ![m, n]⟩ : Shape).Idx → EReal :=
  fun i => max (a i + p i) 0

end Cert.RegionSpec

end
-- ==== Proof.Region0.lean ====
/-
  The first layer. The grid has 25 points; point t handles rows 4000 t … 4000 t + 3999 of the [100000, 256] features.
  Per block the body multiplies the block of features by the whole [256, 64] weights, stores that product, and stores
  the product scaled row by row by a [4000, 1] column and shifted by a [1, 64] row. The weights and the row are whole at
  every point, the features and the column move with the output. So the two result arrays are, entry by entry,
  (x·w)(r, j) = Σ k, x(r, k)·w(k, j) and (x·w)(r, j)·s(r, 0) + b(0, j) of the four input arrays as the region finds them.
-/
import proofs.«153369_j67937792688718_2_alg».proof.Proof.Gen.KernelIdeal.Frame
import proofs.«153369_j67937792688718_2_alg».proof.Proof.LibPlainProduct
import proofs.«153369_j67937792688718_2_alg».proof.Proof.RegionLib
import proofs.«153369_j67937792688718_2_alg».proof.Proof.RegionSpec
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The two results as functions of the whole input arrays -/

/-- Entry (r, j) of the product of the features x and the weights w. -/
def featureProduct (x : S100000x256.Idx → EReal) (w : S256x64.Idx → EReal) (r : Fin 100000) (j : Fin 64) : EReal :=
  ∑ k : Fin 256, x (ix2 r k) * w (ix2 k j)

/-- The product x·w as a [100000, 64] array. -/
def firstProduct (x : S100000x256.Idx → EReal) (w : S256x64.Idx → EReal) : S100000x64.Idx → EReal :=
  fun i => featureProduct x w ⟨(i 0).val, idx2_lt0 i⟩ ⟨(i 1).val, idx2_lt1 i⟩

/-- The product scaled row by row by the column s and shifted by the row b. -/
def firstAffine (x : S100000x256.Idx → EReal) (w : S256x64.Idx → EReal) (s : S100000x1.Idx → EReal)
    (b : S1x64.Idx → EReal) : S100000x64.Idx → EReal :=
  fun i => featureProduct x w ⟨(i 0).val, idx2_lt0 i⟩ ⟨(i 1).val, idx2_lt1 i⟩
      * s (ix2 (⟨(i 0).val, idx2_lt0 i⟩ : Fin 100000) (0 : Fin 1))
    + b (ix2 (0 : Fin 1) (⟨(i 1).val, idx2_lt1 i⟩ : Fin 64))

theorem firstProduct_apply (x : S100000x256.Idx → EReal) (w : S256x64.Idx → EReal) (r : Fin 100000) (j : Fin 64) :
    firstProduct x w (ix2 r j) = ∑ k : Fin 256, x (ix2 r k) * w (ix2 k j) := rfl

theorem firstAffine_apply (x : S100000x256.Idx → EReal) (w : S256x64.Idx → EReal) (s : S100000x1.Idx → EReal)
    (b : S1x64.Idx → EReal) (r : Fin 100000) (j : Fin 64) :
    firstAffine x w s b (ix2 r j)
      = (∑ k : Fin 256, x (ix2 r k) * w (ix2 k j)) * s (ix2 r (0 : Fin 1)) + b (ix2 (0 : Fin 1) j) := rfl

/-! ## The body's arithmetic on one block, entry by entry -/

/-- The block product: entry (a, j) is the sum over k of the feature block's (a, k) times the weights' (k, j). The
    change of format before the product is the identity on extended reals, the accumulator starts at zero. -/
theorem product_block (x0 : FVec Ideal S4000x256 .f32) (x1 : FVec Ideal S256x64 .bf16) (a : Fin 4000) (j : Fin 64) :
    k0_pay1 (F := Ideal) x0 x1 (ix2 a j) = ∑ k : Fin 256, x0 (ix2 a k) * x1 (ix2 k j) := by
  unfold k0_pay1
  show matmul dot_S4000x256_S256x64_S4000x64_1_0_0_1_n_n none (truncf .bf16 x0 bitsLt_bf16_f32)
      (shapeCast S256x64 x1 shapeCasts_S256x64_S256x64) (constant S4000x64 .f32 0x00000000#32) (ix2 a j) = _
  rw [shapeCast_self]
  exact Cert.PlainProduct.matmul_plain_apply dot_S4000x256_S256x64_S4000x64_1_0_0_1_n_n rfl none
    (truncf .bf16 x0 bitsLt_bf16_f32) x1 a j

/-- The first store's payload is the block product (its change of format is the identity). -/
theorem stored_product_block (x0 : FVec Ideal S4000x256 .f32) (x1 : FVec Ideal S256x64 .bf16) (a : Fin 4000) (j : Fin 64) :
    k0_pay2 (F := Ideal) x0 x1 (ix2 a j) = ∑ k : Fin 256, x0 (ix2 a k) * x1 (ix2 k j) := by
  unfold k0_pay2
  exact product_block x0 x1 a j

/-- The second store's payload: the block product times the column's entry of the row, plus the row's entry of the
    column. -/
theorem affine_block (x0 : FVec Ideal S4000x256 .f32) (x1 : FVec Ideal S256x64 .bf16) (x3 : FVec Ideal S4000x1 .f32)
    (x2 : FVec Ideal S1x64 .f32) (a : Fin 4000) (j : Fin 64) :
    k0_pay3 (F := Ideal) x0 x1 x3 x2 (ix2 a j)
      = (∑ k : Fin 256, x0 (ix2 a k) * x1 (ix2 k j)) * x3 (ix2 a (0 : Fin 1)) + x2 (ix2 (0 : Fin 1) j) := by
  unfold k0_pay3
  show k0_pay1 x0 x1 (ix2 a j)
        * broadcastTo S4000x64 (shapeCast S4000x1 x3 shapeCasts_S4000x1_S4000x1) broadcasts_S4000x1_S4000x64 (ix2 a j)
      + broadcastTo S4000x64 (shapeCast S1x64 x2 shapeCasts_S1x64_S1x64) broadcasts_S1x64_S4000x64 (ix2 a j) = _
  rw [shapeCast_self, shapeCast_self, broadcastTo_a1_ab_apply, broadcastTo_1b_ab_apply, product_block]

/-! ## Where each window's block sits in its array -/

/-- The block indices over the grid: the features, the column and both outputs are at row block t, the weights and the
    row at their one block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block at point t: its row a is row 4000 t + a of the array. -/
theorem features_block (c : Dev nD) (t : Fin cfg0.N) (a : Fin 4000) (k : Fin 256) (r : Fin 100000)
    (hr : r.val = t.val * 4000 + a.val) :
    iblk0 V c 0 t (ix2 a k) = V c main_arg0 (ix2 r k) := by
  obtain ⟨e0, e1, -⟩ := blockIndex0 t
  unfold iblk0
  rw [View.read_apply]
  refine congrArg (V c main_arg0) (funext fun ax => Fin.ext ?_)
  match ax with
  | ⟨0, _⟩ => show win0_0.index t (0 : Fin 2) * 4000 + 1 * a.val = r.val; omega
  | ⟨1, _⟩ => show win0_0.index t (1 : Fin 2) * 256 + 1 * k.val = k.val; omega

/-- The weights' block at every point is the whole array. -/
theorem weights_block (c : Dev nD) (t : Fin cfg0.N) (k : Fin 256) (j : Fin 64) :
    iblk0 V c 1 t (ix2 k j) = V c main_v27 (ix2 k j) := by
  obtain ⟨-, -, e2, e3, -⟩ := blockIndex0 t
  unfold iblk0
  rw [View.read_apply]
  refine congrArg (V c main_v27) (funext fun ax => Fin.ext ?_)
  match ax with
  | ⟨0, _⟩ => show win0_1.index t (0 : Fin 2) * 256 + 1 * k.val = k.val; omega
  | ⟨1, _⟩ => show win0_1.index t (1 : Fin 2) * 64 + 1 * j.val = j.val; omega

/-- The row's block at every point is the whole [1, 64] array. -/
theorem shift_block (c : Dev nD) (t : Fin cfg0.N) (j : Fin 64) :
    iblk0 V c 2 t (ix2 (0 : Fin 1) j) = V c main_v28 (ix2 (0 : Fin 1) j) := by
  obtain ⟨-, -, -, -, e4, e5, -⟩ := blockIndex0 t
  unfold iblk0
  rw [View.read_apply]
  refine congrArg (V c main_v28) (funext fun ax => Fin.ext ?_)
  match ax with
  | ⟨0, _⟩ => show win0_2.index t (0 : Fin 2) * 1 + 1 * 0 = 0; omega
  | ⟨1, _⟩ => show win0_2.index t (1 : Fin 2) * 64 + 1 * j.val = j.val; omega

/-- The column's block at point t: its entry a is entry 4000 t + a of the array. -/
theorem scale_block (c : Dev nD) (t : Fin cfg0.N) (a : Fin 4000) (r : Fin 100000)
    (hr : r.val = t.val * 4000 + a.val) :
    iblk0 V c 3 t (ix2 a (0 : Fin 1)) = V c main_v29 (ix2 r (0 : Fin 1)) := by
  obtain ⟨-, -, -, -, -, -, e6, e7, -⟩ := blockIndex0 t
  unfold iblk0
  rw [View.read_apply]
  refine congrArg (V c main_v29) (funext fun ax => Fin.ext ?_)
  match ax with
  | ⟨0, _⟩ => show win0_3.index t (0 : Fin 2) * 4000 + 1 * a.val = r.val; omega
  | ⟨1, _⟩ => show win0_3.index t (1 : Fin 2) * 1 + 1 * 0 = 0; omega

/-- A sum of products of block entries is the array's product entry, when the blocks' entries are the arrays'. -/
theorem featureProduct_of_blocks (A : S100000x256.Idx → EReal) (W : S256x64.Idx → EReal)
    (B0 : FVec Ideal S4000x256 .f32) (B1 : FVec Ideal S256x64 .bf16) (a : Fin 4000) (j : Fin 64) (r : Fin 100000)
    (h0 : ∀ k : Fin 256, B0 (ix2 a k) = A (ix2 r k)) (h1 : ∀ k : Fin 256, B1 (ix2 k j) = W (ix2 k j)) :
    (∑ k : Fin 256, B0 (ix2 a k) * B1 (ix2 k j)) = featureProduct A W r j :=
  Finset.sum_congr rfl fun k _ => by rw [h0 k, h1 k]

/-! ## What each point writes back, and the whole arrays -/

/-- Entry (a, j) of the output's block at point t sits at row 4000 t + a, column j of the array. -/
theorem output_block_row (t : Fin cfg0.N) (a : Fin 4000) (j : Fin 64) :
    ((((cfg0.win 4).blk t).view.emb (ix2 a j)) 0).val = t.val * 4000 + a.val
    ∧ ((((cfg0.win 4).blk t).view.emb (ix2 a j)) 1).val = j.val
    ∧ ((((cfg0.win 5).blk t).view.emb (ix2 a j)) 0).val = t.val * 4000 + a.val
    ∧ ((((cfg0.win 5).blk t).view.emb (ix2 a j)) 1).val = j.val := by
  obtain ⟨-, -, -, -, -, -, -, -, e8, e9, e10, e11⟩ := blockIndex0 t
  refine ⟨?_, ?_, ?_, ?_⟩
  · show win0_4.index t (0 : Fin 2) * 4000 + 1 * a.val = _; omega
  · show win0_4.index t (1 : Fin 2) * 64 + 1 * j.val = _; omega
  · show win0_5.index t (0 : Fin 2) * 4000 + 1 * a.val = _; omega
  · show win0_5.index t (1 : Fin 2) * 64 + 1 * j.val = _; omega

/-- Point t writes back block t of the product of the features and the weights. -/
theorem flushed0_4_eq (c : Dev nD) (t : Fin cfg0.N) :
    (dat0 (F := Ideal) V c).flushed 4 t
      = ((cfg0.win 4).blk t).view.read (Elt Ideal) (firstProduct (V c main_arg0) (V c main_v27)) := by
  show (cfg0.win 4).cut (grid0.coords t) ((dat0 (F := Ideal) V c).after 4 t) = _
  rw [after0_4]
  unfold out0_4
  rw [View.canon_unit_zero zeroOffsets]
  simp only [View.ld_unit_zero (S := S4000x256) zeroOffsets, View.ld_unit_zero (S := S256x64) zeroOffsets]
  funext y
  obtain ⟨a, j, rfl⟩ : ∃ (a : Fin 4000) (j : Fin 64), y = ix2 a j := ⟨y 0, y 1, eq_ix2 y⟩
  obtain ⟨hr, hj, -, -⟩ := output_block_row t a j
  show k0_pay2 (F := Ideal) (iblk0 V c 0 t) (iblk0 V c 1 t) (ix2 a j)
    = firstProduct (V c main_arg0) (V c main_v27) (((cfg0.win 4).blk t).view.emb (ix2 a j))
  refine (stored_product_block (iblk0 V c 0 t) (iblk0 V c 1 t) a j).trans ?_
  have hj' : (⟨((((cfg0.win 4).blk t).view.emb (ix2 a j)) 1).val, idx2_lt1 _⟩ : Fin 64) = j := Fin.ext hj
  show _ = featureProduct (V c main_arg0) (V c main_v27) ⟨((((cfg0.win 4).blk t).view.emb (ix2 a j)) 0).val, idx2_lt0 _⟩
    ⟨((((cfg0.win 4).blk t).view.emb (ix2 a j)) 1).val, idx2_lt1 _⟩
  rw [hj']
  exact featureProduct_of_blocks (V c main_arg0) (V c main_v27) (iblk0 V c 0 t) (iblk0 V c 1 t) a j
    ⟨((((cfg0.win 4).blk t).view.emb (ix2 a j)) 0).val, idx2_lt0 _⟩
    (fun k => features_block V c t a k _ hr) (fun k => weights_block V c t k j)

/-- Point t writes back block t of the scaled and shifted product. -/
theorem flushed0_5_eq (c : Dev nD) (t : Fin cfg0.N) :
    (dat0 (F := Ideal) V c).flushed 5 t
      = ((cfg0.win 5).blk t).view.read (Elt Ideal)
          (firstAffine (V c main_arg0) (V c main_v27) (V c main_v29) (V c main_v28)) := by
  show (cfg0.win 5).cut (grid0.coords t) ((dat0 (F := Ideal) V c).after 5 t) = _
  rw [after0_5]
  unfold out0_5
  rw [View.canon_unit_zero zeroOffsets]
  simp only [View.ld_unit_zero (S := S4000x256) zeroOffsets, View.ld_unit_zero (S := S256x64) zeroOffsets,
    View.ld_unit_zero (S := S4000x1) zeroOffsets, View.ld_unit_zero (S := S1x64) zeroOffsets]
  funext y
  obtain ⟨a, j, rfl⟩ : ∃ (a : Fin 4000) (j : Fin 64), y = ix2 a j := ⟨y 0, y 1, eq_ix2 y⟩
  obtain ⟨-, -, hr, hj⟩ := output_block_row t a j
  show k0_pay3 (F := Ideal) (iblk0 V c 0 t) (iblk0 V c 1 t) (iblk0 V c 3 t) (iblk0 V c 2 t) (ix2 a j)
    = firstAffine (V c main_arg0) (V c main_v27) (V c main_v29) (V c main_v28) (((cfg0.win 5).blk t).view.emb (ix2 a j))
  refine (affine_block (iblk0 V c 0 t) (iblk0 V c 1 t) (iblk0 V c 3 t) (iblk0 V c 2 t) a j).trans ?_
  have hj' : (⟨((((cfg0.win 5).blk t).view.emb (ix2 a j)) 1).val, idx2_lt1 _⟩ : Fin 64) = j := Fin.ext hj
  show _ = featureProduct (V c main_arg0) (V c main_v27) ⟨((((cfg0.win 5).blk t).view.emb (ix2 a j)) 0).val, idx2_lt0 _⟩
        ⟨((((cfg0.win 5).blk t).view.emb (ix2 a j)) 1).val, idx2_lt1 _⟩
      * V c main_v29 (ix2 (⟨((((cfg0.win 5).blk t).view.emb (ix2 a j)) 0).val, idx2_lt0 _⟩ : Fin 100000) (0 : Fin 1))
    + V c main_v28 (ix2 (0 : Fin 1) (⟨((((cfg0.win 5).blk t).view.emb (ix2 a j)) 1).val, idx2_lt1 _⟩ : Fin 64))
  rw [hj', featureProduct_of_blocks (V c main_arg0) (V c main_v27) (iblk0 V c 0 t) (iblk0 V c 1 t) a j
    ⟨((((cfg0.win 5).blk t).view.emb (ix2 a j)) 0).val, idx2_lt0 _⟩
    (fun k => features_block V c t a k _ hr) (fun k => weights_block V c t k j),
    scale_block V c t a ⟨((((cfg0.win 5).blk t).view.emb (ix2 a j)) 0).val, idx2_lt0 _⟩ hr, shift_block V c t j]

/-- An entry of an output array lies in point t's block iff each coordinate lies in the block's range on its axis. -/
theorem mem_block0_4 (t : Fin cfg0.N) (i : S100000x64.Idx) :
    i ∈ ((cfg0.win 4).blk t).view.set ↔ ∀ a : Fin 2, win0_4.index t a * S4000x64.size a ≤ (i a).val
      ∧ (i a).val < win0_4.index t a * S4000x64.size a + S4000x64.size a := by
  show i ∈ ((View.whole main_v30_0).slice (win0_4.rect t)).set ↔ _
  rw [View.set_slice_whole, Rect.mem_set_unit]
  exact Iff.rfl

theorem mem_block0_5 (t : Fin cfg0.N) (i : S100000x64.Idx) :
    i ∈ ((cfg0.win 5).blk t).view.set ↔ ∀ a : Fin 2, win0_5.index t a * S4000x64.size a ≤ (i a).val
      ∧ (i a).val < win0_5.index t a * S4000x64.size a + S4000x64.size a := by
  show i ∈ ((View.whole main_v30_1).slice (win0_5.rect t)).set ↔ _
  rw [View.set_slice_whole, Rect.mem_set_unit]
  exact Iff.rfl

/-- Row r of an output array is covered by the point r / 4000. -/
theorem covering_point0 (i : S100000x64.Idx) : (i 0).val / 4000 < cfg0.N := by
  have hN : cfg0.N = 25 := N_0
  have h0 : (i 0).val < 100000 := (i 0).isLt
  omega

/-- The first result array after the region: the product of the features and the weights. -/
theorem final0_4 (c : Dev nD) :
    (dat0 (F := Ideal) V c).arrAt 4 cfg0.N = firstProduct (V c main_arg0) (V c main_v27) :=
  (dat0 (F := Ideal) V c).arrAt_eq_of_cover 4 (firstProduct (V c main_arg0) (V c main_v27))
    (fun t _ => flushed0_4_eq V c t) fun i => ⟨⟨(i 0).val / 4000, covering_point0 i⟩, flush0_4 _, by
      rw [mem_block0_4]
      obtain ⟨-, -, -, -, -, -, -, -, e8, e9, -⟩ := blockIndex0 ⟨(i 0).val / 4000, covering_point0 i⟩
      have e8' : win0_4.index ⟨(i 0).val / 4000, covering_point0 i⟩ (0 : Fin 2) = (i 0).val / 4000 := e8
      have h0 : (i 0).val < 100000 := (i 0).isLt
      have h1 : (i 1).val < 64 := (i 1).isLt
      intro a
      match a with
      | ⟨0, _⟩ =>
        show win0_4.index ⟨(i 0).val / 4000, covering_point0 i⟩ (0 : Fin 2) * 4000 ≤ (i 0).val
          ∧ (i 0).val < win0_4.index ⟨(i 0).val / 4000, covering_point0 i⟩ (0 : Fin 2) * 4000 + 4000
        omega
      | ⟨1, _⟩ =>
        show win0_4.index ⟨(i 0).val / 4000, covering_point0 i⟩ (1 : Fin 2) * 64 ≤ (i 1).val
          ∧ (i 1).val < win0_4.index ⟨(i 0).val / 4000, covering_point0 i⟩ (1 : Fin 2) * 64 + 64
        omega⟩

/-- The second result array after the region: the product scaled by the column and shifted by the row. -/
theorem final0_5 (c : Dev nD) :
    (dat0 (F := Ideal) V c).arrAt 5 cfg0.N
      = firstAffine (V c main_arg0) (V c main_v27) (V c main_v29) (V c main_v28) :=
  (dat0 (F := Ideal) V c).arrAt_eq_of_cover 5 (firstAffine (V c main_arg0) (V c main_v27) (V c main_v29) (V c main_v28))
    (fun t _ => flushed0_5_eq V c t) fun i => ⟨⟨(i 0).val / 4000, covering_point0 i⟩, flush0_5 _, by
      rw [mem_block0_5]
      obtain ⟨-, -, -, -, -, -, -, -, -, -, e10, e11⟩ := blockIndex0 ⟨(i 0).val / 4000, covering_point0 i⟩
      have e10' : win0_5.index ⟨(i 0).val / 4000, covering_point0 i⟩ (0 : Fin 2) = (i 0).val / 4000 := e10
      have h0 : (i 0).val < 100000 := (i 0).isLt
      have h1 : (i 1).val < 64 := (i 1).isLt
      intro a
      match a with
      | ⟨0, _⟩ =>
        show win0_5.index ⟨(i 0).val / 4000, covering_point0 i⟩ (0 : Fin 2) * 4000 ≤ (i 0).val
          ∧ (i 0).val < win0_5.index ⟨(i 0).val / 4000, covering_point0 i⟩ (0 : Fin 2) * 4000 + 4000
        omega
      | ⟨1, _⟩ =>
        show win0_5.index ⟨(i 0).val / 4000, covering_point0 i⟩ (1 : Fin 2) * 64 ≤ (i 1).val
          ∧ (i 1).val < win0_5.index ⟨(i 0).val / 4000, covering_point0 i⟩ (1 : Fin 2) * 64 + 64
        omega⟩

/-- Entry (r, j) of the first result array. -/
theorem region0_bf16_at (c : Dev nD) (r : Fin 100000) (j : Fin 64) :
    (dat0 (F := Ideal) V c).arrAt 4 cfg0.N (ix2 r j) = firstProduct (V c main_arg0) (V c main_v27) (ix2 r j) :=
  congrFun (final0_4 V c) (ix2 r j)

/-- Entry (r, j) of the second result array. -/
theorem region0_f32_at (c : Dev nD) (r : Fin 100000) (j : Fin 64) :
    (dat0 (F := Ideal) V c).arrAt 5 cfg0.N (ix2 r j)
      = firstAffine (V c main_arg0) (V c main_v27) (V c main_v29) (V c main_v28) (ix2 r j) :=
  congrFun (final0_5 V c) (ix2 r j)

/-- The product array is the shared specification's plain product. -/
theorem firstProduct_eq (x : S100000x256.Idx → EReal) (w : S256x64.Idx → EReal) :
    firstProduct x w = Cert.RegionSpec.prod 100000 256 64 x w := rfl

/-- The scaled and shifted product is the shared specification's, of the plain product. -/
theorem firstAffine_eq (x : S100000x256.Idx → EReal) (w : S256x64.Idx → EReal) (s : S100000x1.Idx → EReal)
    (b : S1x64.Idx → EReal) :
    firstAffine x w s b = Cert.RegionSpec.scaleShift 100000 64 (Cert.RegionSpec.prod 100000 256 64 x w) s b := rfl

section
variable (c : Dev nD)

/-- The first result array after the region, as the shared specification's function of the input arrays. -/
theorem region0_bf16 : (dat0 (F := Ideal) V c).arrAt 4 cfg0.N
    = Cert.RegionSpec.prod 100000 256 64 (V c main_arg0) (V c main_v27) :=
  (final0_4 V c).trans (firstProduct_eq (V c main_arg0) (V c main_v27))

/-- The second result array after the region, as the shared specification's function of the input arrays. -/
theorem region0_f32 : (dat0 (F := Ideal) V c).arrAt 5 cfg0.N
    = Cert.RegionSpec.scaleShift 100000 64 (Cert.RegionSpec.prod 100000 256 64 (V c main_arg0) (V c main_v27))
        (V c main_v29) (V c main_v28) :=
  (final0_5 V c).trans (firstAffine_eq (V c main_arg0) (V c main_v27) (V c main_v29) (V c main_v28))

end

end Cert.KernelIdeal.RegionValue

end
-- ==== Proof.Region1.lean ====
/-
  The second layer. The grid has 25 points; point t handles rows 4000 t … 4000 t + 3999. Per block the body first forms
  the hidden activations h = max(g + p, 0) from the blocks of its first two inputs, then multiplies h by the whole
  [64, 32] weights, stores that product, and stores the product scaled row by row by a [4000, 1] column and shifted by a
  [1, 32] row. The weights and the row are whole at every point; the two inputs and the column move with the output. So
  the two result arrays are, entry by entry, (h·w)(r, j) = Σ k, max(g(r, k) + p(r, k), 0)·w(k, j) and
  (h·w)(r, j)·s(r, 0) + b(0, j) of the five input arrays as the region finds them.
-/
import proofs.«153369_j67937792688718_2_alg».proof.Proof.Gen.KernelIdeal.Frame
import proofs.«153369_j67937792688718_2_alg».proof.Proof.LibPlainProduct
import proofs.«153369_j67937792688718_2_alg».proof.Proof.RegionLib
import proofs.«153369_j67937792688718_2_alg».proof.Proof.RegionSpec
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The two results as functions of the whole input arrays -/

/-- Entry (r, j) of the product of the hidden activations max(g + p, 0) and the weights w. -/
def hiddenProduct1 (g p : S100000x64.Idx → EReal) (w : S64x32.Idx → EReal) (r : Fin 100000) (j : Fin 32) : EReal :=
  ∑ k : Fin 64, max (g (ix2 r k) + p (ix2 r k)) 0 * w (ix2 k j)

/-- That product as a [100000, 32] array. -/
def secondProduct (g p : S100000x64.Idx → EReal) (w : S64x32.Idx → EReal) : S100000x32.Idx → EReal :=
  fun i => hiddenProduct1 g p w ⟨(i 0).val, idx2_lt0 i⟩ ⟨(i 1).val, idx2_lt1 i⟩

/-- The product scaled row by row by the column s and shifted by the row b. -/
def secondAffine (g p : S100000x64.Idx → EReal) (w : S64x32.Idx → EReal) (s : S100000x1.Idx → EReal)
    (b : S1x32.Idx → EReal) : S100000x32.Idx → EReal :=
  fun i => hiddenProduct1 g p w ⟨(i 0).val, idx2_lt0 i⟩ ⟨(i 1).val, idx2_lt1 i⟩
      * s (ix2 (⟨(i 0).val, idx2_lt0 i⟩ : Fin 100000) (0 : Fin 1))
    + b (ix2 (0 : Fin 1) (⟨(i 1).val, idx2_lt1 i⟩ : Fin 32))

theorem secondProduct_apply (g p : S100000x64.Idx → EReal) (w : S64x32.Idx → EReal) (r : Fin 100000) (j : Fin 32) :
    secondProduct g p w (ix2 r j) = ∑ k : Fin 64, max (g (ix2 r k) + p (ix2 r k)) 0 * w (ix2 k j) := rfl

theorem secondAffine_apply (g p : S100000x64.Idx → EReal) (w : S64x32.Idx → EReal) (s : S100000x1.Idx → EReal)
    (b : S1x32.Idx → EReal) (r : Fin 100000) (j : Fin 32) :
    secondAffine g p w s b (ix2 r j)
      = (∑ k : Fin 64, max (g (ix2 r k) + p (ix2 r k)) 0 * w (ix2 k j)) * s (ix2 r (0 : Fin 1))
        + b (ix2 (0 : Fin 1) j) := rfl

/-! ## The body's arithmetic on one block, entry by entry -/

/-- The block product: entry (a, j) is the sum over k of max(x0(a, k) + x1(a, k), 0) times the weights' (k, j). The
    change of format before the product is the identity on extended reals, the accumulator starts at zero. -/
theorem product_block1 (x0 x1 : FVec Ideal S4000x64 .f32) (x2 : FVec Ideal S64x32 .bf16) (a : Fin 4000) (j : Fin 32) :
    k1_pay1 (F := Ideal) x0 x1 x2 (ix2 a j)
      = ∑ k : Fin 64, max (x0 (ix2 a k) + x1 (ix2 a k)) 0 * x2 (ix2 k j) := by
  unfold k1_pay1
  show matmul dot_S4000x64_S64x32_S4000x32_1_0_0_1_n_n none
      (truncf .bf16 (maximumf (addf (shapeCast S4000x64 x0 shapeCasts_S4000x64_S4000x64)
          (shapeCast S4000x64 x1 shapeCasts_S4000x64_S4000x64))
        (broadcast S4000x64 (Scalar.ofBits (F := Ideal) .f32 0x00000000#32))) bitsLt_bf16_f32)
      (shapeCast S64x32 x2 shapeCasts_S64x32_S64x32) (constant S4000x32 .f32 0x00000000#32) (ix2 a j) = _
  rw [shapeCast_self, shapeCast_self, shapeCast_self]
  refine (Cert.PlainProduct.matmul_plain_apply dot_S4000x64_S64x32_S4000x32_1_0_0_1_n_n rfl none
    (truncf .bf16 (maximumf (addf x0 x1) (broadcast S4000x64 (Scalar.ofBits (F := Ideal) .f32 0x00000000#32)))
      bitsLt_bf16_f32) x2 a j).trans ?_
  refine Finset.sum_congr rfl fun k _ => ?_
  show max (x0 (ix2 a k) + x1 (ix2 a k)) (Ideal.ofBits .f32 0x00000000#32) * x2 (ix2 k j) = _
  rw [Ideal.ofBits_zero_f32]

/-- The first store's payload is the block product (its change of format is the identity). -/
theorem stored_product_block1 (x0 x1 : FVec Ideal S4000x64 .f32) (x2 : FVec Ideal S64x32 .bf16) (a : Fin 4000)
    (j : Fin 32) :
    k1_pay2 (F := Ideal) x0 x1 x2 (ix2 a j)
      = ∑ k : Fin 64, max (x0 (ix2 a k) + x1 (ix2 a k)) 0 * x2 (ix2 k j) := by
  unfold k1_pay2
  exact product_block1 x0 x1 x2 a j

/-- The second store's payload: the block product times the column's entry of the row, plus the row's entry of the
    column. -/
theorem affine_block1 (x0 x1 : FVec Ideal S4000x64 .f32) (x2 : FVec Ideal S64x32 .bf16) (x4 : FVec Ideal S4000x1 .f32)
    (x3 : FVec Ideal S1x32 .f32) (a : Fin 4000) (j : Fin 32) :
    k1_pay3 (F := Ideal) x0 x1 x2 x4 x3 (ix2 a j)
      = (∑ k : Fin 64, max (x0 (ix2 a k) + x1 (ix2 a k)) 0 * x2 (ix2 k j)) * x4 (ix2 a (0 : Fin 1))
        + x3 (ix2 (0 : Fin 1) j) := by
  unfold k1_pay3
  show k1_pay1 x0 x1 x2 (ix2 a j)
        * broadcastTo S4000x32 (shapeCast S4000x1 x4 shapeCasts_S4000x1_S4000x1) broadcasts_S4000x1_S4000x32 (ix2 a j)
      + broadcastTo S4000x32 (shapeCast S1x32 x3 shapeCasts_S1x32_S1x32) broadcasts_S1x32_S4000x32 (ix2 a j) = _
  rw [shapeCast_self, shapeCast_self, broadcastTo_a1_ab_apply, broadcastTo_1b_ab_apply, product_block1]

/-! ## Where each window's block sits in its array -/

/-- The block indices over the grid: the two inputs, the column and both outputs are at row block t, the weights and
    the row at their one block. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The first input's block at point t: its row a is row 4000 t + a of the array. -/
theorem gathered_block1 (c : Dev nD) (t : Fin cfg1.N) (a : Fin 4000) (k : Fin 64) (r : Fin 100000)
    (hr : r.val = t.val * 4000 + a.val) :
    iblk1 V c 0 t (ix2 a k) = V c main_v44 (ix2 r k) := by
  obtain ⟨e0, e1, -⟩ := blockIndex1 t
  unfold iblk1
  rw [View.read_apply]
  refine congrArg (V c main_v44) (funext fun ax => Fin.ext ?_)
  match ax with
  | ⟨0, _⟩ => show win1_0.index t (0 : Fin 2) * 4000 + 1 * a.val = r.val; omega
  | ⟨1, _⟩ => show win1_0.index t (1 : Fin 2) * 64 + 1 * k.val = k.val; omega

/-- The second input's block at point t: its row a is row 4000 t + a of the array. -/
theorem previous_block1 (c : Dev nD) (t : Fin cfg1.N) (a : Fin 4000) (k : Fin 64) (r : Fin 100000)
    (hr : r.val = t.val * 4000 + a.val) :
    iblk1 V c 1 t (ix2 a k) = V c main_v30_1 (ix2 r k) := by
  obtain ⟨-, -, e2, e3, -⟩ := blockIndex1 t
  unfold iblk1
  rw [View.read_apply]
  refine congrArg (V c main_v30_1) (funext fun ax => Fin.ext ?_)
  match ax with
  | ⟨0, _⟩ => show win1_1.index t (0 : Fin 2) * 4000 + 1 * a.val = r.val; omega
  | ⟨1, _⟩ => show win1_1.index t (1 : Fin 2) * 64 + 1 * k.val = k.val; omega

/-- The weights' block at every point is the whole array. -/
theorem weights_block1 (c : Dev nD) (t : Fin cfg1.N) (k : Fin 64) (j : Fin 32) :
    iblk1 V c 2 t (ix2 k j) = V c main_v45 (ix2 k j) := by
  obtain ⟨-, -, -, -, e4, e5, -⟩ := blockIndex1 t
  unfold iblk1
  rw [View.read_apply]
  refine congrArg (V c main_v45) (funext fun ax => Fin.ext ?_)
  match ax with
  | ⟨0, _⟩ => show win1_2.index t (0 : Fin 2) * 64 + 1 * k.val = k.val; omega
  | ⟨1, _⟩ => show win1_2.index t (1 : Fin 2) * 32 + 1 * j.val = j.val; omega

/-- The row's block at every point is the whole [1, 32] array. -/
theorem shift_block1 (c : Dev nD) (t : Fin cfg1.N) (j : Fin 32) :
    iblk1 V c 3 t (ix2 (0 : Fin 1) j) = V c main_v46 (ix2 (0 : Fin 1) j) := by
  obtain ⟨-, -, -, -, -, -, e6, e7, -⟩ := blockIndex1 t
  unfold iblk1
  rw [View.read_apply]
  refine congrArg (V c main_v46) (funext fun ax => Fin.ext ?_)
  match ax with
  | ⟨0, _⟩ => show win1_3.index t (0 : Fin 2) * 1 + 1 * 0 = 0; omega
  | ⟨1, _⟩ => show win1_3.index t (1 : Fin 2) * 32 + 1 * j.val = j.val; omega

/-- The column's block at point t: its entry a is entry 4000 t + a of the array. -/
theorem scale_block1 (c : Dev nD) (t : Fin cfg1.N) (a : Fin 4000) (r : Fin 100000)
    (hr : r.val = t.val * 4000 + a.val) :
    iblk1 V c 4 t (ix2 a (0 : Fin 1)) = V c main_v47 (ix2 r (0 : Fin 1)) := by
  obtain ⟨-, -, -, -, -, -, -, -, e8, e9, -⟩ := blockIndex1 t
  unfold iblk1
  rw [View.read_apply]
  refine congrArg (V c main_v47) (funext fun ax => Fin.ext ?_)
  match ax with
  | ⟨0, _⟩ => show win1_4.index t (0 : Fin 2) * 4000 + 1 * a.val = r.val; omega
  | ⟨1, _⟩ => show win1_4.index t (1 : Fin 2) * 1 + 1 * 0 = 0; omega

/-- A sum over block entries is the arrays' product entry, when the blocks' entries are the arrays'. -/
theorem hiddenProduct1_of_blocks (G P : S100000x64.Idx → EReal) (W : S64x32.Idx → EReal)
    (B0 B1 : FVec Ideal S4000x64 .f32) (B2 : FVec Ideal S64x32 .bf16) (a : Fin 4000) (j : Fin 32) (r : Fin 100000)
    (h0 : ∀ k : Fin 64, B0 (ix2 a k) = G (ix2 r k)) (h1 : ∀ k : Fin 64, B1 (ix2 a k) = P (ix2 r k))
    (h2 : ∀ k : Fin 64, B2 (ix2 k j) = W (ix2 k j)) :
    (∑ k : Fin 64, max (B0 (ix2 a k) + B1 (ix2 a k)) 0 * B2 (ix2 k j)) = hiddenProduct1 G P W r j :=
  Finset.sum_congr rfl fun k _ => by rw [h0 k, h1 k, h2 k]

/-! ## What each point writes back, and the whole arrays -/

/-- Entry (a, j) of an output's block at point t sits at row 4000 t + a, column j of the array. -/
theorem output_block_row1 (t : Fin cfg1.N) (a : Fin 4000) (j : Fin 32) :
    ((((cfg1.win 5).blk t).view.emb (ix2 a j)) 0).val = t.val * 4000 + a.val
    ∧ ((((cfg1.win 5).blk t).view.emb (ix2 a j)) 1).val = j.val
    ∧ ((((cfg1.win 6).blk t).view.emb (ix2 a j)) 0).val = t.val * 4000 + a.val
    ∧ ((((cfg1.win 6).blk t).view.emb (ix2 a j)) 1).val = j.val := by
  obtain ⟨-, -, -, -, -, -, -, -, -, -, e10, e11, e12, e13⟩ := blockIndex1 t
  refine ⟨?_, ?_, ?_, ?_⟩
  · show win1_5.index t (0 : Fin 2) * 4000 + 1 * a.val = _; omega
  · show win1_5.index t (1 : Fin 2) * 32 + 1 * j.val = _; omega
  · show win1_6.index t (0 : Fin 2) * 4000 + 1 * a.val = _; omega
  · show win1_6.index t (1 : Fin 2) * 32 + 1 * j.val = _; omega

/-- Point t writes back block t of the product of the hidden activations and the weights. -/
theorem flushed1_5_eq (c : Dev nD) (t : Fin cfg1.N) :
    (dat1 (F := Ideal) V c).flushed 5 t
      = ((cfg1.win 5).blk t).view.read (Elt Ideal) (secondProduct (V c main_v44) (V c main_v30_1) (V c main_v45)) := by
  show (cfg1.win 5).cut (grid1.coords t) ((dat1 (F := Ideal) V c).after 5 t) = _
  rw [after1_5]
  unfold out1_5
  rw [View.canon_unit_zero zeroOffsets]
  simp only [View.ld_unit_zero (S := S4000x64) zeroOffsets, View.ld_unit_zero (S := S64x32) zeroOffsets]
  funext y
  obtain ⟨a, j, rfl⟩ : ∃ (a : Fin 4000) (j : Fin 32), y = ix2 a j := ⟨y 0, y 1, eq_ix2 y⟩
  obtain ⟨hr, hj, -, -⟩ := output_block_row1 t a j
  show k1_pay2 (F := Ideal) (iblk1 V c 0 t) (iblk1 V c 1 t) (iblk1 V c 2 t) (ix2 a j)
    = secondProduct (V c main_v44) (V c main_v30_1) (V c main_v45) (((cfg1.win 5).blk t).view.emb (ix2 a j))
  refine (stored_product_block1 (iblk1 V c 0 t) (iblk1 V c 1 t) (iblk1 V c 2 t) a j).trans ?_
  have hj' : (⟨((((cfg1.win 5).blk t).view.emb (ix2 a j)) 1).val, idx2_lt1 _⟩ : Fin 32) = j := Fin.ext hj
  show _ = hiddenProduct1 (V c main_v44) (V c main_v30_1) (V c main_v45)
    ⟨((((cfg1.win 5).blk t).view.emb (ix2 a j)) 0).val, idx2_lt0 _⟩
    ⟨((((cfg1.win 5).blk t).view.emb (ix2 a j)) 1).val, idx2_lt1 _⟩
  rw [hj']
  exact hiddenProduct1_of_blocks (V c main_v44) (V c main_v30_1) (V c main_v45)
    (iblk1 V c 0 t) (iblk1 V c 1 t) (iblk1 V c 2 t) a j
    ⟨((((cfg1.win 5).blk t).view.emb (ix2 a j)) 0).val, idx2_lt0 _⟩
    (fun k => gathered_block1 V c t a k _ hr) (fun k => previous_block1 V c t a k _ hr)
    (fun k => weights_block1 V c t k j)

/-- Point t writes back block t of the scaled and shifted product. -/
theorem flushed1_6_eq (c : Dev nD) (t : Fin cfg1.N) :
    (dat1 (F := Ideal) V c).flushed 6 t
      = ((cfg1.win 6).blk t).view.read (Elt Ideal)
          (secondAffine (V c main_v44) (V c main_v30_1) (V c main_v45) (V c main_v47) (V c main_v46)) := by
  show (cfg1.win 6).cut (grid1.coords t) ((dat1 (F := Ideal) V c).after 6 t) = _
  rw [after1_6]
  unfold out1_6
  rw [View.canon_unit_zero zeroOffsets]
  simp only [View.ld_unit_zero (S := S4000x64) zeroOffsets, View.ld_unit_zero (S := S64x32) zeroOffsets,
    View.ld_unit_zero (S := S4000x1) zeroOffsets, View.ld_unit_zero (S := S1x32) zeroOffsets]
  funext y
  obtain ⟨a, j, rfl⟩ : ∃ (a : Fin 4000) (j : Fin 32), y = ix2 a j := ⟨y 0, y 1, eq_ix2 y⟩
  obtain ⟨-, -, hr, hj⟩ := output_block_row1 t a j
  show k1_pay3 (F := Ideal) (iblk1 V c 0 t) (iblk1 V c 1 t) (iblk1 V c 2 t) (iblk1 V c 4 t) (iblk1 V c 3 t) (ix2 a j)
    = secondAffine (V c main_v44) (V c main_v30_1) (V c main_v45) (V c main_v47) (V c main_v46)
        (((cfg1.win 6).blk t).view.emb (ix2 a j))
  refine (affine_block1 (iblk1 V c 0 t) (iblk1 V c 1 t) (iblk1 V c 2 t) (iblk1 V c 4 t) (iblk1 V c 3 t) a j).trans ?_
  have hj' : (⟨((((cfg1.win 6).blk t).view.emb (ix2 a j)) 1).val, idx2_lt1 _⟩ : Fin 32) = j := Fin.ext hj
  show _ = hiddenProduct1 (V c main_v44) (V c main_v30_1) (V c main_v45)
        ⟨((((cfg1.win 6).blk t).view.emb (ix2 a j)) 0).val, idx2_lt0 _⟩
        ⟨((((cfg1.win 6).blk t).view.emb (ix2 a j)) 1).val, idx2_lt1 _⟩
      * V c main_v47 (ix2 (⟨((((cfg1.win 6).blk t).view.emb (ix2 a j)) 0).val, idx2_lt0 _⟩ : Fin 100000) (0 : Fin 1))
    + V c main_v46 (ix2 (0 : Fin 1) (⟨((((cfg1.win 6).blk t).view.emb (ix2 a j)) 1).val, idx2_lt1 _⟩ : Fin 32))
  rw [hj', hiddenProduct1_of_blocks (V c main_v44) (V c main_v30_1) (V c main_v45)
    (iblk1 V c 0 t) (iblk1 V c 1 t) (iblk1 V c 2 t) a j
    ⟨((((cfg1.win 6).blk t).view.emb (ix2 a j)) 0).val, idx2_lt0 _⟩
    (fun k => gathered_block1 V c t a k _ hr) (fun k => previous_block1 V c t a k _ hr)
    (fun k => weights_block1 V c t k j),
    scale_block1 V c t a ⟨((((cfg1.win 6).blk t).view.emb (ix2 a j)) 0).val, idx2_lt0 _⟩ hr, shift_block1 V c t j]

/-- An entry of an output array lies in point t's block iff each coordinate lies in the block's range on its axis. -/
theorem mem_block1_5 (t : Fin cfg1.N) (i : S100000x32.Idx) :
    i ∈ ((cfg1.win 5).blk t).view.set ↔ ∀ a : Fin 2, win1_5.index t a * S4000x32.size a ≤ (i a).val
      ∧ (i a).val < win1_5.index t a * S4000x32.size a + S4000x32.size a := by
  show i ∈ ((View.whole main_v48_0).slice (win1_5.rect t)).set ↔ _
  rw [View.set_slice_whole, Rect.mem_set_unit]
  exact Iff.rfl

theorem mem_block1_6 (t : Fin cfg1.N) (i : S100000x32.Idx) :
    i ∈ ((cfg1.win 6).blk t).view.set ↔ ∀ a : Fin 2, win1_6.index t a * S4000x32.size a ≤ (i a).val
      ∧ (i a).val < win1_6.index t a * S4000x32.size a + S4000x32.size a := by
  show i ∈ ((View.whole main_v48_1).slice (win1_6.rect t)).set ↔ _
  rw [View.set_slice_whole, Rect.mem_set_unit]
  exact Iff.rfl

/-- Row r of an output array is covered by the point r / 4000. -/
theorem covering_point1 (i : S100000x32.Idx) : (i 0).val / 4000 < cfg1.N := by
  have hN : cfg1.N = 25 := N_1
  have h0 : (i 0).val < 100000 := (i 0).isLt
  omega

/-- The first result array after the region: the product of the hidden activations and the weights. -/
theorem final1_5 (c : Dev nD) :
    (dat1 (F := Ideal) V c).arrAt 5 cfg1.N = secondProduct (V c main_v44) (V c main_v30_1) (V c main_v45) :=
  (dat1 (F := Ideal) V c).arrAt_eq_of_cover 5 (secondProduct (V c main_v44) (V c main_v30_1) (V c main_v45))
    (fun t _ => flushed1_5_eq V c t) fun i => ⟨⟨(i 0).val / 4000, covering_point1 i⟩, flush1_5 _, by
      rw [mem_block1_5]
      obtain ⟨-, -, -, -, -, -, -, -, -, -, e10, e11, -⟩ := blockIndex1 ⟨(i 0).val / 4000, covering_point1 i⟩
      have e10' : win1_5.index ⟨(i 0).val / 4000, covering_point1 i⟩ (0 : Fin 2) = (i 0).val / 4000 := e10
      have h0 : (i 0).val < 100000 := (i 0).isLt
      have h1 : (i 1).val < 32 := (i 1).isLt
      intro a
      match a with
      | ⟨0, _⟩ =>
        show win1_5.index ⟨(i 0).val / 4000, covering_point1 i⟩ (0 : Fin 2) * 4000 ≤ (i 0).val
          ∧ (i 0).val < win1_5.index ⟨(i 0).val / 4000, covering_point1 i⟩ (0 : Fin 2) * 4000 + 4000
        omega
      | ⟨1, _⟩ =>
        show win1_5.index ⟨(i 0).val / 4000, covering_point1 i⟩ (1 : Fin 2) * 32 ≤ (i 1).val
          ∧ (i 1).val < win1_5.index ⟨(i 0).val / 4000, covering_point1 i⟩ (1 : Fin 2) * 32 + 32
        omega⟩

/-- The second result array after the region: the product scaled by the column and shifted by the row. -/
theorem final1_6 (c : Dev nD) :
    (dat1 (F := Ideal) V c).arrAt 6 cfg1.N
      = secondAffine (V c main_v44) (V c main_v30_1) (V c main_v45) (V c main_v47) (V c main_v46) :=
  (dat1 (F := Ideal) V c).arrAt_eq_of_cover 6
    (secondAffine (V c main_v44) (V c main_v30_1) (V c main_v45) (V c main_v47) (V c main_v46))
    (fun t _ => flushed1_6_eq V c t) fun i => ⟨⟨(i 0).val / 4000, covering_point1 i⟩, flush1_6 _, by
      rw [mem_block1_6]
      obtain ⟨-, -, -, -, -, -, -, -, -, -, -, -, e12, e13⟩ := blockIndex1 ⟨(i 0).val / 4000, covering_point1 i⟩
      have e12' : win1_6.index ⟨(i 0).val / 4000, covering_point1 i⟩ (0 : Fin 2) = (i 0).val / 4000 := e12
      have h0 : (i 0).val < 100000 := (i 0).isLt
      have h1 : (i 1).val < 32 := (i 1).isLt
      intro a
      match a with
      | ⟨0, _⟩ =>
        show win1_6.index ⟨(i 0).val / 4000, covering_point1 i⟩ (0 : Fin 2) * 4000 ≤ (i 0).val
          ∧ (i 0).val < win1_6.index ⟨(i 0).val / 4000, covering_point1 i⟩ (0 : Fin 2) * 4000 + 4000
        omega
      | ⟨1, _⟩ =>
        show win1_6.index ⟨(i 0).val / 4000, covering_point1 i⟩ (1 : Fin 2) * 32 ≤ (i 1).val
          ∧ (i 1).val < win1_6.index ⟨(i 0).val / 4000, covering_point1 i⟩ (1 : Fin 2) * 32 + 32
        omega⟩

/-- Entry (r, j) of the first result array. -/
theorem region1_bf16_at (c : Dev nD) (r : Fin 100000) (j : Fin 32) :
    (dat1 (F := Ideal) V c).arrAt 5 cfg1.N (ix2 r j)
      = secondProduct (V c main_v44) (V c main_v30_1) (V c main_v45) (ix2 r j) :=
  congrFun (final1_5 V c) (ix2 r j)

/-- Entry (r, j) of the second result array. -/
theorem region1_f32_at (c : Dev nD) (r : Fin 100000) (j : Fin 32) :
    (dat1 (F := Ideal) V c).arrAt 6 cfg1.N (ix2 r j)
      = secondAffine (V c main_v44) (V c main_v30_1) (V c main_v45) (V c main_v47) (V c main_v46) (ix2 r j) :=
  congrFun (final1_6 V c) (ix2 r j)

/-- The product array is the shared specification's plain product of max (g + p, 0) and the weights. -/
theorem secondProduct_eq (g p : S100000x64.Idx → EReal) (w : S64x32.Idx → EReal) :
    secondProduct g p w = Cert.RegionSpec.prod 100000 64 32 (Cert.RegionSpec.relu 100000 64 g p) w := rfl

/-- The scaled and shifted product is the shared specification's, of that plain product. -/
theorem secondAffine_eq (g p : S100000x64.Idx → EReal) (w : S64x32.Idx → EReal) (s : S100000x1.Idx → EReal)
    (b : S1x32.Idx → EReal) :
    secondAffine g p w s b = Cert.RegionSpec.scaleShift 100000 32
      (Cert.RegionSpec.prod 100000 64 32 (Cert.RegionSpec.relu 100000 64 g p) w) s b := rfl

section
variable (c : Dev nD)

/-- The first result array after the region, as the shared specification's function of the input arrays. -/
theorem region1_bf16 : (dat1 (F := Ideal) V c).arrAt 5 cfg1.N
    = Cert.RegionSpec.prod 100000 64 32 (Cert.RegionSpec.relu 100000 64 (V c main_v44) (V c main_v30_1)) (V c main_v45) :=
  (final1_5 V c).trans (secondProduct_eq (V c main_v44) (V c main_v30_1) (V c main_v45))

/-- The second result array after the region, as the shared specification's function of the input arrays. -/
theorem region1_f32 : (dat1 (F := Ideal) V c).arrAt 6 cfg1.N
    = Cert.RegionSpec.scaleShift 100000 32
        (Cert.RegionSpec.prod 100000 64 32 (Cert.RegionSpec.relu 100000 64 (V c main_v44) (V c main_v30_1)) (V c main_v45))
        (V c main_v47) (V c main_v46) :=
  (final1_6 V c).trans (secondAffine_eq (V c main_v44) (V c main_v30_1) (V c main_v45) (V c main_v47) (V c main_v46))

end

end Cert.KernelIdeal.RegionValue

end
-- ==== Proof.Region2.lean ====
/-
  The third layer. The grid has 25 points; point t handles rows 4000 t … 4000 t + 3999. Per block the body first forms
  the hidden activations h = max(g + p, 0) from the blocks of its first two inputs, then multiplies h by the whole
  [32, 16] weights, stores that product, and stores the product scaled row by row by a [4000, 1] column and shifted by a
  [1, 16] row. The weights and the row are whole at every point; the two inputs and the column move with the output. So
  the two result arrays are, entry by entry, (h·w)(r, j) = Σ k, max(g(r, k) + p(r, k), 0)·w(k, j) and
  (h·w)(r, j)·s(r, 0) + b(0, j) of the five input arrays as the region finds them.
-/
import proofs.«153369_j67937792688718_2_alg».proof.Proof.Gen.KernelIdeal.Frame
import proofs.«153369_j67937792688718_2_alg».proof.Proof.LibPlainProduct
import proofs.«153369_j67937792688718_2_alg».proof.Proof.RegionLib
import proofs.«153369_j67937792688718_2_alg».proof.Proof.RegionSpec
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The two results as functions of the whole input arrays -/

/-- Entry (r, j) of the product of the hidden activations max(g + p, 0) and the weights w. -/
def hiddenProduct2 (g p : S100000x32.Idx → EReal) (w : S32x16.Idx → EReal) (r : Fin 100000) (j : Fin 16) : EReal :=
  ∑ k : Fin 32, max (g (ix2 r k) + p (ix2 r k)) 0 * w (ix2 k j)

/-- That product as a [100000, 16] array. -/
def thirdProduct (g p : S100000x32.Idx → EReal) (w : S32x16.Idx → EReal) : S100000x16.Idx → EReal :=
  fun i => hiddenProduct2 g p w ⟨(i 0).val, idx2_lt0 i⟩ ⟨(i 1).val, idx2_lt1 i⟩

/-- The product scaled row by row by the column s and shifted by the row b. -/
def thirdAffine (g p : S100000x32.Idx → EReal) (w : S32x16.Idx → EReal) (s : S100000x1.Idx → EReal)
    (b : S1x16.Idx → EReal) : S100000x16.Idx → EReal :=
  fun i => hiddenProduct2 g p w ⟨(i 0).val, idx2_lt0 i⟩ ⟨(i 1).val, idx2_lt1 i⟩
      * s (ix2 (⟨(i 0).val, idx2_lt0 i⟩ : Fin 100000) (0 : Fin 1))
    + b (ix2 (0 : Fin 1) (⟨(i 1).val, idx2_lt1 i⟩ : Fin 16))

theorem thirdProduct_apply (g p : S100000x32.Idx → EReal) (w : S32x16.Idx → EReal) (r : Fin 100000) (j : Fin 16) :
    thirdProduct g p w (ix2 r j) = ∑ k : Fin 32, max (g (ix2 r k) + p (ix2 r k)) 0 * w (ix2 k j) := rfl

theorem thirdAffine_apply (g p : S100000x32.Idx → EReal) (w : S32x16.Idx → EReal) (s : S100000x1.Idx → EReal)
    (b : S1x16.Idx → EReal) (r : Fin 100000) (j : Fin 16) :
    thirdAffine g p w s b (ix2 r j)
      = (∑ k : Fin 32, max (g (ix2 r k) + p (ix2 r k)) 0 * w (ix2 k j)) * s (ix2 r (0 : Fin 1))
        + b (ix2 (0 : Fin 1) j) := rfl

/-! ## The body's arithmetic on one block, entry by entry -/

/-- The block product: entry (a, j) is the sum over k of max(x0(a, k) + x1(a, k), 0) times the weights' (k, j). The
    change of format before the product is the identity on extended reals, the accumulator starts at zero. -/
theorem product_block2 (x0 x1 : FVec Ideal S4000x32 .f32) (x2 : FVec Ideal S32x16 .bf16) (a : Fin 4000) (j : Fin 16) :
    k2_pay1 (F := Ideal) x0 x1 x2 (ix2 a j)
      = ∑ k : Fin 32, max (x0 (ix2 a k) + x1 (ix2 a k)) 0 * x2 (ix2 k j) := by
  unfold k2_pay1
  show matmul dot_S4000x32_S32x16_S4000x16_1_0_0_1_n_n none
      (truncf .bf16 (maximumf (addf (shapeCast S4000x32 x0 shapeCasts_S4000x32_S4000x32)
          (shapeCast S4000x32 x1 shapeCasts_S4000x32_S4000x32))
        (broadcast S4000x32 (Scalar.ofBits (F := Ideal) .f32 0x00000000#32))) bitsLt_bf16_f32)
      (shapeCast S32x16 x2 shapeCasts_S32x16_S32x16) (constant S4000x16 .f32 0x00000000#32) (ix2 a j) = _
  rw [shapeCast_self, shapeCast_self, shapeCast_self]
  refine (Cert.PlainProduct.matmul_plain_apply dot_S4000x32_S32x16_S4000x16_1_0_0_1_n_n rfl none
    (truncf .bf16 (maximumf (addf x0 x1) (broadcast S4000x32 (Scalar.ofBits (F := Ideal) .f32 0x00000000#32)))
      bitsLt_bf16_f32) x2 a j).trans ?_
  refine Finset.sum_congr rfl fun k _ => ?_
  show max (x0 (ix2 a k) + x1 (ix2 a k)) (Ideal.ofBits .f32 0x00000000#32) * x2 (ix2 k j) = _
  rw [Ideal.ofBits_zero_f32]

/-- The first store's payload is the block product (its change of format is the identity). -/
theorem stored_product_block2 (x0 x1 : FVec Ideal S4000x32 .f32) (x2 : FVec Ideal S32x16 .bf16) (a : Fin 4000)
    (j : Fin 16) :
    k2_pay2 (F := Ideal) x0 x1 x2 (ix2 a j)
      = ∑ k : Fin 32, max (x0 (ix2 a k) + x1 (ix2 a k)) 0 * x2 (ix2 k j) := by
  unfold k2_pay2
  exact product_block2 x0 x1 x2 a j

/-- The second store's payload: the block product times the column's entry of the row, plus the row's entry of the
    column. -/
theorem affine_block2 (x0 x1 : FVec Ideal S4000x32 .f32) (x2 : FVec Ideal S32x16 .bf16) (x4 : FVec Ideal S4000x1 .f32)
    (x3 : FVec Ideal S1x16 .f32) (a : Fin 4000) (j : Fin 16) :
    k2_pay3 (F := Ideal) x0 x1 x2 x4 x3 (ix2 a j)
      = (∑ k : Fin 32, max (x0 (ix2 a k) + x1 (ix2 a k)) 0 * x2 (ix2 k j)) * x4 (ix2 a (0 : Fin 1))
        + x3 (ix2 (0 : Fin 1) j) := by
  unfold k2_pay3
  show k2_pay1 x0 x1 x2 (ix2 a j)
        * broadcastTo S4000x16 (shapeCast S4000x1 x4 shapeCasts_S4000x1_S4000x1) broadcasts_S4000x1_S4000x16 (ix2 a j)
      + broadcastTo S4000x16 (shapeCast S1x16 x3 shapeCasts_S1x16_S1x16) broadcasts_S1x16_S4000x16 (ix2 a j) = _
  rw [shapeCast_self, shapeCast_self, broadcastTo_a1_ab_apply, broadcastTo_1b_ab_apply, product_block2]

/-! ## Where each window's block sits in its array -/

/-- The block indices over the grid: the two inputs, the column and both outputs are at row block t, the weights and
    the row at their one block. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The first input's block at point t: its row a is row 4000 t + a of the array. -/
theorem gathered_block2 (c : Dev nD) (t : Fin cfg2.N) (a : Fin 4000) (k : Fin 32) (r : Fin 100000)
    (hr : r.val = t.val * 4000 + a.val) :
    iblk2 V c 0 t (ix2 a k) = V c main_v62 (ix2 r k) := by
  obtain ⟨e0, e1, -⟩ := blockIndex2 t
  unfold iblk2
  rw [View.read_apply]
  refine congrArg (V c main_v62) (funext fun ax => Fin.ext ?_)
  match ax with
  | ⟨0, _⟩ => show win2_0.index t (0 : Fin 2) * 4000 + 1 * a.val = r.val; omega
  | ⟨1, _⟩ => show win2_0.index t (1 : Fin 2) * 32 + 1 * k.val = k.val; omega

/-- The second input's block at point t: its row a is row 4000 t + a of the array. -/
theorem previous_block2 (c : Dev nD) (t : Fin cfg2.N) (a : Fin 4000) (k : Fin 32) (r : Fin 100000)
    (hr : r.val = t.val * 4000 + a.val) :
    iblk2 V c 1 t (ix2 a k) = V c main_v48_1 (ix2 r k) := by
  obtain ⟨-, -, e2, e3, -⟩ := blockIndex2 t
  unfold iblk2
  rw [View.read_apply]
  refine congrArg (V c main_v48_1) (funext fun ax => Fin.ext ?_)
  match ax with
  | ⟨0, _⟩ => show win2_1.index t (0 : Fin 2) * 4000 + 1 * a.val = r.val; omega
  | ⟨1, _⟩ => show win2_1.index t (1 : Fin 2) * 32 + 1 * k.val = k.val; omega

/-- The weights' block at every point is the whole array. -/
theorem weights_block2 (c : Dev nD) (t : Fin cfg2.N) (k : Fin 32) (j : Fin 16) :
    iblk2 V c 2 t (ix2 k j) = V c main_v63 (ix2 k j) := by
  obtain ⟨-, -, -, -, e4, e5, -⟩ := blockIndex2 t
  unfold iblk2
  rw [View.read_apply]
  refine congrArg (V c main_v63) (funext fun ax => Fin.ext ?_)
  match ax with
  | ⟨0, _⟩ => show win2_2.index t (0 : Fin 2) * 32 + 1 * k.val = k.val; omega
  | ⟨1, _⟩ => show win2_2.index t (1 : Fin 2) * 16 + 1 * j.val = j.val; omega

/-- The row's block at every point is the whole [1, 16] array. -/
theorem shift_block2 (c : Dev nD) (t : Fin cfg2.N) (j : Fin 16) :
    iblk2 V c 3 t (ix2 (0 : Fin 1) j) = V c main_v64 (ix2 (0 : Fin 1) j) := by
  obtain ⟨-, -, -, -, -, -, e6, e7, -⟩ := blockIndex2 t
  unfold iblk2
  rw [View.read_apply]
  refine congrArg (V c main_v64) (funext fun ax => Fin.ext ?_)
  match ax with
  | ⟨0, _⟩ => show win2_3.index t (0 : Fin 2) * 1 + 1 * 0 = 0; omega
  | ⟨1, _⟩ => show win2_3.index t (1 : Fin 2) * 16 + 1 * j.val = j.val; omega

/-- The column's block at point t: its entry a is entry 4000 t + a of the array. -/
theorem scale_block2 (c : Dev nD) (t : Fin cfg2.N) (a : Fin 4000) (r : Fin 100000)
    (hr : r.val = t.val * 4000 + a.val) :
    iblk2 V c 4 t (ix2 a (0 : Fin 1)) = V c main_v65 (ix2 r (0 : Fin 1)) := by
  obtain ⟨-, -, -, -, -, -, -, -, e8, e9, -⟩ := blockIndex2 t
  unfold iblk2
  rw [View.read_apply]
  refine congrArg (V c main_v65) (funext fun ax => Fin.ext ?_)
  match ax with
  | ⟨0, _⟩ => show win2_4.index t (0 : Fin 2) * 4000 + 1 * a.val = r.val; omega
  | ⟨1, _⟩ => show win2_4.index t (1 : Fin 2) * 1 + 1 * 0 = 0; omega

/-- A sum over block entries is the arrays' product entry, when the blocks' entries are the arrays'. -/
theorem hiddenProduct2_of_blocks (G P : S100000x32.Idx → EReal) (W : S32x16.Idx → EReal)
    (B0 B1 : FVec Ideal S4000x32 .f32) (B2 : FVec Ideal S32x16 .bf16) (a : Fin 4000) (j : Fin 16) (r : Fin 100000)
    (h0 : ∀ k : Fin 32, B0 (ix2 a k) = G (ix2 r k)) (h1 : ∀ k : Fin 32, B1 (ix2 a k) = P (ix2 r k))
    (h2 : ∀ k : Fin 32, B2 (ix2 k j) = W (ix2 k j)) :
    (∑ k : Fin 32, max (B0 (ix2 a k) + B1 (ix2 a k)) 0 * B2 (ix2 k j)) = hiddenProduct2 G P W r j :=
  Finset.sum_congr rfl fun k _ => by rw [h0 k, h1 k, h2 k]

/-! ## What each point writes back, and the whole arrays -/

/-- Entry (a, j) of an output's block at point t sits at row 4000 t + a, column j of the array. -/
theorem output_block_row2 (t : Fin cfg2.N) (a : Fin 4000) (j : Fin 16) :
    ((((cfg2.win 5).blk t).view.emb (ix2 a j)) 0).val = t.val * 4000 + a.val
    ∧ ((((cfg2.win 5).blk t).view.emb (ix2 a j)) 1).val = j.val
    ∧ ((((cfg2.win 6).blk t).view.emb (ix2 a j)) 0).val = t.val * 4000 + a.val
    ∧ ((((cfg2.win 6).blk t).view.emb (ix2 a j)) 1).val = j.val := by
  obtain ⟨-, -, -, -, -, -, -, -, -, -, e10, e11, e12, e13⟩ := blockIndex2 t
  refine ⟨?_, ?_, ?_, ?_⟩
  · show win2_5.index t (0 : Fin 2) * 4000 + 1 * a.val = _; omega
  · show win2_5.index t (1 : Fin 2) * 16 + 1 * j.val = _; omega
  · show win2_6.index t (0 : Fin 2) * 4000 + 1 * a.val = _; omega
  · show win2_6.index t (1 : Fin 2) * 16 + 1 * j.val = _; omega

/-- Point t writes back block t of the product of the hidden activations and the weights. -/
theorem flushed2_5_eq (c : Dev nD) (t : Fin cfg2.N) :
    (dat2 (F := Ideal) V c).flushed 5 t
      = ((cfg2.win 5).blk t).view.read (Elt Ideal) (thirdProduct (V c main_v62) (V c main_v48_1) (V c main_v63)) := by
  show (cfg2.win 5).cut (grid2.coords t) ((dat2 (F := Ideal) V c).after 5 t) = _
  rw [after2_5]
  unfold out2_5
  rw [View.canon_unit_zero zeroOffsets]
  simp only [View.ld_unit_zero (S := S4000x32) zeroOffsets, View.ld_unit_zero (S := S32x16) zeroOffsets]
  funext y
  obtain ⟨a, j, rfl⟩ : ∃ (a : Fin 4000) (j : Fin 16), y = ix2 a j := ⟨y 0, y 1, eq_ix2 y⟩
  obtain ⟨hr, hj, -, -⟩ := output_block_row2 t a j
  show k2_pay2 (F := Ideal) (iblk2 V c 0 t) (iblk2 V c 1 t) (iblk2 V c 2 t) (ix2 a j)
    = thirdProduct (V c main_v62) (V c main_v48_1) (V c main_v63) (((cfg2.win 5).blk t).view.emb (ix2 a j))
  refine (stored_product_block2 (iblk2 V c 0 t) (iblk2 V c 1 t) (iblk2 V c 2 t) a j).trans ?_
  have hj' : (⟨((((cfg2.win 5).blk t).view.emb (ix2 a j)) 1).val, idx2_lt1 _⟩ : Fin 16) = j := Fin.ext hj
  show _ = hiddenProduct2 (V c main_v62) (V c main_v48_1) (V c main_v63)
    ⟨((((cfg2.win 5).blk t).view.emb (ix2 a j)) 0).val, idx2_lt0 _⟩
    ⟨((((cfg2.win 5).blk t).view.emb (ix2 a j)) 1).val, idx2_lt1 _⟩
  rw [hj']
  exact hiddenProduct2_of_blocks (V c main_v62) (V c main_v48_1) (V c main_v63)
    (iblk2 V c 0 t) (iblk2 V c 1 t) (iblk2 V c 2 t) a j
    ⟨((((cfg2.win 5).blk t).view.emb (ix2 a j)) 0).val, idx2_lt0 _⟩
    (fun k => gathered_block2 V c t a k _ hr) (fun k => previous_block2 V c t a k _ hr)
    (fun k => weights_block2 V c t k j)

/-- Point t writes back block t of the scaled and shifted product. -/
theorem flushed2_6_eq (c : Dev nD) (t : Fin cfg2.N) :
    (dat2 (F := Ideal) V c).flushed 6 t
      = ((cfg2.win 6).blk t).view.read (Elt Ideal)
          (thirdAffine (V c main_v62) (V c main_v48_1) (V c main_v63) (V c main_v65) (V c main_v64)) := by
  show (cfg2.win 6).cut (grid2.coords t) ((dat2 (F := Ideal) V c).after 6 t) = _
  rw [after2_6]
  unfold out2_6
  rw [View.canon_unit_zero zeroOffsets]
  simp only [View.ld_unit_zero (S := S4000x32) zeroOffsets, View.ld_unit_zero (S := S32x16) zeroOffsets,
    View.ld_unit_zero (S := S4000x1) zeroOffsets, View.ld_unit_zero (S := S1x16) zeroOffsets]
  funext y
  obtain ⟨a, j, rfl⟩ : ∃ (a : Fin 4000) (j : Fin 16), y = ix2 a j := ⟨y 0, y 1, eq_ix2 y⟩
  obtain ⟨-, -, hr, hj⟩ := output_block_row2 t a j
  show k2_pay3 (F := Ideal) (iblk2 V c 0 t) (iblk2 V c 1 t) (iblk2 V c 2 t) (iblk2 V c 4 t) (iblk2 V c 3 t) (ix2 a j)
    = thirdAffine (V c main_v62) (V c main_v48_1) (V c main_v63) (V c main_v65) (V c main_v64)
        (((cfg2.win 6).blk t).view.emb (ix2 a j))
  refine (affine_block2 (iblk2 V c 0 t) (iblk2 V c 1 t) (iblk2 V c 2 t) (iblk2 V c 4 t) (iblk2 V c 3 t) a j).trans ?_
  have hj' : (⟨((((cfg2.win 6).blk t).view.emb (ix2 a j)) 1).val, idx2_lt1 _⟩ : Fin 16) = j := Fin.ext hj
  show _ = hiddenProduct2 (V c main_v62) (V c main_v48_1) (V c main_v63)
        ⟨((((cfg2.win 6).blk t).view.emb (ix2 a j)) 0).val, idx2_lt0 _⟩
        ⟨((((cfg2.win 6).blk t).view.emb (ix2 a j)) 1).val, idx2_lt1 _⟩
      * V c main_v65 (ix2 (⟨((((cfg2.win 6).blk t).view.emb (ix2 a j)) 0).val, idx2_lt0 _⟩ : Fin 100000) (0 : Fin 1))
    + V c main_v64 (ix2 (0 : Fin 1) (⟨((((cfg2.win 6).blk t).view.emb (ix2 a j)) 1).val, idx2_lt1 _⟩ : Fin 16))
  rw [hj', hiddenProduct2_of_blocks (V c main_v62) (V c main_v48_1) (V c main_v63)
    (iblk2 V c 0 t) (iblk2 V c 1 t) (iblk2 V c 2 t) a j
    ⟨((((cfg2.win 6).blk t).view.emb (ix2 a j)) 0).val, idx2_lt0 _⟩
    (fun k => gathered_block2 V c t a k _ hr) (fun k => previous_block2 V c t a k _ hr)
    (fun k => weights_block2 V c t k j),
    scale_block2 V c t a ⟨((((cfg2.win 6).blk t).view.emb (ix2 a j)) 0).val, idx2_lt0 _⟩ hr, shift_block2 V c t j]

/-- An entry of an output array lies in point t's block iff each coordinate lies in the block's range on its axis. -/
theorem mem_block2_5 (t : Fin cfg2.N) (i : S100000x16.Idx) :
    i ∈ ((cfg2.win 5).blk t).view.set ↔ ∀ a : Fin 2, win2_5.index t a * S4000x16.size a ≤ (i a).val
      ∧ (i a).val < win2_5.index t a * S4000x16.size a + S4000x16.size a := by
  show i ∈ ((View.whole main_v66_0).slice (win2_5.rect t)).set ↔ _
  rw [View.set_slice_whole, Rect.mem_set_unit]
  exact Iff.rfl

theorem mem_block2_6 (t : Fin cfg2.N) (i : S100000x16.Idx) :
    i ∈ ((cfg2.win 6).blk t).view.set ↔ ∀ a : Fin 2, win2_6.index t a * S4000x16.size a ≤ (i a).val
      ∧ (i a).val < win2_6.index t a * S4000x16.size a + S4000x16.size a := by
  show i ∈ ((View.whole main_v66_1).slice (win2_6.rect t)).set ↔ _
  rw [View.set_slice_whole, Rect.mem_set_unit]
  exact Iff.rfl

/-- Row r of an output array is covered by the point r / 4000. -/
theorem covering_point2 (i : S100000x16.Idx) : (i 0).val / 4000 < cfg2.N := by
  have hN : cfg2.N = 25 := N_2
  have h0 : (i 0).val < 100000 := (i 0).isLt
  omega

/-- The first result array after the region: the product of the hidden activations and the weights. -/
theorem final2_5 (c : Dev nD) :
    (dat2 (F := Ideal) V c).arrAt 5 cfg2.N = thirdProduct (V c main_v62) (V c main_v48_1) (V c main_v63) :=
  (dat2 (F := Ideal) V c).arrAt_eq_of_cover 5 (thirdProduct (V c main_v62) (V c main_v48_1) (V c main_v63))
    (fun t _ => flushed2_5_eq V c t) fun i => ⟨⟨(i 0).val / 4000, covering_point2 i⟩, flush2_5 _, by
      rw [mem_block2_5]
      obtain ⟨-, -, -, -, -, -, -, -, -, -, e10, e11, -⟩ := blockIndex2 ⟨(i 0).val / 4000, covering_point2 i⟩
      have e10' : win2_5.index ⟨(i 0).val / 4000, covering_point2 i⟩ (0 : Fin 2) = (i 0).val / 4000 := e10
      have h0 : (i 0).val < 100000 := (i 0).isLt
      have h1 : (i 1).val < 16 := (i 1).isLt
      intro a
      match a with
      | ⟨0, _⟩ =>
        show win2_5.index ⟨(i 0).val / 4000, covering_point2 i⟩ (0 : Fin 2) * 4000 ≤ (i 0).val
          ∧ (i 0).val < win2_5.index ⟨(i 0).val / 4000, covering_point2 i⟩ (0 : Fin 2) * 4000 + 4000
        omega
      | ⟨1, _⟩ =>
        show win2_5.index ⟨(i 0).val / 4000, covering_point2 i⟩ (1 : Fin 2) * 16 ≤ (i 1).val
          ∧ (i 1).val < win2_5.index ⟨(i 0).val / 4000, covering_point2 i⟩ (1 : Fin 2) * 16 + 16
        omega⟩

/-- The second result array after the region: the product scaled by the column and shifted by the row. -/
theorem final2_6 (c : Dev nD) :
    (dat2 (F := Ideal) V c).arrAt 6 cfg2.N
      = thirdAffine (V c main_v62) (V c main_v48_1) (V c main_v63) (V c main_v65) (V c main_v64) :=
  (dat2 (F := Ideal) V c).arrAt_eq_of_cover 6
    (thirdAffine (V c main_v62) (V c main_v48_1) (V c main_v63) (V c main_v65) (V c main_v64))
    (fun t _ => flushed2_6_eq V c t) fun i => ⟨⟨(i 0).val / 4000, covering_point2 i⟩, flush2_6 _, by
      rw [mem_block2_6]
      obtain ⟨-, -, -, -, -, -, -, -, -, -, -, -, e12, e13⟩ := blockIndex2 ⟨(i 0).val / 4000, covering_point2 i⟩
      have e12' : win2_6.index ⟨(i 0).val / 4000, covering_point2 i⟩ (0 : Fin 2) = (i 0).val / 4000 := e12
      have h0 : (i 0).val < 100000 := (i 0).isLt
      have h1 : (i 1).val < 16 := (i 1).isLt
      intro a
      match a with
      | ⟨0, _⟩ =>
        show win2_6.index ⟨(i 0).val / 4000, covering_point2 i⟩ (0 : Fin 2) * 4000 ≤ (i 0).val
          ∧ (i 0).val < win2_6.index ⟨(i 0).val / 4000, covering_point2 i⟩ (0 : Fin 2) * 4000 + 4000
        omega
      | ⟨1, _⟩ =>
        show win2_6.index ⟨(i 0).val / 4000, covering_point2 i⟩ (1 : Fin 2) * 16 ≤ (i 1).val
          ∧ (i 1).val < win2_6.index ⟨(i 0).val / 4000, covering_point2 i⟩ (1 : Fin 2) * 16 + 16
        omega⟩

/-- Entry (r, j) of the first result array. -/
theorem region2_bf16_at (c : Dev nD) (r : Fin 100000) (j : Fin 16) :
    (dat2 (F := Ideal) V c).arrAt 5 cfg2.N (ix2 r j)
      = thirdProduct (V c main_v62) (V c main_v48_1) (V c main_v63) (ix2 r j) :=
  congrFun (final2_5 V c) (ix2 r j)

/-- Entry (r, j) of the second result array. -/
theorem region2_f32_at (c : Dev nD) (r : Fin 100000) (j : Fin 16) :
    (dat2 (F := Ideal) V c).arrAt 6 cfg2.N (ix2 r j)
      = thirdAffine (V c main_v62) (V c main_v48_1) (V c main_v63) (V c main_v65) (V c main_v64) (ix2 r j) :=
  congrFun (final2_6 V c) (ix2 r j)

/-- The product array is the shared specification's plain product of max (g + p, 0) and the weights. -/
theorem thirdProduct_eq (g p : S100000x32.Idx → EReal) (w : S32x16.Idx → EReal) :
    thirdProduct g p w = Cert.RegionSpec.prod 100000 32 16 (Cert.RegionSpec.relu 100000 32 g p) w := rfl

/-- The scaled and shifted product is the shared specification's, of that plain product. -/
theorem thirdAffine_eq (g p : S100000x32.Idx → EReal) (w : S32x16.Idx → EReal) (s : S100000x1.Idx → EReal)
    (b : S1x16.Idx → EReal) :
    thirdAffine g p w s b = Cert.RegionSpec.scaleShift 100000 16
      (Cert.RegionSpec.prod 100000 32 16 (Cert.RegionSpec.relu 100000 32 g p) w) s b := rfl

section
variable (c : Dev nD)

/-- The first result array after the region, as the shared specification's function of the input arrays. -/
theorem region2_bf16 : (dat2 (F := Ideal) V c).arrAt 5 cfg2.N
    = Cert.RegionSpec.prod 100000 32 16 (Cert.RegionSpec.relu 100000 32 (V c main_v62) (V c main_v48_1)) (V c main_v63) :=
  (final2_5 V c).trans (thirdProduct_eq (V c main_v62) (V c main_v48_1) (V c main_v63))

/-- The second result array after the region, as the shared specification's function of the input arrays. -/
theorem region2_f32 : (dat2 (F := Ideal) V c).arrAt 6 cfg2.N
    = Cert.RegionSpec.scaleShift 100000 16
        (Cert.RegionSpec.prod 100000 32 16 (Cert.RegionSpec.relu 100000 32 (V c main_v62) (V c main_v48_1)) (V c main_v63))
        (V c main_v65) (V c main_v64) :=
  (final2_6 V c).trans (thirdAffine_eq (V c main_v62) (V c main_v48_1) (V c main_v63) (V c main_v65) (V c main_v64))

end

end Cert.KernelIdeal.RegionValue

end
-- ==== Proof.Region3.lean ====
/-
  The last region: one grid point whose blocks are the whole [12500, 128] arrays. The body adds its two inputs entry by
  entry and keeps the larger of that sum and zero, so the result array is that function of the two input arrays as the
  region finds them.
-/
import proofs.«153369_j67937792688718_2_alg».proof.Proof.Gen.KernelIdeal.Frame
import proofs.«153369_j67937792688718_2_alg».proof.Proof.RegionSpec
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-2 rectangle, as the constant function. -/
theorem zeroOffsets3 : (![0, 0] : Fin 2 → Nat) = fun _ => 0 := funext fun a => by fin_cases a <;> rfl

/-- The sum of two [12500, 128] arrays, clamped at zero from below, entry by entry. -/
def clampedSum (a b : S12500x128.Idx → Elt Ideal .f32) : S12500x128.Idx → Elt Ideal .f32 :=
  fun i => max (a i + b i) 0

/-- The body's arithmetic is that function of the two loaded blocks. -/
theorem combine_eq (x0 x1 : Vec Ideal S12500x128 .f32) : k3_pay1 x0 x1 = clampedSum x0 x1 := by
  funext i
  unfold k3_pay1 clampedSum
  show max (shapeCast S12500x128 x0 shapeCasts_S12500x128_S12500x128 i
      + shapeCast S12500x128 x1 shapeCasts_S12500x128_S12500x128 i) (Ideal.ofBits .f32 0x00000000#32) = _
  rw [shapeCast_self, shapeCast_self, Ideal.ofBits_zero_f32]

/-- At the one grid point every window's block index is zero on both axes: each block is its whole array. -/
theorem blockIndex3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- The one point writes back the whole clamped sum of the two input arrays. -/
theorem flushed3_eq (c : Dev nD) (t : Fin cfg3.N) :
    (dat3 (F := Ideal) V c).flushed 2 t
      = ((cfg3.win 2).blk t).view.read (Elt Ideal) (clampedSum (V c main_v81) (V c main_v82)) := by
  show (cfg3.win 2).cut (grid3.coords t) ((dat3 (F := Ideal) V c).after 2 t) = _
  rw [after3_2]
  unfold out3_2
  rw [View.canon_unit_zero zeroOffsets3]
  simp only [View.ld_unit_zero (S := S12500x128) zeroOffsets3]
  rw [combine_eq]
  obtain ⟨e0, e1, e2, e3, e4, e5⟩ := blockIndex3 t
  funext j
  show clampedSum (fun y => V c main_v81 (((cfg3.win 0).blk t).view.emb y))
      (fun y => V c main_v82 (((cfg3.win 1).blk t).view.emb y)) j
    = clampedSum (V c main_v81) (V c main_v82) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 12500 + 1 * (j 0).val = win3_2.index t (0 : Fin 2) * 12500 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 12500 + 1 * (j 0).val = win3_2.index t (0 : Fin 2) * 12500 + 1 * (j 0).val; omega
    | ⟨1, _⟩ => show win3_1.index t (1 : Fin 2) * 128 + 1 * (j 1).val = win3_2.index t (1 : Fin 2) * 128 + 1 * (j 1).val; omega
  simp only [clampedSum]
  rw [h0, h1]

/-- An entry of the result array lies in the point's block iff each coordinate lies in the block's range on its axis. -/
theorem mem_block3 (t : Fin cfg3.N) (i : S12500x128.Idx) :
    i ∈ ((cfg3.win 2).blk t).view.set ↔ ∀ a : Fin 2, win3_2.index t a * S12500x128.size a ≤ (i a).val
      ∧ (i a).val < win3_2.index t a * S12500x128.size a + S12500x128.size a := by
  show i ∈ ((View.whole main_v83).slice (win3_2.rect t)).set ↔ _
  rw [View.set_slice_whole, Rect.mem_set_unit]
  exact Iff.rfl

/-- The result array after the region is the clamped sum of the two input arrays. -/
theorem final3 (c : Dev nD) :
    (dat3 (F := Ideal) V c).arrAt 2 cfg3.N = clampedSum (V c main_v81) (V c main_v82) :=
  (dat3 (F := Ideal) V c).arrAt_eq_of_cover 2 (clampedSum (V c main_v81) (V c main_v82))
    (fun t _ => flushed3_eq V c t) fun i => ⟨t3_0, flush3_2 t3_0, by
      rw [mem_block3]
      obtain ⟨e0, e1, e2, e3, e4, e5⟩ := blockIndex3 t3_0
      have h0 : (i 0).val < 12500 := (i 0).isLt
      have h1 : (i 1).val < 128 := (i 1).isLt
      intro a
      match a with
      | ⟨0, _⟩ => show win3_2.index t3_0 (0 : Fin 2) * 12500 ≤ (i 0).val ∧ (i 0).val < win3_2.index t3_0 (0 : Fin 2) * 12500 + 12500; omega
      | ⟨1, _⟩ => show win3_2.index t3_0 (1 : Fin 2) * 128 ≤ (i 1).val ∧ (i 1).val < win3_2.index t3_0 (1 : Fin 2) * 128 + 128; omega⟩

/-- Entry (p, q) of the clamped sum: the larger of zero and the sum of the two arrays' entries (p, q). -/
theorem clampedSum_apply (a b : S12500x128.Idx → EReal) (p : Fin 12500) (q : Fin 128) :
    clampedSum a b (ix2 p q) = max (a (ix2 p q) + b (ix2 p q)) 0 := rfl

/-- Entry (p, q) of the result array after the region. -/
theorem region3_at (c : Dev nD) (p : Fin 12500) (q : Fin 128) :
    (dat3 (F := Ideal) V c).arrAt 2 cfg3.N (ix2 p q) = clampedSum (V c main_v81) (V c main_v82) (ix2 p q) :=
  congrFun (final3 V c) (ix2 p q)

/-- The clamped sum is the shared specification's max (a + p, 0), entry by entry. -/
theorem clampedSum_eq (a b : S12500x128.Idx → EReal) : clampedSum a b = Cert.RegionSpec.relu 12500 128 a b := rfl

section
variable (c : Dev nD)

/-- The result array after the region, as the shared specification's function of the two input arrays. -/
theorem region3 : (dat3 (F := Ideal) V c).arrAt 2 cfg3.N = Cert.RegionSpec.relu 12500 128 (V c main_v81) (V c main_v82) :=
  (final3 V c).trans (clampedSum_eq (V c main_v81) (V c main_v82))

end

end Cert.KernelIdeal.RegionValue

end
-- ==== Proof.Spec.lean ====
/-
  The graph-convolution network both programs compute, as functions of whole arrays over the extended reals.

  Notation. `e` is the edge list, two rows of 3 200 000 node numbers: row 0 the sources `s`, row 1 the targets `d`.
  A node's degree counts the edges arriving at it, plus one for its own loop; `dinv = 1/√deg`; an edge weighs
  `dinv[s] · dinv[d]` and a node's own loop `dinv²`. One layer sends `xw = h · W` along the edges: it gathers the
  rows `xw[s]`, scales each by its edge's weight, adds the scaled rows up at their targets (`agg`), and answers
  `max (agg + xw · selfw + b, 0)`. Three layers (widths 64, 32, 16) are followed by the mean over the nodes, a dense
  layer with `max (·, 0)`, a second dense layer and a logarithmic softmax over the ten classes.

  Every definition below is the literal chain of host operations both printed programs apply at that place, so that a
  program's buffer is shown equal to it by reading the program, and the two programs meet without the chain being opened.
-/
import proofs.«153369_j67937792688718_2_alg».proof.ReferenceIdeal
import proofs.«153369_j67937792688718_2_alg».proof.Proof.Gen.ReferenceIdeal
import Idealize.ShloMosaic.PureOps.Ideal

noncomputable section

namespace Cert.Gcn

open Idealize.ShloMosaic Cert.ReferenceIdeal Cert.ReferenceIdeal.Facts₀

/-! ## The edge list and the normalisation -/

/-- Row 0 of the edge list: the sources. -/
def srcOf (e : IVec S2x3200000 32) : IVec S3200000 32 :=
  shapeCast _ (extractStridedSlice S1x3200000 ![0, 0] e slices_S2x3200000_S1x3200000_0_0) shapeCasts_S1x3200000_S3200000

/-- Row 1 of the edge list: the targets. -/
def dstOf (e : IVec S2x3200000 32) : IVec S3200000 32 :=
  shapeCast _ (extractStridedSlice S1x3200000 ![1, 0] e slices_S2x3200000_S1x3200000_1_0) shapeCasts_S1x3200000_S3200000

/-- A vector of node numbers as a column. -/
def col (v : IVec S3200000 32) : IVec S3200000x1 32 :=
  broadcastInDim S3200000x1 ![0] bcast_S3200000_S3200000x1_0 v

/-- Node numbers as a lookup reads them: a negative number counts from the end (100000 is added), as a column. -/
def wrapCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- `1/√deg`: the degree is the number of edges arriving at the node, plus one. -/
def dinv (d : IVec S3200000 32) : FVec Ideal S100000 .f32 :=
  Host.rsqrt (addf
    (Host.scatterAdd scatter_S100000_S3200000x1_S3200000_n_0_0_1
      (broadcastInDim S100000 ![] bcast_S_S100000 (constant S_ .f32 0x00000000#32)) (col d)
      (broadcastInDim S3200000 ![] bcast_S_S3200000 (constant S_ .f32 0x3F800000#32)))
    (broadcastInDim S100000 ![] bcast_S_S100000 (constant S_ .f32 0x3F800000#32)))

/-- An edge's weight `dinv[s] · dinv[d]`. -/
def edgeW (s d : IVec S3200000 32) : FVec Ideal S3200000 .f32 :=
  mulf (Host.gather gather_S100000_S3200000x1_S3200000_n_0_n_n_0_1_1 (dinv d) (wrapCol s))
    (Host.gather gather_S100000_S3200000x1_S3200000_n_0_n_n_0_1_1 (dinv d) (wrapCol d))

/-- A node's own weight `dinv²`. -/
def selfW (d : IVec S3200000 32) : FVec Ideal S100000 .f32 := mulf (dinv d) (dinv d)

/-! ## Sending rows along the edges, at the three widths -/

/-- `agg[v] = ∑ over edges (u → v) of ew · xw[u]`, width 64. -/
def agg64 (s d : IVec S3200000 32) (ew : FVec Ideal S3200000 .f32) (xw : FVec Ideal S100000x64 .f32) : FVec Ideal S100000x64 .f32 :=
  Host.scatterAdd scatter_S100000x64_S3200000x1_S3200000x64_1_0_0_1
    (broadcastInDim S100000x64 ![] bcast_S_S100000x64 (constant S_ .f32 0x00000000#32)) (col d)
    (mulf (Host.gather gather_S100000x64_S3200000x1_S3200000x64_1_0_n_n_0_1_164 xw (wrapCol s))
      (broadcastInDim S3200000x64 ![0, 1] bcast_S3200000x1_S3200000x64_0_1
        (broadcastInDim S3200000x1 ![0] bcast_S3200000_S3200000x1_0 ew)))

/-- The same at width 32. -/
def agg32 (s d : IVec S3200000 32) (ew : FVec Ideal S3200000 .f32) (xw : FVec Ideal S100000x32 .f32) : FVec Ideal S100000x32 .f32 :=
  Host.scatterAdd scatter_S100000x32_S3200000x1_S3200000x32_1_0_0_1
    (broadcastInDim S100000x32 ![] bcast_S_S100000x32 (constant S_ .f32 0x00000000#32)) (col d)
    (mulf (Host.gather gather_S100000x32_S3200000x1_S3200000x32_1_0_n_n_0_1_132 xw (wrapCol s))
      (broadcastInDim S3200000x32 ![0, 1] bcast_S3200000x1_S3200000x32_0_1
        (broadcastInDim S3200000x1 ![0] bcast_S3200000_S3200000x1_0 ew)))

/-- The same at width 16. -/
def agg16 (s d : IVec S3200000 32) (ew : FVec Ideal S3200000 .f32) (xw : FVec Ideal S100000x16 .f32) : FVec Ideal S100000x16 .f32 :=
  Host.scatterAdd scatter_S100000x16_S3200000x1_S3200000x16_1_0_0_1
    (broadcastInDim S100000x16 ![] bcast_S_S100000x16 (constant S_ .f32 0x00000000#32)) (col d)
    (mulf (Host.gather gather_S100000x16_S3200000x1_S3200000x16_1_0_n_n_0_1_116 xw (wrapCol s))
      (broadcastInDim S3200000x16 ![0, 1] bcast_S3200000x1_S3200000x16_0_1
        (broadcastInDim S3200000x1 ![0] bcast_S3200000_S3200000x1_0 ew)))

/-! ## A layer's answer from its product `xw` and its sum `agg` -/

/-- `max ((agg + xw · selfw) + b, 0)`, width 64: the node's weight a column repeated across, the bias a row repeated down. -/
def act64 (agg xw : FVec Ideal S100000x64 .f32) (sw : FVec Ideal S100000 .f32) (b : FVec Ideal S64 .f32) : FVec Ideal S100000x64 .f32 :=
  maximumf
    (addf (addf agg (mulf xw (broadcastInDim S100000x64 ![0, 1] bcast_S100000x1_S100000x64_0_1
        (broadcastInDim S100000x1 ![0] bcast_S100000_S100000x1_0 sw))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The same at width 32. -/
def act32 (agg xw : FVec Ideal S100000x32 .f32) (sw : FVec Ideal S100000 .f32) (b : FVec Ideal S32 .f32) : FVec Ideal S100000x32 .f32 :=
  maximumf
    (addf (addf agg (mulf xw (broadcastInDim S100000x32 ![0, 1] bcast_S100000x1_S100000x32_0_1
        (broadcastInDim S100000x1 ![0] bcast_S100000_S100000x1_0 sw))))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The same at width 16. -/
def act16 (agg xw : FVec Ideal S100000x16 .f32) (sw : FVec Ideal S100000 .f32) (b : FVec Ideal S16 .f32) : FVec Ideal S100000x16 .f32 :=
  maximumf
    (addf (addf agg (mulf xw (broadcastInDim S100000x16 ![0, 1] bcast_S100000x1_S100000x16_0_1
        (broadcastInDim S100000x1 ![0] bcast_S100000_S100000x1_0 sw))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The three products. -/
def prod1 (x : FVec Ideal S100000x256 .f32) (w : FVec Ideal S256x64 .f32) : FVec Ideal S100000x64 .f32 :=
  Host.dotGeneral dot_S100000x256_S256x64_S100000x64_1_0_0_1_n_n none x w
def prod2 (h : FVec Ideal S100000x64 .f32) (w : FVec Ideal S64x32 .f32) : FVec Ideal S100000x32 .f32 :=
  Host.dotGeneral dot_S100000x64_S64x32_S100000x32_1_0_0_1_n_n none h w
def prod3 (h : FVec Ideal S100000x32 .f32) (w : FVec Ideal S32x16 .f32) : FVec Ideal S100000x16 .f32 :=
  Host.dotGeneral dot_S100000x32_S32x16_S100000x16_1_0_0_1_n_n none h w

/-! ## After the last layer -/

/-- The mean over the 100000 nodes, as one row. -/
def pooled (h : FVec Ideal S100000x16 .f32) : FVec Ideal S1x16 .f32 :=
  Host.divf
    (broadcastInDim S1x16 ![1] bcast_S16_S1x16_1
      (Host.reduceAdd h (constant S_ .f32 0x00000000#32) reducesTo_S100000x16_S16_d0 h_S_))
    (broadcastInDim S1x16 ![] bcast_S_S1x16 (constant S_ .f32 0x47C35000#32))

/-- The hidden row `max (p · Wf + bf, 0)`. -/
def hidden (p : FVec Ideal S1x16 .f32) (wf : FVec Ideal S16x8 .f32) (bf : FVec Ideal S8 .f32) : FVec Ideal S1x8 .f32 :=
  maximumf (addf (Host.dotGeneral dot_S1x16_S16x8_S1x8_1_0_0_1_n_n none p wf) (broadcastInDim S1x8 ![1] bcast_S8_S1x8_1 bf))
    (broadcastInDim S1x8 ![] bcast_S_S1x8 (constant S_ .f32 0x00000000#32))

/-- The scores `hid · Ws + bs`. -/
def scores (hid : FVec Ideal S1x8 .f32) (ws : FVec Ideal S8x10 .f32) (bs : FVec Ideal S10 .f32) : FVec Ideal S1x10 .f32 :=
  addf (Host.dotGeneral dot_S1x8_S8x10_S1x10_1_0_0_1_n_n none hid ws) (broadcastInDim S1x10 ![1] bcast_S10_S1x10_1 bs)

/-- The scores less their largest entry (the maximum started from `-∞`). -/
def shifted (x : FVec Ideal S1x10 .f32) : FVec Ideal S1x10 .f32 :=
  subf x (broadcastInDim S1x10 ![0, 1] bcast_S1x1_S1x10_0_1 (broadcastInDim S1x1 ![0] bcast_S1_S1x1_0
    (maximumf (broadcastInDim S1 ![] bcast_S_S1 (constant S_ .f32 0xFF800000#32))
      (Host.reduce FloatOps.maximumf x (constant S_ .f32 0xFF800000#32) reducesTo_S1x10_S1_d1 h_S_))))

/-- The logarithmic softmax `y - log ∑ exp y` of the shifted scores `y`. -/
def logSoftmax (x : FVec Ideal S1x10 .f32) : FVec Ideal S1x10 .f32 :=
  subf (shifted x) (broadcastInDim S1x10 ![0, 1] bcast_S1x1_S1x10_0_1 (Host.log (broadcastInDim S1x1 ![0] bcast_S1_S1x1_0
    (Host.reduceAdd (Host.exp (shifted x)) (constant S_ .f32 0x00000000#32) reducesTo_S1x10_S1_d1 h_S_))))

/-- Everything after the last layer. -/
def tail (h : FVec Ideal S100000x16 .f32) (wf : FVec Ideal S16x8 .f32) (bf : FVec Ideal S8 .f32) (ws : FVec Ideal S8x10 .f32) (bs : FVec Ideal S10 .f32) :
    FVec Ideal S1x10 .f32 :=
  logSoftmax (scores (hidden (pooled h) wf bf) ws bs)

/-! ## The whole network -/

/-- The three layers' answer `h₃`. -/
def layers (x : FVec Ideal S100000x256 .f32) (e : IVec S2x3200000 32) (w1 : FVec Ideal S256x64 .f32) (b1 : FVec Ideal S64 .f32)
    (w2 : FVec Ideal S64x32 .f32) (b2 : FVec Ideal S32 .f32) (w3 : FVec Ideal S32x16 .f32) (b3 : FVec Ideal S16 .f32) : FVec Ideal S100000x16 .f32 :=
  act16 (agg16 (srcOf e) (dstOf e) (edgeW (srcOf e) (dstOf e))
      (prod3 (act32 (agg32 (srcOf e) (dstOf e) (edgeW (srcOf e) (dstOf e))
          (prod2 (act64 (agg64 (srcOf e) (dstOf e) (edgeW (srcOf e) (dstOf e)) (prod1 x w1)) (prod1 x w1) (selfW (dstOf e)) b1) w2))
        (prod2 (act64 (agg64 (srcOf e) (dstOf e) (edgeW (srcOf e) (dstOf e)) (prod1 x w1)) (prod1 x w1) (selfW (dstOf e)) b1) w2)
        (selfW (dstOf e)) b2) w3))
    (prod3 (act32 (agg32 (srcOf e) (dstOf e) (edgeW (srcOf e) (dstOf e))
          (prod2 (act64 (agg64 (srcOf e) (dstOf e) (edgeW (srcOf e) (dstOf e)) (prod1 x w1)) (prod1 x w1) (selfW (dstOf e)) b1) w2))
        (prod2 (act64 (agg64 (srcOf e) (dstOf e) (edgeW (srcOf e) (dstOf e)) (prod1 x w1)) (prod1 x w1) (selfW (dstOf e)) b1) w2)
        (selfW (dstOf e)) b2) w3)
    (selfW (dstOf e)) b3

/-- The network's answer: the class scores' logarithmic softmax. -/
def network (x : FVec Ideal S100000x256 .f32) (e : IVec S2x3200000 32) (w1 : FVec Ideal S256x64 .f32) (b1 : FVec Ideal S64 .f32)
    (w2 : FVec Ideal S64x32 .f32) (b2 : FVec Ideal S32 .f32) (w3 : FVec Ideal S32x16 .f32) (b3 : FVec Ideal S16 .f32)
    (wf : FVec Ideal S16x8 .f32) (bf : FVec Ideal S8 .f32) (ws : FVec Ideal S8x10 .f32) (bs : FVec Ideal S10 .f32) : FVec Ideal S1x10 .f32 :=
  tail (layers x e w1 b1 w2 b2 w3 b3) wf bf ws bs

end Cert.Gcn

end
-- ==== Proof.LibLayer.lean ====
/-
  One graph-convolution layer's pointwise part, read at an index, over arbitrary sizes.

  With `agg` and `xw` two `[m, n]` arrays, `sw` a length-`m` vector of row weights and `b` a length-`n` bias, the layer answers
  `max ((agg + xw · sw) + b, 0)`, the weights laid down as a column repeated across the columns and the bias as a row
  repeated down the rows. Entry `(p, q)` is `max (agg(p,q) + (xw(p,q) · sw(p) + b(q)), 0)`: the three-term sum may be
  grouped either way, addition of extended reals being associative (no finiteness is needed).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LayerLaw

open Idealize.ShloMosaic Idealize.ShloMosaic.ValueIdx

variable {α : Type} {m n : Nat}

/-- A vector laid down as a column and repeated across `n` columns: entry `(p, q)` is the vector's entry `p`. -/
theorem colOfVec_apply (x : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim ⟨2, ![m, n]⟩ ![0, 1] h2 (broadcastInDim ⟨2, ![m, 1]⟩ ![0] h1 x) (ix2 p q) = x (ix1 p) := by
  have e1 := broadcastInDim_apply ![0, 1] h2 (broadcastInDim ⟨2, ![m, 1]⟩ ![0] h1 x) (ix2 p q) (ix2 p (0 : Fin 1)) (by
    intro a
    match a with
    | ⟨0, _⟩ =>
      show p.val = if m = 1 then 0 else p.val
      split
      · have := p.isLt; omega
      · rfl
    | ⟨1, _⟩ => rfl)
  have e2 := broadcastInDim_apply ![0] h1 x (ix2 p (0 : Fin 1)) (ix1 p) (by
    intro a
    match a with
    | ⟨0, _⟩ =>
      show p.val = if m = 1 then 0 else p.val
      split
      · have := p.isLt; omega
      · rfl)
  exact e1.trans e2

/-- A vector laid down as a row and repeated down `m` rows: entry `(p, q)` is the vector's entry `q`. -/
theorem rowOfVec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 x) (ix2 p q) = x (ix1 q) := by
  have e1 := broadcastInDim_apply ![0, 1] h2 (broadcastInDim ⟨2, ![1, n]⟩ ![1] h1 x) (ix2 p q) (ix2 (0 : Fin 1) q) (by
    intro a
    match a with
    | ⟨0, _⟩ => rfl
    | ⟨1, _⟩ =>
      show q.val = if n = 1 then 0 else q.val
      split
      · have := q.isLt; omega
      · rfl)
  have e2 := broadcastInDim_apply ![1] h1 x (ix2 (0 : Fin 1) q) (ix1 q) (by
    intro a
    match a with
    | ⟨0, _⟩ =>
      show q.val = if n = 1 then 0 else q.val
      split
      · have := q.isLt; omega
      · rfl)
  exact e1.trans e2

/-- The zero word spread over any shape is zero everywhere. -/
theorem zeroSplat_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply, Ideal.ofBits_zero_f32]

/-- The layer's answer at `(p, q)`, the sum grouped with the bias inside. -/
theorem act_apply (agg xw : FVec Ideal ⟨2, ![m, n]⟩ .f32) (sw : FVec Ideal ⟨1, ![m]⟩ .f32) (b : FVec Ideal ⟨1, ![n]⟩ .f32)
    (h1 : (⟨1, ![m]⟩ : Shape).BroadcastsInDim ⟨2, ![m, 1]⟩ ![0])
    (h2 : (⟨2, ![m, 1]⟩ : Shape).BroadcastsInDim ⟨2, ![m, n]⟩ ![0, 1])
    (h3 : (⟨1, ![n]⟩ : Shape).BroadcastsInDim ⟨2, ![1, n]⟩ ![1])
    (h4 : (⟨2, ![1, n]⟩ : Shape).BroadcastsInDim ⟨2, ![m, n]⟩ ![0, 1])
    (h5 : (⟨0, ![]⟩ : Shape).BroadcastsInDim ⟨2, ![m, n]⟩ ![]) (p : Fin m) (q : Fin n) :
    maximumf
        (addf (addf agg (mulf xw (broadcastInDim ⟨2, ![m, n]⟩ ![0, 1] h2 (broadcastInDim ⟨2, ![m, 1]⟩ ![0] h1 sw))))
          (broadcastInDim ⟨2, ![m, n]⟩ ![0, 1] h4 (broadcastInDim ⟨2, ![1, n]⟩ ![1] h3 b)))
        (broadcastInDim ⟨2, ![m, n]⟩ ![] h5 (constant (F := Ideal) ⟨0, ![]⟩ .f32 0x00000000#32)) (ix2 p q)
      = max (agg (ix2 p q) + (xw (ix2 p q) * sw (ix1 p) + b (ix1 q))) 0 := by
  rw [maximumf_apply, addf_apply, addf_apply, mulf_apply, colOfVec_apply, rowOfVec_apply, zeroSplat_apply, add_assoc]

/-- The same answer from the pieces a row-tiled kernel holds: the product-times-weight-plus-bias array `xs`, whose entry
    `(p, q)` is `xw(p,q) · c(p,0) + r(0,q)` for the weights recast as a column `c` and the bias as a row `r`. -/
theorem act_of_split (agg xw xs : FVec Ideal ⟨2, ![m, n]⟩ .f32) (sw : FVec Ideal ⟨1, ![m]⟩ .f32) (b : FVec Ideal ⟨1, ![n]⟩ .f32)
    (hc : (⟨1, ![m]⟩ : Shape).ShapeCasts ⟨2, ![m, 1]⟩) (hr : (⟨1, ![n]⟩ : Shape).ShapeCasts ⟨2, ![1, n]⟩)
    (hxs : ∀ (p : Fin m) (q : Fin n), xs (ix2 p q)
      = xw (ix2 p q) * shapeCast ⟨2, ![m, 1]⟩ sw hc (ix2 p (0 : Fin 1)) + shapeCast ⟨2, ![1, n]⟩ b hr (ix2 (0 : Fin 1) q))
    (p : Fin m) (q : Fin n) :
    max (agg (ix2 p q) + xs (ix2 p q)) 0 = max (agg (ix2 p q) + (xw (ix2 p q) * sw (ix1 p) + b (ix1 q))) 0 := by
  rw [hxs p q, shapeCast_a_1a_apply,
    shapeCast_apply sw hc (ix2 p (0 : Fin 1)) (ix1 p) (by
      rw [Shape.rowMajor_val_two, Shape.rowMajor_val_one]; show p.val = p.val * 1 + 0; omega)]

end Cert.LayerLaw

end
-- ==== Proof.RegionLaw.lean ====
/-
  The regions' result functions are the network's own functions.

  The plain product read entry by entry is the host's product; `max (agg + xs, 0)` is a layer's answer when `xs` is the
  layer's product times the nodes' weights plus the bias, because the three-term sum may be regrouped (addition of extended
  reals is associative); and a pointwise operation on arrays regrouped to another number of columns, regrouped back, is the
  operation on the arrays themselves.
-/
import proofs.«153369_j67937792688718_2_alg».proof.Proof.RegionSpec
import proofs.«153369_j67937792688718_2_alg».proof.Proof.Spec
import proofs.«153369_j67937792688718_2_alg».proof.Proof.LibPlainProduct
import proofs.«153369_j67937792688718_2_alg».proof.Proof.LibLayer

noncomputable section

namespace Cert.RegionLaw

open Idealize.ShloMosaic Idealize.ShloMosaic.ValueIdx Cert.ReferenceIdeal

/-- The plain product of a `[100000, 256]` and a `[256, 64]` array is the network's product 1. -/
theorem prod_eq_prod1 (x : FVec Ideal S100000x256 .f32) (w : FVec Ideal S256x64 .f32) :
    Cert.RegionSpec.prod 100000 256 64 x w = Cert.Gcn.prod1 x w := by
  funext i
  obtain ⟨r, j, rfl⟩ : ∃ (r : Fin 100000) (j : Fin 64), i = ix2 r j := ⟨i 0, i 1, eq_ix2 i⟩
  unfold Cert.Gcn.prod1
  exact (Cert.PlainProduct.dotGeneral_plain_apply' dot_S100000x256_S256x64_S100000x64_1_0_0_1_n_n rfl none x w r j).symm

/-- The plain product of a `[100000, 64]` and a `[64, 32]` array is the network's product 2. -/
theorem prod_eq_prod2 (x : FVec Ideal S100000x64 .f32) (w : FVec Ideal S64x32 .f32) :
    Cert.RegionSpec.prod 100000 64 32 x w = Cert.Gcn.prod2 x w := by
  funext i
  obtain ⟨r, j, rfl⟩ : ∃ (r : Fin 100000) (j : Fin 32), i = ix2 r j := ⟨i 0, i 1, eq_ix2 i⟩
  unfold Cert.Gcn.prod2
  exact (Cert.PlainProduct.dotGeneral_plain_apply' dot_S100000x64_S64x32_S100000x32_1_0_0_1_n_n rfl none x w r j).symm

/-- The plain product of a `[100000, 32]` and a `[32, 16]` array is the network's product 3. -/
theorem prod_eq_prod3 (x : FVec Ideal S100000x32 .f32) (w : FVec Ideal S32x16 .f32) :
    Cert.RegionSpec.prod 100000 32 16 x w = Cert.Gcn.prod3 x w := by
  funext i
  obtain ⟨r, j, rfl⟩ : ∃ (r : Fin 100000) (j : Fin 16), i = ix2 r j := ⟨i 0, i 1, eq_ix2 i⟩
  unfold Cert.Gcn.prod3
  exact (Cert.PlainProduct.dotGeneral_plain_apply' dot_S100000x32_S32x16_S100000x16_1_0_0_1_n_n rfl none x w r j).symm

/-- The layer's answer of width 64 at an index. -/
theorem act64_apply (agg xw : FVec Ideal S100000x64 .f32) (sw : FVec Ideal S100000 .f32) (b : FVec Ideal S64 .f32)
    (r : Fin 100000) (k : Fin 64) :
    Cert.Gcn.act64 agg xw sw b (ix2 r k) = max (agg (ix2 r k) + (xw (ix2 r k) * sw (ix1 r) + b (ix1 k))) 0 := by
  unfold Cert.Gcn.act64
  exact Cert.LayerLaw.act_apply agg xw sw b _ _ _ _ _ r k

/-- `max (agg + xs, 0)`, with `xs` the product times the nodes' weights (as a column) plus the bias (as a row), is the
    layer's answer of width 64: the three-term sum regrouped. -/
theorem relu_eq_act64 (agg xw : FVec Ideal S100000x64 .f32) (sw : FVec Ideal S100000 .f32) (b : FVec Ideal S64 .f32)
    (hc : S100000.ShapeCasts ⟨2, ![100000, 1]⟩) (hr : S64.ShapeCasts ⟨2, ![1, 64]⟩) :
    Cert.RegionSpec.relu 100000 64 agg
        (Cert.RegionSpec.scaleShift 100000 64 xw (shapeCast ⟨2, ![100000, 1]⟩ sw hc) (shapeCast ⟨2, ![1, 64]⟩ b hr))
      = Cert.Gcn.act64 agg xw sw b := by
  funext i
  obtain ⟨r, k, rfl⟩ : ∃ (r : Fin 100000) (k : Fin 64), i = ix2 r k := ⟨i 0, i 1, eq_ix2 i⟩
  rw [act64_apply]
  exact Cert.LayerLaw.act_of_split agg xw
    (Cert.RegionSpec.scaleShift 100000 64 xw (shapeCast ⟨2, ![100000, 1]⟩ sw hc) (shapeCast ⟨2, ![1, 64]⟩ b hr)) sw b hc hr
    (fun _ _ => rfl) r k

/-- The layer's answer of width 32 at an index. -/
theorem act32_apply (agg xw : FVec Ideal S100000x32 .f32) (sw : FVec Ideal S100000 .f32) (b : FVec Ideal S32 .f32)
    (r : Fin 100000) (k : Fin 32) :
    Cert.Gcn.act32 agg xw sw b (ix2 r k) = max (agg (ix2 r k) + (xw (ix2 r k) * sw (ix1 r) + b (ix1 k))) 0 := by
  unfold Cert.Gcn.act32
  exact Cert.LayerLaw.act_apply agg xw sw b _ _ _ _ _ r k

/-- `max (agg + xs, 0)`, with `xs` the product times the nodes' weights (as a column) plus the bias (as a row), is the
    layer's answer of width 32: the three-term sum regrouped. -/
theorem relu_eq_act32 (agg xw : FVec Ideal S100000x32 .f32) (sw : FVec Ideal S100000 .f32) (b : FVec Ideal S32 .f32)
    (hc : S100000.ShapeCasts ⟨2, ![100000, 1]⟩) (hr : S32.ShapeCasts ⟨2, ![1, 32]⟩) :
    Cert.RegionSpec.relu 100000 32 agg
        (Cert.RegionSpec.scaleShift 100000 32 xw (shapeCast ⟨2, ![100000, 1]⟩ sw hc) (shapeCast ⟨2, ![1, 32]⟩ b hr))
      = Cert.Gcn.act32 agg xw sw b := by
  funext i
  obtain ⟨r, k, rfl⟩ : ∃ (r : Fin 100000) (k : Fin 32), i = ix2 r k := ⟨i 0, i 1, eq_ix2 i⟩
  rw [act32_apply]
  exact Cert.LayerLaw.act_of_split agg xw
    (Cert.RegionSpec.scaleShift 100000 32 xw (shapeCast ⟨2, ![100000, 1]⟩ sw hc) (shapeCast ⟨2, ![1, 32]⟩ b hr)) sw b hc hr
    (fun _ _ => rfl) r k

/-- The layer's answer of width 16 at an index. -/
theorem act16_apply (agg xw : FVec Ideal S100000x16 .f32) (sw : FVec Ideal S100000 .f32) (b : FVec Ideal S16 .f32)
    (r : Fin 100000) (k : Fin 16) :
    Cert.Gcn.act16 agg xw sw b (ix2 r k) = max (agg (ix2 r k) + (xw (ix2 r k) * sw (ix1 r) + b (ix1 k))) 0 := by
  unfold Cert.Gcn.act16
  exact Cert.LayerLaw.act_apply agg xw sw b _ _ _ _ _ r k

/-- `max (agg + xs, 0)`, with `xs` the product times the nodes' weights (as a column) plus the bias (as a row), is the
    layer's answer of width 16: the three-term sum regrouped. -/
theorem relu_eq_act16 (agg xw : FVec Ideal S100000x16 .f32) (sw : FVec Ideal S100000 .f32) (b : FVec Ideal S16 .f32)
    (hc : S100000.ShapeCasts ⟨2, ![100000, 1]⟩) (hr : S16.ShapeCasts ⟨2, ![1, 16]⟩) :
    Cert.RegionSpec.relu 100000 16 agg
        (Cert.RegionSpec.scaleShift 100000 16 xw (shapeCast ⟨2, ![100000, 1]⟩ sw hc) (shapeCast ⟨2, ![1, 16]⟩ b hr))
      = Cert.Gcn.act16 agg xw sw b := by
  funext i
  obtain ⟨r, k, rfl⟩ : ∃ (r : Fin 100000) (k : Fin 16), i = ix2 r k := ⟨i 0, i 1, eq_ix2 i⟩
  rw [act16_apply]
  exact Cert.LayerLaw.act_of_split agg xw
    (Cert.RegionSpec.scaleShift 100000 16 xw (shapeCast ⟨2, ![100000, 1]⟩ sw hc) (shapeCast ⟨2, ![1, 16]⟩ b hr)) sw b hc hr
    (fun _ _ => rfl) r k

/-- `max (a + p, 0)` of two arrays regrouped from 16 to 128 columns, regrouped back, is `max (a + p, 0)` of the arrays. -/
theorem regroup_relu (agg xs : FVec Ideal S100000x16 .f32)
    (h : S100000x16.ShapeCasts ⟨2, ![12500, 128]⟩) (h' : (⟨2, ![12500, 128]⟩ : Shape).ShapeCasts S100000x16) :
    shapeCast S100000x16 (Cert.RegionSpec.relu 12500 128 (shapeCast ⟨2, ![12500, 128]⟩ agg h) (shapeCast ⟨2, ![12500, 128]⟩ xs h)) h'
      = Cert.RegionSpec.relu 100000 16 agg xs := by
  funext i
  show max (shapeCast S100000x16 (shapeCast ⟨2, ![12500, 128]⟩ agg h) h' i
      + shapeCast S100000x16 (shapeCast ⟨2, ![12500, 128]⟩ xs h) h' i) 0 = max (agg i + xs i) 0
  rw [shapeCast_shapeCast, shapeCast_shapeCast]

end Cert.RegionLaw

end
-- ==== Proof.KHost0.lean ====
/-
  The kernel program's host operations before its first region, read over any buffer contents `W`: the rows of the edge
  list, the edge and node weights of the normalisation, and the first layer's operands as the region takes them (the
  weight matrix unchanged by the change of format, the bias as one row, the node weights as one column).
-/
import proofs.«153369_j67937792688718_2_alg».proof.Proof.Gen.KernelIdeal.Launch
import proofs.«153369_j67937792688718_2_alg».proof.Proof.Spec
import Idealize.ShloMosaic.Lib.StableHlo.Run

noncomputable section

namespace Cert.KernelIdeal.HostValue

open Idealize.ShloMosaic Idealize.ShloMosaic.StableHlo Cert.KernelIdeal Cert.KernelIdeal.Gen

variable (W : Valuation τ sig (Elt Ideal))

/-- The buffers this line of operations writes. -/
abbrev written0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28, main_v29]

theorem writes0 : (hostOps0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the line does not write keeps its contents. -/
theorem kept0 (b : Ref sig .tc) (hb : b ∉ written0) : after (hostOps0 (F := Ideal)) W (Proc.devRef .tc b) = W (Proc.devRef .tc b) :=
  after_of_writes_sub hostOps0 W writes0 hb

/-- Row 0 of the edge list. -/
theorem h0_src : after (hostOps0 (F := Ideal)) W (Proc.devRef .tc main_v1) = Cert.Gcn.srcOf (W (Proc.devRef .tc main_arg1)) := by
  after_results_simp
  rfl

/-- Row 1 of the edge list. -/
theorem h0_dst : after (hostOps0 (F := Ideal)) W (Proc.devRef .tc main_v3) = Cert.Gcn.dstOf (W (Proc.devRef .tc main_arg1)) := by
  after_results_simp
  rfl

/-- The edges' weights. -/
theorem h0_edgeW : after (hostOps0 (F := Ideal)) W (Proc.devRef .tc main_v25)
    = Cert.Gcn.edgeW (Cert.Gcn.srcOf (W (Proc.devRef .tc main_arg1))) (Cert.Gcn.dstOf (W (Proc.devRef .tc main_arg1))) := by
  after_results_simp
  rfl

/-- The nodes' own weights. -/
theorem h0_selfW : after (hostOps0 (F := Ideal)) W (Proc.devRef .tc main_v26) = Cert.Gcn.selfW (Cert.Gcn.dstOf (W (Proc.devRef .tc main_arg1))) := by
  after_results_simp
  rfl

/-- The first weight matrix: a change of format is the identity on extended reals. -/
theorem h0_w : after (hostOps0 (F := Ideal)) W (Proc.devRef .tc main_v27) = (W (Proc.devRef .tc main_arg2)) := by
  after_results_simp
  rfl

/-- The first bias as one row. -/
theorem h0_b : after (hostOps0 (F := Ideal)) W (Proc.devRef .tc main_v28) = shapeCast S1x64 (W (Proc.devRef .tc main_arg3)) shapeCasts_S64_S1x64 := by
  after_results_simp
  rfl

/-- The nodes' own weights as one column. -/
theorem h0_selfCol : after (hostOps0 (F := Ideal)) W (Proc.devRef .tc main_v29)
    = shapeCast S100000x1 (Cert.Gcn.selfW (Cert.Gcn.dstOf (W (Proc.devRef .tc main_arg1)))) shapeCasts_S100000_S100000x1 := by
  after_results_simp
  rfl

end Cert.KernelIdeal.HostValue

end
-- ==== Proof.KHost1.lean ====
/-
  The kernel program's host operations between two regions, read over any buffer contents `W`: the rows of the
  previous region's product sent along the edges and added up at their targets (width 64), and the next layer's operands as
  its region takes them.
-/
import proofs.«153369_j67937792688718_2_alg».proof.Proof.Gen.KernelIdeal.Launch
import proofs.«153369_j67937792688718_2_alg».proof.Proof.Spec
import Idealize.ShloMosaic.Lib.StableHlo.Run

noncomputable section

namespace Cert.KernelIdeal.HostValue

open Idealize.ShloMosaic Idealize.ShloMosaic.StableHlo Cert.KernelIdeal Cert.KernelIdeal.Gen

variable (W : Valuation τ sig (Elt Ideal))

/-- The buffers this line of operations writes. -/
abbrev written1 : List (Ref sig .tc) := [main_c_5, main_v31, main_v32, main_c_6, main_v33, main_v34, main_v35, main_v36, main_v37, main_v38, main_v39, main_v40, main_v41, main_cst_7, main_v42, main_v43, main_v44, main_v45, main_v46, main_v47]

theorem writes1 : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the line does not write keeps its contents. -/
theorem kept1 (b : Ref sig .tc) (hb : b ∉ written1) : after (hostOps1 (F := Ideal)) W (Proc.devRef .tc b) = W (Proc.devRef .tc b) :=
  after_of_writes_sub hostOps1 W writes1 hb

/-- The sum over the edges arriving at each node of the weighted source rows. -/
theorem h1_agg : after (hostOps1 (F := Ideal)) W (Proc.devRef .tc main_v44)
    = Cert.Gcn.agg64 (W (Proc.devRef .tc main_v1)) (W (Proc.devRef .tc main_v3)) (W (Proc.devRef .tc main_v25)) (W (Proc.devRef .tc main_v30_0)) := by
  after_results_simp
  rfl

/-- The next weight matrix: a change of format is the identity on extended reals. -/
theorem h1_w : after (hostOps1 (F := Ideal)) W (Proc.devRef .tc main_v45) = (W (Proc.devRef .tc main_arg4)) := by
  after_results_simp
  rfl

/-- The next bias as one row. -/
theorem h1_b : after (hostOps1 (F := Ideal)) W (Proc.devRef .tc main_v46) = shapeCast S1x32 (W (Proc.devRef .tc main_arg5)) shapeCasts_S32_S1x32 := by
  after_results_simp
  rfl

/-- The nodes' own weights as one column. -/
theorem h1_selfCol : after (hostOps1 (F := Ideal)) W (Proc.devRef .tc main_v47)
    = shapeCast S100000x1 (W (Proc.devRef .tc main_v26)) shapeCasts_S100000_S100000x1 := by
  after_results_simp
  rfl

end Cert.KernelIdeal.HostValue

end
-- ==== Proof.KHost2.lean ====
/-
  The kernel program's host operations between two regions, read over any buffer contents `W`: the rows of the
  previous region's product sent along the edges and added up at their targets (width 32), and the next layer's operands as
  its region takes them.
-/
import proofs.«153369_j67937792688718_2_alg».proof.Proof.Gen.KernelIdeal.Launch
import proofs.«153369_j67937792688718_2_alg».proof.Proof.Spec
import Idealize.ShloMosaic.Lib.StableHlo.Run

noncomputable section

namespace Cert.KernelIdeal.HostValue

open Idealize.ShloMosaic Idealize.ShloMosaic.StableHlo Cert.KernelIdeal Cert.KernelIdeal.Gen

variable (W : Valuation τ sig (Elt Ideal))

/-- The buffers this line of operations writes. -/
abbrev written2 : List (Ref sig .tc) := [main_c_8, main_v49, main_v50, main_c_9, main_v51, main_v52, main_v53, main_v54, main_v55, main_v56, main_v57, main_v58, main_v59, main_cst_10, main_v60, main_v61, main_v62, main_v63, main_v64, main_v65]

theorem writes2 : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the line does not write keeps its contents. -/
theorem kept2 (b : Ref sig .tc) (hb : b ∉ written2) : after (hostOps2 (F := Ideal)) W (Proc.devRef .tc b) = W (Proc.devRef .tc b) :=
  after_of_writes_sub hostOps2 W writes2 hb

/-- The sum over the edges arriving at each node of the weighted source rows. -/
theorem h2_agg : after (hostOps2 (F := Ideal)) W (Proc.devRef .tc main_v62)
    = Cert.Gcn.agg32 (W (Proc.devRef .tc main_v1)) (W (Proc.devRef .tc main_v3)) (W (Proc.devRef .tc main_v25)) (W (Proc.devRef .tc main_v48_0)) := by
  after_results_simp
  rfl

/-- The next weight matrix: a change of format is the identity on extended reals. -/
theorem h2_w : after (hostOps2 (F := Ideal)) W (Proc.devRef .tc main_v63) = (W (Proc.devRef .tc main_arg6)) := by
  after_results_simp
  rfl

/-- The next bias as one row. -/
theorem h2_b : after (hostOps2 (F := Ideal)) W (Proc.devRef .tc main_v64) = shapeCast S1x16 (W (Proc.devRef .tc main_arg7)) shapeCasts_S16_S1x16 := by
  after_results_simp
  rfl

/-- The nodes' own weights as one column. -/
theorem h2_selfCol : after (hostOps2 (F := Ideal)) W (Proc.devRef .tc main_v65)
    = shapeCast S100000x1 (W (Proc.devRef .tc main_v26)) shapeCasts_S100000_S100000x1 := by
  after_results_simp
  rfl

end Cert.KernelIdeal.HostValue

end
-- ==== Proof.KHost3.lean ====
/-
  The kernel program's host operations before its last region, read over any buffer contents `W`: the third layer's sum
  over the edges (width 16) and the third region's second result, both regrouped from 100000 rows of 16 to 12500 rows of 128.
-/
import proofs.«153369_j67937792688718_2_alg».proof.Proof.Gen.KernelIdeal.Launch
import proofs.«153369_j67937792688718_2_alg».proof.Proof.Spec
import Idealize.ShloMosaic.Lib.StableHlo.Run

noncomputable section

namespace Cert.KernelIdeal.HostValue

open Idealize.ShloMosaic Idealize.ShloMosaic.StableHlo Cert.KernelIdeal Cert.KernelIdeal.Gen

variable (W : Valuation τ sig (Elt Ideal))

/-- The buffers this line of operations writes. -/
abbrev written3 : List (Ref sig .tc) := [main_c_11, main_v67, main_v68, main_c_12, main_v69, main_v70, main_v71, main_v72, main_v73, main_v74, main_v75, main_v76, main_v77, main_cst_13, main_v78, main_v79, main_v80, main_v81, main_v82]

theorem writes3 : (hostOps3 : List (HloOp τ sig (Elt Ideal))).Forall fun op => op.writes ⊆ (written3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the line does not write keeps its contents. -/
theorem kept3 (b : Ref sig .tc) (hb : b ∉ written3) : after (hostOps3 (F := Ideal)) W (Proc.devRef .tc b) = W (Proc.devRef .tc b) :=
  after_of_writes_sub hostOps3 W writes3 hb

/-- The sum over the edges, regrouped. -/
theorem h3_agg : after (hostOps3 (F := Ideal)) W (Proc.devRef .tc main_v81)
    = shapeCast S12500x128 (Cert.Gcn.agg16 (W (Proc.devRef .tc main_v1)) (W (Proc.devRef .tc main_v3)) (W (Proc.devRef .tc main_v25)) (W (Proc.devRef .tc main_v66_0))) shapeCasts_S100000x16_S12500x128 := by
  after_results_simp
  rfl

/-- The third region's second result, regrouped. -/
theorem h3_self : after (hostOps3 (F := Ideal)) W (Proc.devRef .tc main_v82)
    = shapeCast S12500x128 (W (Proc.devRef .tc main_v66_1)) shapeCasts_S100000x16_S12500x128 := by
  after_results_simp
  rfl

end Cert.KernelIdeal.HostValue

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KTail.lean ====
/-
  The kernel program's host operations after its last region, read over any buffer contents `W`: the last region's result
  regrouped from 12500 rows of 128 back to 100000 rows of 16, then the mean over the nodes, the two dense layers and the
  logarithmic softmax — four lines of operations run one after the other.
-/
import proofs.«153369_j67937792688718_2_alg».proof.Proof.Gen.KernelIdeal.Launch
import proofs.«153369_j67937792688718_2_alg».proof.Proof.Spec
import proofs.«153369_j67937792688718_2_alg».proof.Proof.LibFoldRead

noncomputable section

namespace Cert.KernelIdeal.HostValue

open Idealize.ShloMosaic Idealize.ShloMosaic.StableHlo Cert.KernelIdeal Cert.KernelIdeal.Gen

variable (W : Valuation τ sig (Elt Ideal))

set_option maxRecDepth 65536 in
/-- The program's result is everything after the last layer applied to the last region's result, regrouped. -/
theorem tail_read :
    after (hostOps4_3 (F := Ideal)) (after hostOps4_2 (after hostOps4_1 (after hostOps4 W))) (Proc.devRef .tc main_v96)
      = Cert.Gcn.tail (shapeCast S100000x16 (W (Proc.devRef .tc main_v83)) shapeCasts_S12500x128_S100000x16)
          (W (Proc.devRef .tc main_arg8)) (W (Proc.devRef .tc main_arg9)) (W (Proc.devRef .tc main_arg10)) (W (Proc.devRef .tc main_arg11)) := by
  rw [← after_append, ← after_append, ← after_append]
  simp only [hostOps4, hostOps4_1, hostOps4_2, hostOps4_3, List.cons_append, List.nil_append]
  after_results_simp
  rfl

end Cert.KernelIdeal.HostValue

end
-- ==== Proof.KValue.lean ====
/-
  The kernel program's result as the network's function of its launch arrays.

  The program's buffer contents are followed from the launch through its nine stretches: host operations, a region,
  host operations, a region, … Each stretch is read by the lemma proved for it over arbitrary contents, and a buffer a stretch
  does not write is carried across it. The first region leaves the product `xw₁ = x · W₁` and `xw₁ · selfw + b₁`; the host
  sends `xw₁` along the edges (`agg₁`); the second region forms `max (agg₁ + (xw₁ · selfw + b₁), 0)`, which is the first
  layer's answer `h₁`, and leaves `xw₂ = h₁ · W₂` and `xw₂ · selfw + b₂`; likewise the third; the last region forms the third
  layer's answer on regrouped arrays, and the host regroups it back and applies the rest of the network.
-/
import proofs.«153369_j67937792688718_2_alg».proof.Proof.Gen.KernelIdeal.Frame
import proofs.«153369_j67937792688718_2_alg».proof.Proof.Region0
import proofs.«153369_j67937792688718_2_alg».proof.Proof.Region1
import proofs.«153369_j67937792688718_2_alg».proof.Proof.Region2
import proofs.«153369_j67937792688718_2_alg».proof.Proof.Region3
import proofs.«153369_j67937792688718_2_alg».proof.Proof.RegionLaw
import proofs.«153369_j67937792688718_2_alg».proof.Proof.KHost0
import proofs.«153369_j67937792688718_2_alg».proof.Proof.KHost1
import proofs.«153369_j67937792688718_2_alg».proof.Proof.KHost2
import proofs.«153369_j67937792688718_2_alg».proof.Proof.KHost3
import proofs.«153369_j67937792688718_2_alg».proof.Proof.KTail

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen Cert.KernelIdeal.HostValue Cert.KernelIdeal.RegionValue

variable (m : (ℓ : Loc nD τ sig) → Buf (Elt Ideal) ℓ) (ρ : Dev nD → PrngReg) (c : Dev nD)

/-! ## The network's pieces at the launch arrays -/

/-- The sources and targets of the edges, the edges' weights and the nodes' own weights. -/
abbrev src : IVec Cert.ReferenceIdeal.S3200000 32 := Cert.Gcn.srcOf (m ((c : Thread nD τ).loc main_arg1))
abbrev dst : IVec Cert.ReferenceIdeal.S3200000 32 := Cert.Gcn.dstOf (m ((c : Thread nD τ).loc main_arg1))
abbrev ew : FVec Ideal Cert.ReferenceIdeal.S3200000 .f32 := Cert.Gcn.edgeW (src m c) (dst m c)
abbrev sw : FVec Ideal Cert.ReferenceIdeal.S100000 .f32 := Cert.Gcn.selfW (dst m c)
/-- The three layers' products and answers. -/
abbrev xw1 : FVec Ideal Cert.ReferenceIdeal.S100000x64 .f32 := Cert.Gcn.prod1 (m ((c : Thread nD τ).loc main_arg0)) (m ((c : Thread nD τ).loc main_arg2))
abbrev h1 : FVec Ideal Cert.ReferenceIdeal.S100000x64 .f32 :=
  Cert.Gcn.act64 (Cert.Gcn.agg64 (src m c) (dst m c) (ew m c) (xw1 m c)) (xw1 m c) (sw m c) (m ((c : Thread nD τ).loc main_arg3))
abbrev xw2 : FVec Ideal Cert.ReferenceIdeal.S100000x32 .f32 := Cert.Gcn.prod2 (h1 m c) (m ((c : Thread nD τ).loc main_arg4))
abbrev h2 : FVec Ideal Cert.ReferenceIdeal.S100000x32 .f32 :=
  Cert.Gcn.act32 (Cert.Gcn.agg32 (src m c) (dst m c) (ew m c) (xw2 m c)) (xw2 m c) (sw m c) (m ((c : Thread nD τ).loc main_arg5))
abbrev xw3 : FVec Ideal Cert.ReferenceIdeal.S100000x16 .f32 := Cert.Gcn.prod3 (h2 m c) (m ((c : Thread nD τ).loc main_arg6))

/-! ## Buffers carried across a stretch that does not write them -/

theorem carry1 (b : Ref sig .tc) (hb : b ∉ written0) : W1 m ρ c (Proc.devRef .tc b) = (m ((c : Thread nD τ).loc b)) := kept0 (W0 m ρ c) b hb
theorem carry2 (b : Ref sig .tc) (hb : ∀ w, Pipeline.arrRef spec0 w ≠ b) : W2 m ρ c (Proc.devRef .tc b) = W1 m ρ c (Proc.devRef .tc b) := W2_of_ne m ρ c b hb
theorem carry3 (b : Ref sig .tc) (hb : b ∉ written1) : W3 m ρ c (Proc.devRef .tc b) = W2 m ρ c (Proc.devRef .tc b) := kept1 (W2 m ρ c) b hb
theorem carry4 (b : Ref sig .tc) (hb : ∀ w, Pipeline.arrRef spec1 w ≠ b) : W4 m ρ c (Proc.devRef .tc b) = W3 m ρ c (Proc.devRef .tc b) := W4_of_ne m ρ c b hb
theorem carry5 (b : Ref sig .tc) (hb : b ∉ written2) : W5 m ρ c (Proc.devRef .tc b) = W4 m ρ c (Proc.devRef .tc b) := kept2 (W4 m ρ c) b hb
theorem carry6 (b : Ref sig .tc) (hb : ∀ w, Pipeline.arrRef spec2 w ≠ b) : W6 m ρ c (Proc.devRef .tc b) = W5 m ρ c (Proc.devRef .tc b) := W6_of_ne m ρ c b hb
theorem carry7 (b : Ref sig .tc) (hb : b ∉ written3) : W7 m ρ c (Proc.devRef .tc b) = W6 m ρ c (Proc.devRef .tc b) := kept3 (W6 m ρ c) b hb
theorem carry8 (b : Ref sig .tc) (hb : ∀ w, Pipeline.arrRef spec3 w ≠ b) : W8 m ρ c (Proc.devRef .tc b) = W7 m ρ c (Proc.devRef .tc b) := W8_of_ne m ρ c b hb

/-! ## After the first stretch of host operations -/

theorem s1_src : W1 m ρ c (Proc.devRef .tc main_v1) = src m c := h0_src (W0 m ρ c)
theorem s1_dst : W1 m ρ c (Proc.devRef .tc main_v3) = dst m c := h0_dst (W0 m ρ c)
theorem s1_ew : W1 m ρ c (Proc.devRef .tc main_v25) = ew m c := h0_edgeW (W0 m ρ c)
theorem s1_sw : W1 m ρ c (Proc.devRef .tc main_v26) = sw m c := h0_selfW (W0 m ρ c)
theorem s1_w : W1 m ρ c (Proc.devRef .tc main_v27) = (m ((c : Thread nD τ).loc main_arg2)) := h0_w (W0 m ρ c)
theorem s1_b : W1 m ρ c (Proc.devRef .tc main_v28) = shapeCast S1x64 (m ((c : Thread nD τ).loc main_arg3)) shapeCasts_S64_S1x64 := h0_b (W0 m ρ c)
theorem s1_col : W1 m ρ c (Proc.devRef .tc main_v29) = shapeCast S100000x1 (sw m c) shapeCasts_S100000_S100000x1 := h0_selfCol (W0 m ρ c)

/-! ## The normalisation as stage 2 finds it -/

theorem s2_src : W2 m ρ c (Proc.devRef .tc main_v1) = src m c :=
  ((carry2 m ρ c main_v1 (by decide)).trans (s1_src m ρ c))
theorem s2_dst : W2 m ρ c (Proc.devRef .tc main_v3) = dst m c :=
  ((carry2 m ρ c main_v3 (by decide)).trans (s1_dst m ρ c))
theorem s2_ew : W2 m ρ c (Proc.devRef .tc main_v25) = ew m c :=
  ((carry2 m ρ c main_v25 (by decide)).trans (s1_ew m ρ c))
theorem s2_sw : W2 m ρ c (Proc.devRef .tc main_v26) = sw m c :=
  ((carry2 m ρ c main_v26 (by decide)).trans (s1_sw m ρ c))

/-! ## The normalisation as stage 4 finds it -/

theorem s4_src : W4 m ρ c (Proc.devRef .tc main_v1) = src m c :=
  ((carry4 m ρ c main_v1 (by decide)).trans ((carry3 m ρ c main_v1 (by decide)).trans ((carry2 m ρ c main_v1 (by decide)).trans (s1_src m ρ c))))
theorem s4_dst : W4 m ρ c (Proc.devRef .tc main_v3) = dst m c :=
  ((carry4 m ρ c main_v3 (by decide)).trans ((carry3 m ρ c main_v3 (by decide)).trans ((carry2 m ρ c main_v3 (by decide)).trans (s1_dst m ρ c))))
theorem s4_ew : W4 m ρ c (Proc.devRef .tc main_v25) = ew m c :=
  ((carry4 m ρ c main_v25 (by decide)).trans ((carry3 m ρ c main_v25 (by decide)).trans ((carry2 m ρ c main_v25 (by decide)).trans (s1_ew m ρ c))))
theorem s4_sw : W4 m ρ c (Proc.devRef .tc main_v26) = sw m c :=
  ((carry4 m ρ c main_v26 (by decide)).trans ((carry3 m ρ c main_v26 (by decide)).trans ((carry2 m ρ c main_v26 (by decide)).trans (s1_sw m ρ c))))

/-! ## The normalisation as stage 6 finds it -/

theorem s6_src : W6 m ρ c (Proc.devRef .tc main_v1) = src m c :=
  ((carry6 m ρ c main_v1 (by decide)).trans ((carry5 m ρ c main_v1 (by decide)).trans ((carry4 m ρ c main_v1 (by decide)).trans ((carry3 m ρ c main_v1 (by decide)).trans ((carry2 m ρ c main_v1 (by decide)).trans (s1_src m ρ c))))))
theorem s6_dst : W6 m ρ c (Proc.devRef .tc main_v3) = dst m c :=
  ((carry6 m ρ c main_v3 (by decide)).trans ((carry5 m ρ c main_v3 (by decide)).trans ((carry4 m ρ c main_v3 (by decide)).trans ((carry3 m ρ c main_v3 (by decide)).trans ((carry2 m ρ c main_v3 (by decide)).trans (s1_dst m ρ c))))))
theorem s6_ew : W6 m ρ c (Proc.devRef .tc main_v25) = ew m c :=
  ((carry6 m ρ c main_v25 (by decide)).trans ((carry5 m ρ c main_v25 (by decide)).trans ((carry4 m ρ c main_v25 (by decide)).trans ((carry3 m ρ c main_v25 (by decide)).trans ((carry2 m ρ c main_v25 (by decide)).trans (s1_ew m ρ c))))))

/-! ## The arguments as later stages find them -/

theorem s2_arg4 : W2 m ρ c (Proc.devRef .tc main_arg4) = (m ((c : Thread nD τ).loc main_arg4)) :=
  ((carry2 m ρ c main_arg4 (by decide)).trans (carry1 m ρ c main_arg4 (by decide)))
theorem s2_arg5 : W2 m ρ c (Proc.devRef .tc main_arg5) = (m ((c : Thread nD τ).loc main_arg5)) :=
  ((carry2 m ρ c main_arg5 (by decide)).trans (carry1 m ρ c main_arg5 (by decide)))
theorem s4_arg6 : W4 m ρ c (Proc.devRef .tc main_arg6) = (m ((c : Thread nD τ).loc main_arg6)) :=
  ((carry4 m ρ c main_arg6 (by decide)).trans ((carry3 m ρ c main_arg6 (by decide)).trans ((carry2 m ρ c main_arg6 (by decide)).trans (carry1 m ρ c main_arg6 (by decide)))))
theorem s4_arg7 : W4 m ρ c (Proc.devRef .tc main_arg7) = (m ((c : Thread nD τ).loc main_arg7)) :=
  ((carry4 m ρ c main_arg7 (by decide)).trans ((carry3 m ρ c main_arg7 (by decide)).trans ((carry2 m ρ c main_arg7 (by decide)).trans (carry1 m ρ c main_arg7 (by decide)))))
theorem s8_arg8 : W8 m ρ c (Proc.devRef .tc main_arg8) = (m ((c : Thread nD τ).loc main_arg8)) :=
  ((carry8 m ρ c main_arg8 (by decide)).trans ((carry7 m ρ c main_arg8 (by decide)).trans ((carry6 m ρ c main_arg8 (by decide)).trans ((carry5 m ρ c main_arg8 (by decide)).trans ((carry4 m ρ c main_arg8 (by decide)).trans ((carry3 m ρ c main_arg8 (by decide)).trans ((carry2 m ρ c main_arg8 (by decide)).trans (carry1 m ρ c main_arg8 (by decide)))))))))
theorem s8_arg9 : W8 m ρ c (Proc.devRef .tc main_arg9) = (m ((c : Thread nD τ).loc main_arg9)) :=
  ((carry8 m ρ c main_arg9 (by decide)).trans ((carry7 m ρ c main_arg9 (by decide)).trans ((carry6 m ρ c main_arg9 (by decide)).trans ((carry5 m ρ c main_arg9 (by decide)).trans ((carry4 m ρ c main_arg9 (by decide)).trans ((carry3 m ρ c main_arg9 (by decide)).trans ((carry2 m ρ c main_arg9 (by decide)).trans (carry1 m ρ c main_arg9 (by decide)))))))))
theorem s8_arg10 : W8 m ρ c (Proc.devRef .tc main_arg10) = (m ((c : Thread nD τ).loc main_arg10)) :=
  ((carry8 m ρ c main_arg10 (by decide)).trans ((carry7 m ρ c main_arg10 (by decide)).trans ((carry6 m ρ c main_arg10 (by decide)).trans ((carry5 m ρ c main_arg10 (by decide)).trans ((carry4 m ρ c main_arg10 (by decide)).trans ((carry3 m ρ c main_arg10 (by decide)).trans ((carry2 m ρ c main_arg10 (by decide)).trans (carry1 m ρ c main_arg10 (by decide)))))))))
theorem s8_arg11 : W8 m ρ c (Proc.devRef .tc main_arg11) = (m ((c : Thread nD τ).loc main_arg11)) :=
  ((carry8 m ρ c main_arg11 (by decide)).trans ((carry7 m ρ c main_arg11 (by decide)).trans ((carry6 m ρ c main_arg11 (by decide)).trans ((carry5 m ρ c main_arg11 (by decide)).trans ((carry4 m ρ c main_arg11 (by decide)).trans ((carry3 m ρ c main_arg11 (by decide)).trans ((carry2 m ρ c main_arg11 (by decide)).trans (carry1 m ρ c main_arg11 (by decide)))))))))

/-! ## The first region -/

theorem s2_prod : W2 m ρ c (Proc.devRef .tc main_v30_0) = xw1 m c := by
  refine (show W2 m ρ c (Proc.devRef .tc main_v30_0) = _ from W2_arr m ρ c 4).trans ?_
  rw [region0_bf16 (V1 m ρ) c,
    show V1 m ρ c main_arg0 = _ from carry1 m ρ c main_arg0 (by decide),
    show V1 m ρ c main_v27 = _ from s1_w m ρ c, Cert.RegionLaw.prod_eq_prod1]

theorem s2_self : W2 m ρ c (Proc.devRef .tc main_v30_1)
    = Cert.RegionSpec.scaleShift 100000 64 (xw1 m c) (shapeCast S100000x1 (sw m c) shapeCasts_S100000_S100000x1)
        (shapeCast S1x64 (m ((c : Thread nD τ).loc main_arg3)) shapeCasts_S64_S1x64) := by
  refine (show W2 m ρ c (Proc.devRef .tc main_v30_1) = _ from W2_arr m ρ c 5).trans ?_
  rw [region0_f32 (V1 m ρ) c,
    show V1 m ρ c main_arg0 = _ from carry1 m ρ c main_arg0 (by decide),
    show V1 m ρ c main_v27 = _ from s1_w m ρ c, Cert.RegionLaw.prod_eq_prod1,
    show V1 m ρ c main_v29 = _ from s1_col m ρ c, show V1 m ρ c main_v28 = _ from s1_b m ρ c]

/-! ## The host operations and the region of the next layer (width 64 in, 32 out) -/

theorem s3_agg : W3 m ρ c (Proc.devRef .tc main_v44) = Cert.Gcn.agg64 (src m c) (dst m c) (ew m c) (xw1 m c) :=
  (h1_agg (W2 m ρ c)).trans (by rw [s2_src, s2_dst, s2_ew, s2_prod])
theorem s3_w : W3 m ρ c (Proc.devRef .tc main_v45) = (m ((c : Thread nD τ).loc main_arg4)) := (h1_w (W2 m ρ c)).trans (s2_arg4 m ρ c)
theorem s3_b : W3 m ρ c (Proc.devRef .tc main_v46) = shapeCast S1x32 (m ((c : Thread nD τ).loc main_arg5)) shapeCasts_S32_S1x32 :=
  (h1_b (W2 m ρ c)).trans (by rw [s2_arg5])
theorem s3_col : W3 m ρ c (Proc.devRef .tc main_v47) = shapeCast S100000x1 (sw m c) shapeCasts_S100000_S100000x1 :=
  (h1_selfCol (W2 m ρ c)).trans (by rw [s2_sw])
theorem s3_prev : W3 m ρ c (Proc.devRef .tc main_v30_1)
    = Cert.RegionSpec.scaleShift 100000 64 (xw1 m c) (shapeCast S100000x1 (sw m c) shapeCasts_S100000_S100000x1)
        (shapeCast S1x64 (m ((c : Thread nD τ).loc main_arg3)) shapeCasts_S64_S1x64) :=
  (carry3 m ρ c main_v30_1 (by decide)).trans (s2_self m ρ c)

theorem s4_prod : W4 m ρ c (Proc.devRef .tc main_v48_0) = xw2 m c := by
  refine (show W4 m ρ c (Proc.devRef .tc main_v48_0) = _ from W4_arr m ρ c 5).trans ?_
  rw [region1_bf16 (V3 m ρ) c,
    show V3 m ρ c main_v44 = _ from s3_agg m ρ c, show V3 m ρ c main_v30_1 = _ from s3_prev m ρ c,
    show V3 m ρ c main_v45 = _ from s3_w m ρ c, Cert.RegionLaw.relu_eq_act64, Cert.RegionLaw.prod_eq_prod2]

theorem s4_self : W4 m ρ c (Proc.devRef .tc main_v48_1)
    = Cert.RegionSpec.scaleShift 100000 32 (xw2 m c) (shapeCast S100000x1 (sw m c) shapeCasts_S100000_S100000x1)
        (shapeCast S1x32 (m ((c : Thread nD τ).loc main_arg5)) shapeCasts_S32_S1x32) := by
  refine (show W4 m ρ c (Proc.devRef .tc main_v48_1) = _ from W4_arr m ρ c 6).trans ?_
  rw [region1_f32 (V3 m ρ) c,
    show V3 m ρ c main_v44 = _ from s3_agg m ρ c, show V3 m ρ c main_v30_1 = _ from s3_prev m ρ c,
    show V3 m ρ c main_v45 = _ from s3_w m ρ c, Cert.RegionLaw.relu_eq_act64, Cert.RegionLaw.prod_eq_prod2,
    show V3 m ρ c main_v47 = _ from s3_col m ρ c, show V3 m ρ c main_v46 = _ from s3_b m ρ c]

/-! ## The host operations and the region of the next layer (width 32 in, 16 out) -/

theorem s5_agg : W5 m ρ c (Proc.devRef .tc main_v62) = Cert.Gcn.agg32 (src m c) (dst m c) (ew m c) (xw2 m c) :=
  (h2_agg (W4 m ρ c)).trans (by rw [s4_src, s4_dst, s4_ew, s4_prod])
theorem s5_w : W5 m ρ c (Proc.devRef .tc main_v63) = (m ((c : Thread nD τ).loc main_arg6)) := (h2_w (W4 m ρ c)).trans (s4_arg6 m ρ c)
theorem s5_b : W5 m ρ c (Proc.devRef .tc main_v64) = shapeCast S1x16 (m ((c : Thread nD τ).loc main_arg7)) shapeCasts_S16_S1x16 :=
  (h2_b (W4 m ρ c)).trans (by rw [s4_arg7])
theorem s5_col : W5 m ρ c (Proc.devRef .tc main_v65) = shapeCast S100000x1 (sw m c) shapeCasts_S100000_S100000x1 :=
  (h2_selfCol (W4 m ρ c)).trans (by rw [s4_sw])
theorem s5_prev : W5 m ρ c (Proc.devRef .tc main_v48_1)
    = Cert.RegionSpec.scaleShift 100000 32 (xw2 m c) (shapeCast S100000x1 (sw m c) shapeCasts_S100000_S100000x1)
        (shapeCast S1x32 (m ((c : Thread nD τ).loc main_arg5)) shapeCasts_S32_S1x32) :=
  (carry5 m ρ c main_v48_1 (by decide)).trans (s4_self m ρ c)

theorem s6_prod : W6 m ρ c (Proc.devRef .tc main_v66_0) = xw3 m c := by
  refine (show W6 m ρ c (Proc.devRef .tc main_v66_0) = _ from W6_arr m ρ c 5).trans ?_
  rw [region2_bf16 (V5 m ρ) c,
    show V5 m ρ c main_v62 = _ from s5_agg m ρ c, show V5 m ρ c main_v48_1 = _ from s5_prev m ρ c,
    show V5 m ρ c main_v63 = _ from s5_w m ρ c, Cert.RegionLaw.relu_eq_act32, Cert.RegionLaw.prod_eq_prod3]

theorem s6_self : W6 m ρ c (Proc.devRef .tc main_v66_1)
    = Cert.RegionSpec.scaleShift 100000 16 (xw3 m c) (shapeCast S100000x1 (sw m c) shapeCasts_S100000_S100000x1)
        (shapeCast S1x16 (m ((c : Thread nD τ).loc main_arg7)) shapeCasts_S16_S1x16) := by
  refine (show W6 m ρ c (Proc.devRef .tc main_v66_1) = _ from W6_arr m ρ c 6).trans ?_
  rw [region2_f32 (V5 m ρ) c,
    show V5 m ρ c main_v62 = _ from s5_agg m ρ c, show V5 m ρ c main_v48_1 = _ from s5_prev m ρ c,
    show V5 m ρ c main_v63 = _ from s5_w m ρ c, Cert.RegionLaw.relu_eq_act32, Cert.RegionLaw.prod_eq_prod3,
    show V5 m ρ c main_v65 = _ from s5_col m ρ c, show V5 m ρ c main_v64 = _ from s5_b m ρ c]

/-! ## The last region, on arrays regrouped to 128 columns, and the rest of the network -/

theorem s7_agg : W7 m ρ c (Proc.devRef .tc main_v81)
    = shapeCast S12500x128 (Cert.Gcn.agg16 (src m c) (dst m c) (ew m c) (xw3 m c)) shapeCasts_S100000x16_S12500x128 :=
  (h3_agg (W6 m ρ c)).trans (by rw [s6_src, s6_dst, s6_ew, s6_prod])
theorem s7_self : W7 m ρ c (Proc.devRef .tc main_v82)
    = shapeCast S12500x128 (Cert.RegionSpec.scaleShift 100000 16 (xw3 m c) (shapeCast S100000x1 (sw m c) shapeCasts_S100000_S100000x1)
        (shapeCast S1x16 (m ((c : Thread nD τ).loc main_arg7)) shapeCasts_S16_S1x16)) shapeCasts_S100000x16_S12500x128 :=
  (h3_self (W6 m ρ c)).trans (by rw [s6_self])

theorem s8_out : W8 m ρ c (Proc.devRef .tc main_v83)
    = Cert.RegionSpec.relu 12500 128
        (shapeCast S12500x128 (Cert.Gcn.agg16 (src m c) (dst m c) (ew m c) (xw3 m c)) shapeCasts_S100000x16_S12500x128)
        (shapeCast S12500x128 (Cert.RegionSpec.scaleShift 100000 16 (xw3 m c) (shapeCast S100000x1 (sw m c) shapeCasts_S100000_S100000x1)
          (shapeCast S1x16 (m ((c : Thread nD τ).loc main_arg7)) shapeCasts_S16_S1x16)) shapeCasts_S100000x16_S12500x128) := by
  refine (show W8 m ρ c (Proc.devRef .tc main_v83) = _ from W8_arr m ρ c 2).trans ?_
  rw [region3 (V7 m ρ) c, show V7 m ρ c main_v81 = _ from s7_agg m ρ c, show V7 m ρ c main_v82 = _ from s7_self m ρ c]

/-- The kernel program's result buffer at its last boundary is the network's answer at the launch arrays. -/
theorem kernel_value : W12 m ρ c (Proc.devRef .tc main_v96)
    = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (tail_read (W8 m ρ c)).trans ?_
  rw [s8_out, Cert.RegionLaw.regroup_relu, Cert.RegionLaw.relu_eq_act16, s8_arg8, s8_arg9, s8_arg10, s8_arg11]
  rfl

end Cert.KernelIdeal.KValue

end
-- ==== Proof.RefSegs.lean ====
/-
  The reference program's 145 host operations, cut into nine consecutive lines.

  The program is a straight line; its buffer contents after all of it are the fold of the operations' results over the
  launch contents. Cut at the places where few buffers are still needed later — after the normalisation, after each
  layer's sum along the edges, after each layer's answer, after the scores — the fold is the composition of the nine
  lines' folds, and each line can be read by itself over arbitrary starting contents.
-/
import proofs.«153369_j67937792688718_2_alg».proof.Proof.Gen.ReferenceIdeal.Run
import proofs.«153369_j67937792688718_2_alg».proof.Proof.LibFoldRead

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edge list's two rows, `1/√deg`, the edges' weights and the nodes' own weights: `main_v0` … `main_v26`. -/
def seg1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S3200000 ![] bcast_S_S3200000 : (⟨S_, .i32⟩ : BufTy).Contents (Elt F) → (⟨S3200000, .i32⟩ : BufTy).Contents (Elt F)),
    binary main_v1 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v13 (broadcastInDim S3200000 ![] bcast_S_S3200000 : (⟨S_, .i32⟩ : BufTy).Contents (Elt F) → (⟨S3200000, .i32⟩ : BufTy).Contents (Elt F)),
    binary main_v1 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_v10 main_v16 main_v17 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_3 (constantI S_ 32 0#32),
    unary main_c_3 main_v18 (broadcastInDim S3200000 ![] bcast_S_S3200000 : (⟨S_, .i32⟩ : BufTy).Contents (Elt F) → (⟨S3200000, .i32⟩ : BufTy).Contents (Elt F)),
    binary main_v3 main_v18 main_v19 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v20 (broadcastInDim S3200000 ![] bcast_S_S3200000 : (⟨S_, .i32⟩ : BufTy).Contents (Elt F) → (⟨S3200000, .i32⟩ : BufTy).Contents (Elt F)),
    binary main_v3 main_v20 main_v21 (addi : (⟨S3200000, .i32⟩ : BufTy).Contents (Elt F) → (⟨S3200000, .i32⟩ : BufTy).Contents (Elt F) → (⟨S3200000, .i32⟩ : BufTy).Contents (Elt F)),
    ternary main_v19 main_v21 main_v3 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v22 main_v23 (broadcastInDim S3200000x1 ![0] bcast_S3200000_S3200000x1_0 : (⟨S3200000, .i32⟩ : BufTy).Contents (Elt F) → (⟨S3200000x1, .i32⟩ : BufTy).Contents (Elt F)),
    binary main_v10 main_v23 main_v24 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v17 main_v24 main_v25 (mulf : (⟨S3200000, .f32⟩ : BufTy).Contents (Elt F) → (⟨S3200000, .f32⟩ : BufTy).Contents (Elt F) → (⟨S3200000, .f32⟩ : BufTy).Contents (Elt F)),
    binary main_v10 main_v10 main_v26 (mulf : (⟨S100000, .f32⟩ : BufTy).Contents (Elt F) → (⟨S100000, .f32⟩ : BufTy).Contents (Elt F) → (⟨S100000, .f32⟩ : BufTy).Contents (Elt F)) ]

/-- Layer 1, first half: the product `x · W1` (`main_v27`) and its sum along the edges (`main_v40`). -/
def seg2 : List (HloOp τ sig (Elt F)) :=
  [ binary main_arg0 main_arg2 main_v27 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_5 (constantI S_ 32 0#32),
    unary main_c_5 main_v28 (broadcastInDim S3200000 ![] bcast_S_S3200000 : (⟨S_, .i32⟩ : BufTy).Contents (Elt F) → (⟨S3200000, .i32⟩ : BufTy).Contents (Elt F)),
    binary main_v1 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v30 (broadcastInDim S3200000 ![] bcast_S_S3200000 : (⟨S_, .i32⟩ : BufTy).Contents (Elt F) → (⟨S3200000, .i32⟩ : BufTy).Contents (Elt F)),
    binary main_v1 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v27 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v25 main_v35 (broadcastInDim S3200000x1 ![0] bcast_S3200000_S3200000x1_0 : (⟨S3200000, .f32⟩ : BufTy).Contents (Elt F) → (⟨S3200000x1, .f32⟩ : BufTy).Contents (Elt F)),
    unary main_v35 main_v36 (broadcastInDim S3200000x64 ![0, 1] bcast_S3200000x1_S3200000x64_0_1 : (⟨S3200000x1, .f32⟩ : BufTy).Contents (Elt F) → (⟨S3200000x64, .f32⟩ : BufTy).Contents (Elt F)),
    binary main_v34 main_v36 main_v37 (mulf : (⟨S3200000x64, .f32⟩ : BufTy).Contents (Elt F) → (⟨S3200000x64, .f32⟩ : BufTy).Contents (Elt F) → (⟨S3200000x64, .f32⟩ : BufTy).Contents (Elt F)),
    nullary main_cst_7 (constant S_ .f32 0x00000000#32),
    unary main_cst_7 main_v38 (broadcastInDim S100000x64 ![] bcast_S_S100000x64 : (⟨S_, .f32⟩ : BufTy).Contents (Elt F) → (⟨S100000x64, .f32⟩ : BufTy).Contents (Elt F)),
    unary main_v3 main_v39 (broadcastInDim S3200000x1 ![0] bcast_S3200000_S3200000x1_0 : (⟨S3200000, .i32⟩ : BufTy).Contents (Elt F) → (⟨S3200000x1, .i32⟩ : BufTy).Contents (Elt F)),
    ternary main_v38 main_v39 main_v37 main_v40 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- Layer 1, second half: the own-weight term, the bias and `max (·, 0)`: `main_v41` … `main_v48`. -/
def seg3 : List (HloOp τ sig (Elt F)) :=
  [ unary main_v26 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v27 main_v42 main_v43 (mulf : (⟨S100000x64, .f32⟩ : BufTy).Contents (Elt F) → (⟨S100000x64, .f32⟩ : BufTy).Contents (Elt F) → (⟨S100000x64, .f32⟩ : BufTy).Contents (Elt F)),
    binary main_v40 main_v43 main_v44 (addf : (⟨S100000x64, .f32⟩ : BufTy).Contents (Elt F) → (⟨S100000x64, .f32⟩ : BufTy).Contents (Elt F) → (⟨S100000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v47) (TRef.of (T := ⟨S100000x64, .f32⟩) main_call0_v0) (TRef.of (T := ⟨S100000x64, .f32⟩) main_v48) maximumf ]

/-- Layer 2, first half: the product `h₁ · W2` (`main_v49`) and its sum along the edges (`main_v62`). -/
def seg4 : List (HloOp τ sig (Elt F)) :=
  [ binary main_v48 main_arg4 main_v49 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_8 (constantI S_ 32 0#32),
    unary main_c_8 main_v50 (broadcastInDim S3200000 ![] bcast_S_S3200000 : (⟨S_, .i32⟩ : BufTy).Contents (Elt F) → (⟨S3200000, .i32⟩ : BufTy).Contents (Elt F)),
    binary main_v1 main_v50 main_v51 (cmpi .slt : (⟨S3200000, .i32⟩ : BufTy).Contents (Elt F) → (⟨S3200000, .i32⟩ : BufTy).Contents (Elt F) → (⟨S3200000, .i1⟩ : BufTy).Contents (Elt F)),
    nullary main_c_9 (constantI S_ 32 100000#32),
    unary main_c_9 main_v52 (broadcastInDim S3200000 ![] bcast_S_S3200000 : (⟨S_, .i32⟩ : BufTy).Contents (Elt F) → (⟨S3200000, .i32⟩ : BufTy).Contents (Elt F)),
    binary main_v1 main_v52 main_v53 (addi : (⟨S3200000, .i32⟩ : BufTy).Contents (Elt F) → (⟨S3200000, .i32⟩ : BufTy).Contents (Elt F) → (⟨S3200000, .i32⟩ : BufTy).Contents (Elt F)),
    ternary main_v51 main_v53 main_v1 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v54 main_v55 (broadcastInDim S3200000x1 ![0] bcast_S3200000_S3200000x1_0 : (⟨S3200000, .i32⟩ : BufTy).Contents (Elt F) → (⟨S3200000x1, .i32⟩ : BufTy).Contents (Elt F)),
    binary main_v49 main_v55 main_v56 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v25 main_v57 (broadcastInDim S3200000x1 ![0] bcast_S3200000_S3200000x1_0 : (⟨S3200000, .f32⟩ : BufTy).Contents (Elt F) → (⟨S3200000x1, .f32⟩ : BufTy).Contents (Elt F)),
    unary main_v57 main_v58 (broadcastInDim S3200000x32 ![0, 1] bcast_S3200000x1_S3200000x32_0_1 : (⟨S3200000x1, .f32⟩ : BufTy).Contents (Elt F) → (⟨S3200000x32, .f32⟩ : BufTy).Contents (Elt F)),
    binary main_v56 main_v58 main_v59 (mulf : (⟨S3200000x32, .f32⟩ : BufTy).Contents (Elt F) → (⟨S3200000x32, .f32⟩ : BufTy).Contents (Elt F) → (⟨S3200000x32, .f32⟩ : BufTy).Contents (Elt F)),
    nullary main_cst_10 (constant S_ .f32 0x00000000#32),
    unary main_cst_10 main_v60 (broadcastInDim S100000x32 ![] bcast_S_S100000x32 : (⟨S_, .f32⟩ : BufTy).Contents (Elt F) → (⟨S100000x32, .f32⟩ : BufTy).Contents (Elt F)),
    unary main_v3 main_v61 (broadcastInDim S3200000x1 ![0] bcast_S3200000_S3200000x1_0 : (⟨S3200000, .i32⟩ : BufTy).Contents (Elt F) → (⟨S3200000x1, .i32⟩ : BufTy).Contents (Elt F)),
    ternary main_v60 main_v61 main_v59 main_v62 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Layer 2, second half: `main_v63` … `main_v70`. -/
def seg5 : List (HloOp τ sig (Elt F)) :=
  [ unary main_v26 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x32 ![0, 1] bcast_S100000x1_S100000x32_0_1 : (⟨S100000x1, .f32⟩ : BufTy).Contents (Elt F) → (⟨S100000x32, .f32⟩ : BufTy).Contents (Elt F)),
    binary main_v49 main_v64 main_v65 (mulf : (⟨S100000x32, .f32⟩ : BufTy).Contents (Elt F) → (⟨S100000x32, .f32⟩ : BufTy).Contents (Elt F) → (⟨S100000x32, .f32⟩ : BufTy).Contents (Elt F)),
    binary main_v62 main_v65 main_v66 (addf : (⟨S100000x32, .f32⟩ : BufTy).Contents (Elt F) → (⟨S100000x32, .f32⟩ : BufTy).Contents (Elt F) → (⟨S100000x32, .f32⟩ : BufTy).Contents (Elt F)),
    unary main_arg5 main_v67 (broadcastInDim S1x32 ![1] bcast_S32_S1x32_1 : (⟨S32, .f32⟩ : BufTy).Contents (Elt F) → (⟨S1x32, .f32⟩ : BufTy).Contents (Elt F)),
    unary main_v67 main_v68 (broadcastInDim S100000x32 ![0, 1] bcast_S1x32_S100000x32_0_1 : (⟨S1x32, .f32⟩ : BufTy).Contents (Elt F) → (⟨S100000x32, .f32⟩ : BufTy).Contents (Elt F)),
    binary main_v66 main_v68 main_v69 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v69) (TRef.of (T := ⟨S100000x32, .f32⟩) main_call1_v0) (TRef.of (T := ⟨S100000x32, .f32⟩) main_v70) maximumf ]

/-- Layer 3, first half: the product `h₂ · W3` (`main_v71`) and its sum along the edges (`main_v84`). -/
def seg6 : List (HloOp τ sig (Elt F)) :=
  [ binary main_v70 main_arg6 main_v71 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    nullary main_c_11 (constantI S_ 32 0#32),
    unary main_c_11 main_v72 (broadcastInDim S3200000 ![] bcast_S_S3200000 : (⟨S_, .i32⟩ : BufTy).Contents (Elt F) → (⟨S3200000, .i32⟩ : BufTy).Contents (Elt F)),
    binary main_v1 main_v72 main_v73 (cmpi .slt : (⟨S3200000, .i32⟩ : BufTy).Contents (Elt F) → (⟨S3200000, .i32⟩ : BufTy).Contents (Elt F) → (⟨S3200000, .i1⟩ : BufTy).Contents (Elt F)),
    nullary main_c_12 (constantI S_ 32 100000#32),
    unary main_c_12 main_v74 (broadcastInDim S3200000 ![] bcast_S_S3200000 : (⟨S_, .i32⟩ : BufTy).Contents (Elt F) → (⟨S3200000, .i32⟩ : BufTy).Contents (Elt F)),
    binary main_v1 main_v74 main_v75 (addi : (⟨S3200000, .i32⟩ : BufTy).Contents (Elt F) → (⟨S3200000, .i32⟩ : BufTy).Contents (Elt F) → (⟨S3200000, .i32⟩ : BufTy).Contents (Elt F)),
    ternary main_v73 main_v75 main_v1 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v76 main_v77 (broadcastInDim S3200000x1 ![0] bcast_S3200000_S3200000x1_0 : (⟨S3200000, .i32⟩ : BufTy).Contents (Elt F) → (⟨S3200000x1, .i32⟩ : BufTy).Contents (Elt F)),
    binary main_v71 main_v77 main_v78 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v25 main_v79 (broadcastInDim S3200000x1 ![0] bcast_S3200000_S3200000x1_0 : (⟨S3200000, .f32⟩ : BufTy).Contents (Elt F) → (⟨S3200000x1, .f32⟩ : BufTy).Contents (Elt F)),
    unary main_v79 main_v80 (broadcastInDim S3200000x16 ![0, 1] bcast_S3200000x1_S3200000x16_0_1 : (⟨S3200000x1, .f32⟩ : BufTy).Contents (Elt F) → (⟨S3200000x16, .f32⟩ : BufTy).Contents (Elt F)),
    binary main_v78 main_v80 main_v81 (mulf : (⟨S3200000x16, .f32⟩ : BufTy).Contents (Elt F) → (⟨S3200000x16, .f32⟩ : BufTy).Contents (Elt F) → (⟨S3200000x16, .f32⟩ : BufTy).Contents (Elt F)),
    nullary main_cst_13 (constant S_ .f32 0x00000000#32),
    unary main_cst_13 main_v82 (broadcastInDim S100000x16 ![] bcast_S_S100000x16 : (⟨S_, .f32⟩ : BufTy).Contents (Elt F) → (⟨S100000x16, .f32⟩ : BufTy).Contents (Elt F)),
    unary main_v3 main_v83 (broadcastInDim S3200000x1 ![0] bcast_S3200000_S3200000x1_0 : (⟨S3200000, .i32⟩ : BufTy).Contents (Elt F) → (⟨S3200000x1, .i32⟩ : BufTy).Contents (Elt F)),
    ternary main_v82 main_v83 main_v81 main_v84 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)) ]

/-- Layer 3, second half: `main_v85` … `main_v92`. -/
def seg7 : List (HloOp τ sig (Elt F)) :=
  [ unary main_v26 main_v85 (broadcastInDim S100000x1 ![0] bcast_S100000_S100000x1_0 : (⟨S100000, .f32⟩ : BufTy).Contents (Elt F) → (⟨S100000x1, .f32⟩ : BufTy).Contents (Elt F)),
    unary main_v85 main_v86 (broadcastInDim S100000x16 ![0, 1] bcast_S100000x1_S100000x16_0_1 : (⟨S100000x1, .f32⟩ : BufTy).Contents (Elt F) → (⟨S100000x16, .f32⟩ : BufTy).Contents (Elt F)),
    binary main_v71 main_v86 main_v87 (mulf : (⟨S100000x16, .f32⟩ : BufTy).Contents (Elt F) → (⟨S100000x16, .f32⟩ : BufTy).Contents (Elt F) → (⟨S100000x16, .f32⟩ : BufTy).Contents (Elt F)),
    binary main_v84 main_v87 main_v88 (addf : (⟨S100000x16, .f32⟩ : BufTy).Contents (Elt F) → (⟨S100000x16, .f32⟩ : BufTy).Contents (Elt F) → (⟨S100000x16, .f32⟩ : BufTy).Contents (Elt F)),
    unary main_arg7 main_v89 (broadcastInDim S1x16 ![1] bcast_S16_S1x16_1 : (⟨S16, .f32⟩ : BufTy).Contents (Elt F) → (⟨S1x16, .f32⟩ : BufTy).Contents (Elt F)),
    unary main_v89 main_v90 (broadcastInDim S100000x16 ![0, 1] bcast_S1x16_S100000x16_0_1 : (⟨S1x16, .f32⟩ : BufTy).Contents (Elt F) → (⟨S100000x16, .f32⟩ : BufTy).Contents (Elt F)),
    binary main_v88 main_v90 main_v91 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v91) (TRef.of (T := ⟨S100000x16, .f32⟩) main_call2_v0) (TRef.of (T := ⟨S100000x16, .f32⟩) main_v92) maximumf ]

/-- The mean over the nodes, the hidden row and the scores: `main_v93` … `main_v103`. -/
def seg8 : List (HloOp τ sig (Elt F)) :=
  [ nullary main_cst_14 (constant S_ .f32 0x00000000#32),
    binary main_v92 main_cst_14 main_v93 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    unary main_v93 main_v94 (broadcastInDim S1x16 ![1] bcast_S16_S1x16_1 : (⟨S16, .f32⟩ : BufTy).Contents (Elt F) → (⟨S1x16, .f32⟩ : BufTy).Contents (Elt F)),
    nullary main_cst_15 (constant S_ .f32 0x47C35000#32),
    unary main_cst_15 main_v95 (broadcastInDim S1x16 ![] bcast_S_S1x16 : (⟨S_, .f32⟩ : BufTy).Contents (Elt F) → (⟨S1x16, .f32⟩ : BufTy).Contents (Elt F)),
    binary main_v94 main_v95 main_v96 (Host.divf : (⟨S1x16, .f32⟩ : BufTy).Contents (Elt F) → (⟨S1x16, .f32⟩ : BufTy).Contents (Elt F) → (⟨S1x16, .f32⟩ : BufTy).Contents (Elt F)),
    binary main_v96 main_arg8 main_v97 ((fun l r => Host.dotGeneral dot_S1x16_S16x8_S1x8_1_0_0_1_n_n none l r) : (⟨S1x16, .f32⟩ : BufTy).Contents (Elt F) → (⟨S16x8, .f32⟩ : BufTy).Contents (Elt F) → (⟨S1x8, .f32⟩ : BufTy).Contents (Elt F)),
    unary main_arg9 main_v98 (broadcastInDim S1x8 ![1] bcast_S8_S1x8_1 : (⟨S8, .f32⟩ : BufTy).Contents (Elt F) → (⟨S1x8, .f32⟩ : BufTy).Contents (Elt F)),
    binary main_v97 main_v98 main_v99 (addf : (⟨S1x8, .f32⟩ : BufTy).Contents (Elt F) → (⟨S1x8, .f32⟩ : BufTy).Contents (Elt F) → (⟨S1x8, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1x8, .f32⟩) main_call3_v0) (broadcastInDim S1x8 ![] bcast_S_S1x8),
    TRef.binary (TRef.of (T := ⟨S1x8, .f32⟩) main_v99) (TRef.of (T := ⟨S1x8, .f32⟩) main_call3_v0) (TRef.of (T := ⟨S1x8, .f32⟩) main_v100) maximumf,
    binary main_v100 main_arg10 main_v101 ((fun l r => Host.dotGeneral dot_S1x8_S8x10_S1x10_1_0_0_1_n_n none l r) : (⟨S1x8, .f32⟩ : BufTy).Contents (Elt F) → (⟨S8x10, .f32⟩ : BufTy).Contents (Elt F) → (⟨S1x10, .f32⟩ : BufTy).Contents (Elt F)),
    unary main_arg11 main_v102 (broadcastInDim S1x10 ![1] bcast_S10_S1x10_1 : (⟨S10, .f32⟩ : BufTy).Contents (Elt F) → (⟨S1x10, .f32⟩ : BufTy).Contents (Elt F)),
    binary main_v101 main_v102 main_v103 (addf : (⟨S1x10, .f32⟩ : BufTy).Contents (Elt F) → (⟨S1x10, .f32⟩ : BufTy).Contents (Elt F) → (⟨S1x10, .f32⟩ : BufTy).Contents (Elt F)) ]

/-- The logarithmic softmax of the scores: `main_v104`. -/
def seg9 : List (HloOp τ sig (Elt F)) :=
  [ TRef.nullary (TRef.of (T := ⟨S_, .f32⟩) main_call4_cst) (constant S_ .f32 0xFF800000#32),
    TRef.binary (TRef.of (T := ⟨S1x10, .f32⟩) main_v103) (TRef.of (T := ⟨S_, .f32⟩) main_call4_cst) (TRef.of (T := ⟨S1, .f32⟩) main_call4_v0) (fun x v => Host.reduce FloatOps.maximumf x v reducesTo_S1x10_S1_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S1, .f32⟩) main_call4_v1) (broadcastInDim S1 ![] bcast_S_S1),
    TRef.binary (TRef.of (T := ⟨S1, .f32⟩) main_call4_v1) (TRef.of (T := ⟨S1, .f32⟩) main_call4_v0) (TRef.of (T := ⟨S1, .f32⟩) main_call4_v2) maximumf,
    TRef.unary (TRef.of (T := ⟨S1, .f32⟩) main_call4_v2) (TRef.of (T := ⟨S1x1, .f32⟩) main_call4_v3) (broadcastInDim S1x1 ![0] bcast_S1_S1x1_0),
    TRef.unary (TRef.of (T := ⟨S1x1, .f32⟩) main_call4_v3) (TRef.of (T := ⟨S1x10, .f32⟩) main_call4_v4) (broadcastInDim S1x10 ![0, 1] bcast_S1x1_S1x10_0_1),
    TRef.binary (TRef.of (T := ⟨S1x10, .f32⟩) main_v103) (TRef.of (T := ⟨S1x10, .f32⟩) main_call4_v4) (TRef.of (T := ⟨S1x10, .f32⟩) main_call4_v5) subf,
    TRef.unary (TRef.of (T := ⟨S1x10, .f32⟩) main_call4_v5) (TRef.of (T := ⟨S1x10, .f32⟩) main_call4_v6) Host.exp,
    TRef.nullary (TRef.of (T := ⟨S_, .f32⟩) main_call4_cst_1) (constant S_ .f32 0x00000000#32),
    TRef.binary (TRef.of (T := ⟨S1x10, .f32⟩) main_call4_v6) (TRef.of (T := ⟨S_, .f32⟩) main_call4_cst_1) (TRef.of (T := ⟨S1, .f32⟩) main_call4_v7) (fun x v => Host.reduceAdd x v reducesTo_S1x10_S1_d1 h_S_),
    TRef.unary (TRef.of (T := ⟨S1, .f32⟩) main_call4_v7) (TRef.of (T := ⟨S1x1, .f32⟩) main_call4_v8) (broadcastInDim S1x1 ![0] bcast_S1_S1x1_0),
    TRef.unary (TRef.of (T := ⟨S1x1, .f32⟩) main_call4_v8) (TRef.of (T := ⟨S1x1, .f32⟩) main_call4_v9) Host.log,
    TRef.unary (TRef.of (T := ⟨S1x1, .f32⟩) main_call4_v9) (TRef.of (T := ⟨S1x10, .f32⟩) main_call4_v10) (broadcastInDim S1x10 ![0, 1] bcast_S1x1_S1x10_0_1),
    TRef.binary (TRef.of (T := ⟨S1x10, .f32⟩) main_call4_v5) (TRef.of (T := ⟨S1x10, .f32⟩) main_call4_v10) (TRef.of (T := ⟨S1x10, .f32⟩) main_v104) subf ]

/-- The program's operations are the nine lines one after the other. -/
theorem ops_eq : (Value.ops : List (HloOp τ sig (Elt F))) =
    seg1 ++ (seg2 ++ (seg3 ++ (seg4 ++ (seg5 ++ (seg6 ++ (seg7 ++ (seg8 ++ seg9))))))) := rfl

/-- The contents after the whole program: the nine lines' folds composed. -/
theorem after_ops (V : Valuation τ sig (Elt F)) :
    after (Value.ops : List (HloOp τ sig (Elt F))) V =
      after seg9 (after seg8 (after seg7 (after seg6 (after seg5 (after seg4 (after seg3 (after seg2 (after seg1 V)))))))) := by
  rw [ops_eq]; simp only [after_append]

end Cert.ReferenceIdeal.RefValue

end
-- ==== Proof.RefFrames.lean ====
/-
  Which buffers each of the nine lines writes, and that it leaves every other buffer as it was.

  An operation writes its one result buffer. A line's contents after it, at a buffer that is not among the line's result
  buffers, are the contents before it.
-/
import proofs.«153369_j67937792688718_2_alg».proof.Proof.RefSegs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A single buffer's set lies in the set of a list of buffers that holds it. -/
theorem single_sub_of_mem {L : List (Ref sig .tc)} {y : Ref sig .tc} (h : y ∈ L) :
    ({Proc.devRef .tc y} : Finset (DevRef τ sig)) ⊆ (L.map (Proc.devRef (τ := τ) .tc)).toFinset := by
  intro b hb
  rw [Finset.mem_singleton] at hb
  subst hb
  exact List.mem_toFinset.mpr (List.mem_map_of_mem h)

/-- The result buffers of line 1. -/
def wr1 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26]

theorem seg1_writes :
    (seg1 (F := F)).Forall fun op => op.writes ⊆ (wr1.map (Proc.devRef (τ := τ) .tc)).toFinset := by
  unfold seg1
  simp only [List.Forall, nullary_writes, unary_writes, binary_writes, ternary_writes, reshape_writes]
  repeat' apply And.intro
  all_goals exact single_sub_of_mem (by decide)

/-- Line 1 leaves a buffer it does not write as it was. -/
theorem seg1_frame (W : Valuation τ sig (Elt F)) {r : Ref sig .tc} (hr : r ∉ wr1) :
    after (seg1 (F := F)) W (Proc.devRef .tc r) = W (Proc.devRef .tc r) :=
  after_of_writes_sub _ W seg1_writes hr

/-- The result buffers of line 2. -/
def wr2 : List (Ref sig .tc) :=
  [main_v27, main_c_5, main_v28, main_v29, main_c_6, main_v30, main_v31, main_v32, main_v33, main_v34, main_v35, main_v36, main_v37, main_cst_7, main_v38, main_v39, main_v40]

theorem seg2_writes :
    (seg2 (F := F)).Forall fun op => op.writes ⊆ (wr2.map (Proc.devRef (τ := τ) .tc)).toFinset := by
  unfold seg2
  simp only [List.Forall, nullary_writes, unary_writes, binary_writes, ternary_writes, reshape_writes]
  repeat' apply And.intro
  all_goals exact single_sub_of_mem (by decide)

/-- Line 2 leaves a buffer it does not write as it was. -/
theorem seg2_frame (W : Valuation τ sig (Elt F)) {r : Ref sig .tc} (hr : r ∉ wr2) :
    after (seg2 (F := F)) W (Proc.devRef .tc r) = W (Proc.devRef .tc r) :=
  after_of_writes_sub _ W seg2_writes hr

/-- The result buffers of line 3. -/
def wr3 : List (Ref sig .tc) :=
  [main_v41, main_v42, main_v43, main_v44, main_v45, main_v46, main_v47, main_call0_cst, main_call0_v0, main_v48]

theorem seg3_writes :
    (seg3 (F := F)).Forall fun op => op.writes ⊆ (wr3.map (Proc.devRef (τ := τ) .tc)).toFinset := by
  unfold seg3
  simp only [List.Forall, nullary_writes, unary_writes, binary_writes, ternary_writes, reshape_writes]
  repeat' apply And.intro
  all_goals exact single_sub_of_mem (by decide)

/-- Line 3 leaves a buffer it does not write as it was. -/
theorem seg3_frame (W : Valuation τ sig (Elt F)) {r : Ref sig .tc} (hr : r ∉ wr3) :
    after (seg3 (F := F)) W (Proc.devRef .tc r) = W (Proc.devRef .tc r) :=
  after_of_writes_sub _ W seg3_writes hr

/-- The result buffers of line 4. -/
def wr4 : List (Ref sig .tc) :=
  [main_v49, main_c_8, main_v50, main_v51, main_c_9, main_v52, main_v53, main_v54, main_v55, main_v56, main_v57, main_v58, main_v59, main_cst_10, main_v60, main_v61, main_v62]

theorem seg4_writes :
    (seg4 (F := F)).Forall fun op => op.writes ⊆ (wr4.map (Proc.devRef (τ := τ) .tc)).toFinset := by
  unfold seg4
  simp only [List.Forall, nullary_writes, unary_writes, binary_writes, ternary_writes, reshape_writes]
  repeat' apply And.intro
  all_goals exact single_sub_of_mem (by decide)

/-- Line 4 leaves a buffer it does not write as it was. -/
theorem seg4_frame (W : Valuation τ sig (Elt F)) {r : Ref sig .tc} (hr : r ∉ wr4) :
    after (seg4 (F := F)) W (Proc.devRef .tc r) = W (Proc.devRef .tc r) :=
  after_of_writes_sub _ W seg4_writes hr

/-- The result buffers of line 5. -/
def wr5 : List (Ref sig .tc) :=
  [main_v63, main_v64, main_v65, main_v66, main_v67, main_v68, main_v69, main_call1_cst, main_call1_v0, main_v70]

theorem seg5_writes :
    (seg5 (F := F)).Forall fun op => op.writes ⊆ (wr5.map (Proc.devRef (τ := τ) .tc)).toFinset := by
  unfold seg5
  simp only [List.Forall, nullary_writes, unary_writes, binary_writes, ternary_writes, reshape_writes]
  repeat' apply And.intro
  all_goals exact single_sub_of_mem (by decide)

/-- Line 5 leaves a buffer it does not write as it was. -/
theorem seg5_frame (W : Valuation τ sig (Elt F)) {r : Ref sig .tc} (hr : r ∉ wr5) :
    after (seg5 (F := F)) W (Proc.devRef .tc r) = W (Proc.devRef .tc r) :=
  after_of_writes_sub _ W seg5_writes hr

/-- The result buffers of line 6. -/
def wr6 : List (Ref sig .tc) :=
  [main_v71, main_c_11, main_v72, main_v73, main_c_12, main_v74, main_v75, main_v76, main_v77, main_v78, main_v79, main_v80, main_v81, main_cst_13, main_v82, main_v83, main_v84]

theorem seg6_writes :
    (seg6 (F := F)).Forall fun op => op.writes ⊆ (wr6.map (Proc.devRef (τ := τ) .tc)).toFinset := by
  unfold seg6
  simp only [List.Forall, nullary_writes, unary_writes, binary_writes, ternary_writes, reshape_writes]
  repeat' apply And.intro
  all_goals exact single_sub_of_mem (by decide)

/-- Line 6 leaves a buffer it does not write as it was. -/
theorem seg6_frame (W : Valuation τ sig (Elt F)) {r : Ref sig .tc} (hr : r ∉ wr6) :
    after (seg6 (F := F)) W (Proc.devRef .tc r) = W (Proc.devRef .tc r) :=
  after_of_writes_sub _ W seg6_writes hr

/-- The result buffers of line 7. -/
def wr7 : List (Ref sig .tc) :=
  [main_v85, main_v86, main_v87, main_v88, main_v89, main_v90, main_v91, main_call2_cst, main_call2_v0, main_v92]

theorem seg7_writes :
    (seg7 (F := F)).Forall fun op => op.writes ⊆ (wr7.map (Proc.devRef (τ := τ) .tc)).toFinset := by
  unfold seg7
  simp only [List.Forall, nullary_writes, unary_writes, binary_writes, ternary_writes, reshape_writes]
  repeat' apply And.intro
  all_goals exact single_sub_of_mem (by decide)

/-- Line 7 leaves a buffer it does not write as it was. -/
theorem seg7_frame (W : Valuation τ sig (Elt F)) {r : Ref sig .tc} (hr : r ∉ wr7) :
    after (seg7 (F := F)) W (Proc.devRef .tc r) = W (Proc.devRef .tc r) :=
  after_of_writes_sub _ W seg7_writes hr

/-- The result buffers of line 8. -/
def wr8 : List (Ref sig .tc) :=
  [main_cst_14, main_v93, main_v94, main_cst_15, main_v95, main_v96, main_v97, main_v98, main_v99, main_call3_cst, main_call3_v0, main_v100, main_v101, main_v102, main_v103]

theorem seg8_writes :
    (seg8 (F := F)).Forall fun op => op.writes ⊆ (wr8.map (Proc.devRef (τ := τ) .tc)).toFinset := by
  unfold seg8
  simp only [List.Forall, nullary_writes, unary_writes, binary_writes, ternary_writes, reshape_writes]
  repeat' apply And.intro
  all_goals exact single_sub_of_mem (by decide)

/-- Line 8 leaves a buffer it does not write as it was. -/
theorem seg8_frame (W : Valuation τ sig (Elt F)) {r : Ref sig .tc} (hr : r ∉ wr8) :
    after (seg8 (F := F)) W (Proc.devRef .tc r) = W (Proc.devRef .tc r) :=
  after_of_writes_sub _ W seg8_writes hr

/-- The result buffers of line 9. -/
def wr9 : List (Ref sig .tc) :=
  [main_call4_cst, main_call4_v0, main_call4_cst_0, main_call4_v1, main_call4_v2, main_call4_v3, main_call4_v4, main_call4_v5, main_call4_v6, main_call4_cst_1, main_call4_v7, main_call4_v8, main_call4_v9, main_call4_v10, main_v104]

theorem seg9_writes :
    (seg9 (F := F)).Forall fun op => op.writes ⊆ (wr9.map (Proc.devRef (τ := τ) .tc)).toFinset := by
  unfold seg9
  simp only [List.Forall, nullary_writes, unary_writes, binary_writes, ternary_writes, reshape_writes]
  repeat' apply And.intro
  all_goals exact single_sub_of_mem (by decide)

/-- Line 9 leaves a buffer it does not write as it was. -/
theorem seg9_frame (W : Valuation τ sig (Elt F)) {r : Ref sig .tc} (hr : r ∉ wr9) :
    after (seg9 (F := F)) W (Proc.devRef .tc r) = W (Proc.devRef .tc r) :=
  after_of_writes_sub _ W seg9_writes hr

/-- The whole program leaves a buffer that none of the nine lines writes as it was. -/
theorem ops_frame (V : Valuation τ sig (Elt F)) {r : Ref sig .tc}
    (h1 : r ∉ wr1) (h2 : r ∉ wr2) (h3 : r ∉ wr3) (h4 : r ∉ wr4) (h5 : r ∉ wr5) (h6 : r ∉ wr6) (h7 : r ∉ wr7)
    (h8 : r ∉ wr8) (h9 : r ∉ wr9) :
    after (Value.ops : List (HloOp τ sig (Elt F))) V (Proc.devRef .tc r) = V (Proc.devRef .tc r) := by
  rw [after_ops, seg9_frame _ h9, seg8_frame _ h8, seg7_frame _ h7, seg6_frame _ h6, seg5_frame _ h5, seg4_frame _ h4,
    seg3_frame _ h3, seg2_frame _ h2, seg1_frame _ h1]

end Cert.ReferenceIdeal.RefValue

end
-- ==== Proof.RefNorm.lean ====
/-
  The normalisation read from the first line, over arbitrary starting contents `W`: the edge list's two rows, the
  edges' weights `dinv[s] · dinv[d]` and the nodes' own weights `dinv²`, each as the stated function of the edge list.
-/
import proofs.«153369_j67937792688718_2_alg».proof.Proof.RefSegs
import proofs.«153369_j67937792688718_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Row 0 of the edge list: the sources. -/
theorem seg1_v1 (W : Valuation τ sig (Elt Ideal)) :
    after (seg1 (F := Ideal)) W (Proc.devRef .tc main_v1) =
      Cert.Gcn.srcOf (W (Proc.devRef .tc main_arg1)) := by
  unfold seg1 Cert.Gcn.srcOf
  after_results_simp <;> rfl

/-- Row 1 of the edge list: the targets. -/
theorem seg1_v3 (W : Valuation τ sig (Elt Ideal)) :
    after (seg1 (F := Ideal)) W (Proc.devRef .tc main_v3) =
      Cert.Gcn.dstOf (W (Proc.devRef .tc main_arg1)) := by
  unfold seg1 Cert.Gcn.dstOf
  after_results_simp <;> rfl

/-- The edges' weights. -/
theorem seg1_v25 (W : Valuation τ sig (Elt Ideal)) :
    after (seg1 (F := Ideal)) W (Proc.devRef .tc main_v25) =
      Cert.Gcn.edgeW (Cert.Gcn.srcOf (W (Proc.devRef .tc main_arg1))) (Cert.Gcn.dstOf (W (Proc.devRef .tc main_arg1))) := by
  unfold seg1 Cert.Gcn.edgeW Cert.Gcn.dinv Cert.Gcn.col Cert.Gcn.wrapCol Cert.Gcn.srcOf Cert.Gcn.dstOf
  after_results_simp <;> rfl

/-- The nodes' own weights. -/
theorem seg1_v26 (W : Valuation τ sig (Elt Ideal)) :
    after (seg1 (F := Ideal)) W (Proc.devRef .tc main_v26) =
      Cert.Gcn.selfW (Cert.Gcn.dstOf (W (Proc.devRef .tc main_arg1))) := by
  unfold seg1 Cert.Gcn.selfW Cert.Gcn.dinv Cert.Gcn.col Cert.Gcn.dstOf
  after_results_simp <;> rfl

end Cert.ReferenceIdeal.RefValue

end
-- ==== Proof.RefL1.lean ====
/-
  Layer 1 read from its two lines, over arbitrary starting contents `W`.

  The first line computes the product `x · W1` and its sum along the edges from the edge list's rows and the edges'
  weights; the second adds the own-weight term and the bias and takes `max (·, 0)`.
-/
import proofs.«153369_j67937792688718_2_alg».proof.Proof.RefSegs
import proofs.«153369_j67937792688718_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The product `x · W1`. -/
theorem seg2_v27 (W : Valuation τ sig (Elt Ideal)) :
    after (seg2 (F := Ideal)) W (Proc.devRef .tc main_v27) =
      Cert.Gcn.prod1 (W (Proc.devRef .tc main_arg0)) (W (Proc.devRef .tc main_arg2)) := by
  unfold seg2 Cert.Gcn.prod1
  after_results_simp <;> rfl

/-- The product's rows, gathered at the sources, weighted and added up at the targets. -/
theorem seg2_v40 (W : Valuation τ sig (Elt Ideal)) :
    after (seg2 (F := Ideal)) W (Proc.devRef .tc main_v40) =
      Cert.Gcn.agg64 (W (Proc.devRef .tc main_v1)) (W (Proc.devRef .tc main_v3)) (W (Proc.devRef .tc main_v25))
        (Cert.Gcn.prod1 (W (Proc.devRef .tc main_arg0)) (W (Proc.devRef .tc main_arg2))) := by
  unfold seg2 Cert.Gcn.agg64 Cert.Gcn.prod1 Cert.Gcn.col Cert.Gcn.wrapCol
  after_results_simp <;> rfl

/-- The layer's answer from its sum and its product. -/
theorem seg3_v48 (W : Valuation τ sig (Elt Ideal)) :
    after (seg3 (F := Ideal)) W (Proc.devRef .tc main_v48) =
      Cert.Gcn.act64 (W (Proc.devRef .tc main_v40)) (W (Proc.devRef .tc main_v27)) (W (Proc.devRef .tc main_v26)) (W (Proc.devRef .tc main_arg3)) := by
  unfold seg3 Cert.Gcn.act64
  after_results_simp <;> rfl

end Cert.ReferenceIdeal.RefValue

end
-- ==== Proof.RefL2.lean ====
/-
  Layer 2 read from its two lines, over arbitrary starting contents `W`.

  The first line computes the product `h₁ · W2` and its sum along the edges from the edge list's rows and the edges'
  weights; the second adds the own-weight term and the bias and takes `max (·, 0)`.
-/
import proofs.«153369_j67937792688718_2_alg».proof.Proof.RefSegs
import proofs.«153369_j67937792688718_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The product `h₁ · W2`. -/
theorem seg4_v49 (W : Valuation τ sig (Elt Ideal)) :
    after (seg4 (F := Ideal)) W (Proc.devRef .tc main_v49) =
      Cert.Gcn.prod2 (W (Proc.devRef .tc main_v48)) (W (Proc.devRef .tc main_arg4)) := by
  unfold seg4 Cert.Gcn.prod2
  after_results_simp <;> rfl

/-- The product's rows, gathered at the sources, weighted and added up at the targets. -/
theorem seg4_v62 (W : Valuation τ sig (Elt Ideal)) :
    after (seg4 (F := Ideal)) W (Proc.devRef .tc main_v62) =
      Cert.Gcn.agg32 (W (Proc.devRef .tc main_v1)) (W (Proc.devRef .tc main_v3)) (W (Proc.devRef .tc main_v25))
        (Cert.Gcn.prod2 (W (Proc.devRef .tc main_v48)) (W (Proc.devRef .tc main_arg4))) := by
  unfold seg4 Cert.Gcn.agg32 Cert.Gcn.prod2 Cert.Gcn.col Cert.Gcn.wrapCol
  after_results_simp <;> rfl

/-- The layer's answer from its sum and its product. -/
theorem seg5_v70 (W : Valuation τ sig (Elt Ideal)) :
    after (seg5 (F := Ideal)) W (Proc.devRef .tc main_v70) =
      Cert.Gcn.act32 (W (Proc.devRef .tc main_v62)) (W (Proc.devRef .tc main_v49)) (W (Proc.devRef .tc main_v26)) (W (Proc.devRef .tc main_arg5)) := by
  unfold seg5 Cert.Gcn.act32
  after_results_simp <;> rfl

end Cert.ReferenceIdeal.RefValue

end
-- ==== Proof.RefL3.lean ====
/-
  Layer 3 read from its two lines, over arbitrary starting contents `W`.

  The first line computes the product `h₂ · W3` and its sum along the edges from the edge list's rows and the edges'
  weights; the second adds the own-weight term and the bias and takes `max (·, 0)`.
-/
import proofs.«153369_j67937792688718_2_alg».proof.Proof.RefSegs
import proofs.«153369_j67937792688718_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The product `h₂ · W3`. -/
theorem seg6_v71 (W : Valuation τ sig (Elt Ideal)) :
    after (seg6 (F := Ideal)) W (Proc.devRef .tc main_v71) =
      Cert.Gcn.prod3 (W (Proc.devRef .tc main_v70)) (W (Proc.devRef .tc main_arg6)) := by
  unfold seg6 Cert.Gcn.prod3
  after_results_simp <;> rfl

/-- The product's rows, gathered at the sources, weighted and added up at the targets. -/
theorem seg6_v84 (W : Valuation τ sig (Elt Ideal)) :
    after (seg6 (F := Ideal)) W (Proc.devRef .tc main_v84) =
      Cert.Gcn.agg16 (W (Proc.devRef .tc main_v1)) (W (Proc.devRef .tc main_v3)) (W (Proc.devRef .tc main_v25))
        (Cert.Gcn.prod3 (W (Proc.devRef .tc main_v70)) (W (Proc.devRef .tc main_arg6))) := by
  unfold seg6 Cert.Gcn.agg16 Cert.Gcn.prod3 Cert.Gcn.col Cert.Gcn.wrapCol
  after_results_simp <;> rfl

/-- The layer's answer from its sum and its product. -/
theorem seg7_v92 (W : Valuation τ sig (Elt Ideal)) :
    after (seg7 (F := Ideal)) W (Proc.devRef .tc main_v92) =
      Cert.Gcn.act16 (W (Proc.devRef .tc main_v84)) (W (Proc.devRef .tc main_v71)) (W (Proc.devRef .tc main_v26)) (W (Proc.devRef .tc main_arg7)) := by
  unfold seg7 Cert.Gcn.act16
  after_results_simp <;> rfl

end Cert.ReferenceIdeal.RefValue

end
-- ==== Proof.RefTail.lean ====
/-
  The part after the last layer read from its two lines, over arbitrary starting contents `W`: the mean over the
  nodes, the hidden row and the scores; then the scores' logarithmic softmax.
-/
import proofs.«153369_j67937792688718_2_alg».proof.Proof.RefSegs
import proofs.«153369_j67937792688718_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The scores, from the last layer's answer. -/
theorem seg8_v103 (W : Valuation τ sig (Elt Ideal)) :
    after (seg8 (F := Ideal)) W (Proc.devRef .tc main_v103) =
      Cert.Gcn.scores (Cert.Gcn.hidden (Cert.Gcn.pooled (W (Proc.devRef .tc main_v92))) (W (Proc.devRef .tc main_arg8)) (W (Proc.devRef .tc main_arg9)))
        (W (Proc.devRef .tc main_arg10)) (W (Proc.devRef .tc main_arg11)) := by
  unfold seg8 Cert.Gcn.scores Cert.Gcn.hidden Cert.Gcn.pooled
  after_results_simp <;> rfl

/-- The scores' logarithmic softmax. -/
theorem seg9_v104 (W : Valuation τ sig (Elt Ideal)) :
    after (seg9 (F := Ideal)) W (Proc.devRef .tc main_v104) =
      Cert.Gcn.logSoftmax (W (Proc.devRef .tc main_v103)) := by
  unfold seg9 Cert.Gcn.logSoftmax Cert.Gcn.shifted
  after_results_simp <;> rfl

end Cert.ReferenceIdeal.RefValue

end
-- ==== Proof.RefValue.lean ====
/-
  The reference program's run and value.

  Every weakly fair execution of the program terminates with each buffer at the fold of the 145 operations' results over
  the launch contents. The fold is the composition of the nine lines' folds; each line, read over arbitrary contents,
  computes one stage of the network from the buffers it reads and leaves the others alone. Chaining the nine readings
  gives the result buffer as the network's function of the twelve arguments.

  The chaining names each shared value once (the edge list's rows `s`, `d`, the weights `ew`, `sw`, each layer's product,
  sum and answer) and carries equations between a stage's buffers and these names, so no stage's term is ever repeated.
-/
import proofs.«153369_j67937792688718_2_alg».proof.Proof.RefSegs
import proofs.«153369_j67937792688718_2_alg».proof.Proof.RefFrames
import proofs.«153369_j67937792688718_2_alg».proof.Proof.RefNorm
import proofs.«153369_j67937792688718_2_alg».proof.Proof.RefL1
import proofs.«153369_j67937792688718_2_alg».proof.Proof.RefL2
import proofs.«153369_j67937792688718_2_alg».proof.Proof.RefL3
import proofs.«153369_j67937792688718_2_alg».proof.Proof.RefTail

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxHeartbeats 1000000 in
/-- The result buffer after the whole program, from any starting contents `V`: the network of `V`'s twelve arguments. -/
theorem value (V : Valuation τ sig (Elt Ideal)) :
    after (Value.ops : List (HloOp τ sig (Elt Ideal))) V (Proc.devRef .tc main_v104) =
      Cert.Gcn.network (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11)) := by
  rw [after_ops]
  unfold Cert.Gcn.network Cert.Gcn.tail Cert.Gcn.layers
  -- the shared values, innermost first
  generalize hS : Cert.Gcn.srcOf (V (Proc.devRef .tc main_arg1)) = s
  generalize hD : Cert.Gcn.dstOf (V (Proc.devRef .tc main_arg1)) = d
  generalize hEW : Cert.Gcn.edgeW s d = ew
  generalize hSW : Cert.Gcn.selfW d = sw
  generalize hP1 : Cert.Gcn.prod1 (V (Proc.devRef .tc main_arg0)) (V (Proc.devRef .tc main_arg2)) = p1
  generalize hA1 : Cert.Gcn.agg64 s d ew p1 = a1
  generalize hX1 : Cert.Gcn.act64 a1 p1 sw (V (Proc.devRef .tc main_arg3)) = x1
  generalize hP2 : Cert.Gcn.prod2 x1 (V (Proc.devRef .tc main_arg4)) = p2
  generalize hA2 : Cert.Gcn.agg32 s d ew p2 = a2
  generalize hX2 : Cert.Gcn.act32 a2 p2 sw (V (Proc.devRef .tc main_arg5)) = x2
  generalize hP3 : Cert.Gcn.prod3 x2 (V (Proc.devRef .tc main_arg6)) = p3
  generalize hA3 : Cert.Gcn.agg16 s d ew p3 = a3
  generalize hX3 : Cert.Gcn.act16 a3 p3 sw (V (Proc.devRef .tc main_arg7)) = x3
  -- after line 1
  generalize e1 : after seg1 V = V1
  have fr1 : ∀ {r : Ref sig .tc}, r ∉ wr1 → V1 (Proc.devRef .tc r) = V (Proc.devRef .tc r) :=
    fun hr => by rw [← e1]; exact seg1_frame _ hr
  have f1_v1 : V1 (Proc.devRef .tc main_v1) = s := by rw [← e1, seg1_v1, hS]
  have f1_v3 : V1 (Proc.devRef .tc main_v3) = d := by rw [← e1, seg1_v3, hD]
  have f1_v25 : V1 (Proc.devRef .tc main_v25) = ew := by rw [← e1, seg1_v25, hS, hD, hEW]
  have f1_v26 : V1 (Proc.devRef .tc main_v26) = sw := by rw [← e1, seg1_v26, hD, hSW]
  have f1_arg0 : V1 (Proc.devRef .tc main_arg0) = (V (Proc.devRef .tc main_arg0)) := fr1 (r := main_arg0) (by decide)
  have f1_arg2 : V1 (Proc.devRef .tc main_arg2) = (V (Proc.devRef .tc main_arg2)) := fr1 (r := main_arg2) (by decide)
  have f1_arg3 : V1 (Proc.devRef .tc main_arg3) = (V (Proc.devRef .tc main_arg3)) := fr1 (r := main_arg3) (by decide)
  have f1_arg4 : V1 (Proc.devRef .tc main_arg4) = (V (Proc.devRef .tc main_arg4)) := fr1 (r := main_arg4) (by decide)
  have f1_arg5 : V1 (Proc.devRef .tc main_arg5) = (V (Proc.devRef .tc main_arg5)) := fr1 (r := main_arg5) (by decide)
  have f1_arg6 : V1 (Proc.devRef .tc main_arg6) = (V (Proc.devRef .tc main_arg6)) := fr1 (r := main_arg6) (by decide)
  have f1_arg7 : V1 (Proc.devRef .tc main_arg7) = (V (Proc.devRef .tc main_arg7)) := fr1 (r := main_arg7) (by decide)
  have f1_arg8 : V1 (Proc.devRef .tc main_arg8) = (V (Proc.devRef .tc main_arg8)) := fr1 (r := main_arg8) (by decide)
  have f1_arg9 : V1 (Proc.devRef .tc main_arg9) = (V (Proc.devRef .tc main_arg9)) := fr1 (r := main_arg9) (by decide)
  have f1_arg10 : V1 (Proc.devRef .tc main_arg10) = (V (Proc.devRef .tc main_arg10)) := fr1 (r := main_arg10) (by decide)
  have f1_arg11 : V1 (Proc.devRef .tc main_arg11) = (V (Proc.devRef .tc main_arg11)) := fr1 (r := main_arg11) (by decide)
  clear e1
  -- after line 2
  generalize e2 : after seg2 V1 = V2
  have fr2 : ∀ {r : Ref sig .tc}, r ∉ wr2 → V2 (Proc.devRef .tc r) = V1 (Proc.devRef .tc r) :=
    fun hr => by rw [← e2]; exact seg2_frame _ hr
  have f2_v27 : V2 (Proc.devRef .tc main_v27) = p1 := by rw [← e2, seg2_v27, f1_arg0, f1_arg2, hP1]
  have f2_v40 : V2 (Proc.devRef .tc main_v40) = a1 := by rw [← e2, seg2_v40, f1_v1, f1_v3, f1_v25, f1_arg0, f1_arg2, hP1, hA1]
  have f2_v1 : V2 (Proc.devRef .tc main_v1) = s := (fr2 (r := main_v1) (by decide)).trans f1_v1
  have f2_v3 : V2 (Proc.devRef .tc main_v3) = d := (fr2 (r := main_v3) (by decide)).trans f1_v3
  have f2_v25 : V2 (Proc.devRef .tc main_v25) = ew := (fr2 (r := main_v25) (by decide)).trans f1_v25
  have f2_v26 : V2 (Proc.devRef .tc main_v26) = sw := (fr2 (r := main_v26) (by decide)).trans f1_v26
  have f2_arg3 : V2 (Proc.devRef .tc main_arg3) = (V (Proc.devRef .tc main_arg3)) := (fr2 (r := main_arg3) (by decide)).trans f1_arg3
  have f2_arg4 : V2 (Proc.devRef .tc main_arg4) = (V (Proc.devRef .tc main_arg4)) := (fr2 (r := main_arg4) (by decide)).trans f1_arg4
  have f2_arg5 : V2 (Proc.devRef .tc main_arg5) = (V (Proc.devRef .tc main_arg5)) := (fr2 (r := main_arg5) (by decide)).trans f1_arg5
  have f2_arg6 : V2 (Proc.devRef .tc main_arg6) = (V (Proc.devRef .tc main_arg6)) := (fr2 (r := main_arg6) (by decide)).trans f1_arg6
  have f2_arg7 : V2 (Proc.devRef .tc main_arg7) = (V (Proc.devRef .tc main_arg7)) := (fr2 (r := main_arg7) (by decide)).trans f1_arg7
  have f2_arg8 : V2 (Proc.devRef .tc main_arg8) = (V (Proc.devRef .tc main_arg8)) := (fr2 (r := main_arg8) (by decide)).trans f1_arg8
  have f2_arg9 : V2 (Proc.devRef .tc main_arg9) = (V (Proc.devRef .tc main_arg9)) := (fr2 (r := main_arg9) (by decide)).trans f1_arg9
  have f2_arg10 : V2 (Proc.devRef .tc main_arg10) = (V (Proc.devRef .tc main_arg10)) := (fr2 (r := main_arg10) (by decide)).trans f1_arg10
  have f2_arg11 : V2 (Proc.devRef .tc main_arg11) = (V (Proc.devRef .tc main_arg11)) := (fr2 (r := main_arg11) (by decide)).trans f1_arg11
  clear e2
  -- after line 3
  generalize e3 : after seg3 V2 = V3
  have fr3 : ∀ {r : Ref sig .tc}, r ∉ wr3 → V3 (Proc.devRef .tc r) = V2 (Proc.devRef .tc r) :=
    fun hr => by rw [← e3]; exact seg3_frame _ hr
  have f3_v48 : V3 (Proc.devRef .tc main_v48) = x1 := by rw [← e3, seg3_v48, f2_v40, f2_v27, f2_v26, f2_arg3, hX1]
  have f3_v1 : V3 (Proc.devRef .tc main_v1) = s := (fr3 (r := main_v1) (by decide)).trans f2_v1
  have f3_v3 : V3 (Proc.devRef .tc main_v3) = d := (fr3 (r := main_v3) (by decide)).trans f2_v3
  have f3_v25 : V3 (Proc.devRef .tc main_v25) = ew := (fr3 (r := main_v25) (by decide)).trans f2_v25
  have f3_v26 : V3 (Proc.devRef .tc main_v26) = sw := (fr3 (r := main_v26) (by decide)).trans f2_v26
  have f3_arg4 : V3 (Proc.devRef .tc main_arg4) = (V (Proc.devRef .tc main_arg4)) := (fr3 (r := main_arg4) (by decide)).trans f2_arg4
  have f3_arg5 : V3 (Proc.devRef .tc main_arg5) = (V (Proc.devRef .tc main_arg5)) := (fr3 (r := main_arg5) (by decide)).trans f2_arg5
  have f3_arg6 : V3 (Proc.devRef .tc main_arg6) = (V (Proc.devRef .tc main_arg6)) := (fr3 (r := main_arg6) (by decide)).trans f2_arg6
  have f3_arg7 : V3 (Proc.devRef .tc main_arg7) = (V (Proc.devRef .tc main_arg7)) := (fr3 (r := main_arg7) (by decide)).trans f2_arg7
  have f3_arg8 : V3 (Proc.devRef .tc main_arg8) = (V (Proc.devRef .tc main_arg8)) := (fr3 (r := main_arg8) (by decide)).trans f2_arg8
  have f3_arg9 : V3 (Proc.devRef .tc main_arg9) = (V (Proc.devRef .tc main_arg9)) := (fr3 (r := main_arg9) (by decide)).trans f2_arg9
  have f3_arg10 : V3 (Proc.devRef .tc main_arg10) = (V (Proc.devRef .tc main_arg10)) := (fr3 (r := main_arg10) (by decide)).trans f2_arg10
  have f3_arg11 : V3 (Proc.devRef .tc main_arg11) = (V (Proc.devRef .tc main_arg11)) := (fr3 (r := main_arg11) (by decide)).trans f2_arg11
  clear e3
  -- after line 4
  generalize e4 : after seg4 V3 = V4
  have fr4 : ∀ {r : Ref sig .tc}, r ∉ wr4 → V4 (Proc.devRef .tc r) = V3 (Proc.devRef .tc r) :=
    fun hr => by rw [← e4]; exact seg4_frame _ hr
  have f4_v49 : V4 (Proc.devRef .tc main_v49) = p2 := by rw [← e4, seg4_v49, f3_v48, f3_arg4, hP2]
  have f4_v62 : V4 (Proc.devRef .tc main_v62) = a2 := by rw [← e4, seg4_v62, f3_v1, f3_v3, f3_v25, f3_v48, f3_arg4, hP2, hA2]
  have f4_v1 : V4 (Proc.devRef .tc main_v1) = s := (fr4 (r := main_v1) (by decide)).trans f3_v1
  have f4_v3 : V4 (Proc.devRef .tc main_v3) = d := (fr4 (r := main_v3) (by decide)).trans f3_v3
  have f4_v25 : V4 (Proc.devRef .tc main_v25) = ew := (fr4 (r := main_v25) (by decide)).trans f3_v25
  have f4_v26 : V4 (Proc.devRef .tc main_v26) = sw := (fr4 (r := main_v26) (by decide)).trans f3_v26
  have f4_arg5 : V4 (Proc.devRef .tc main_arg5) = (V (Proc.devRef .tc main_arg5)) := (fr4 (r := main_arg5) (by decide)).trans f3_arg5
  have f4_arg6 : V4 (Proc.devRef .tc main_arg6) = (V (Proc.devRef .tc main_arg6)) := (fr4 (r := main_arg6) (by decide)).trans f3_arg6
  have f4_arg7 : V4 (Proc.devRef .tc main_arg7) = (V (Proc.devRef .tc main_arg7)) := (fr4 (r := main_arg7) (by decide)).trans f3_arg7
  have f4_arg8 : V4 (Proc.devRef .tc main_arg8) = (V (Proc.devRef .tc main_arg8)) := (fr4 (r := main_arg8) (by decide)).trans f3_arg8
  have f4_arg9 : V4 (Proc.devRef .tc main_arg9) = (V (Proc.devRef .tc main_arg9)) := (fr4 (r := main_arg9) (by decide)).trans f3_arg9
  have f4_arg10 : V4 (Proc.devRef .tc main_arg10) = (V (Proc.devRef .tc main_arg10)) := (fr4 (r := main_arg10) (by decide)).trans f3_arg10
  have f4_arg11 : V4 (Proc.devRef .tc main_arg11) = (V (Proc.devRef .tc main_arg11)) := (fr4 (r := main_arg11) (by decide)).trans f3_arg11
  clear e4
  -- after line 5
  generalize e5 : after seg5 V4 = V5
  have fr5 : ∀ {r : Ref sig .tc}, r ∉ wr5 → V5 (Proc.devRef .tc r) = V4 (Proc.devRef .tc r) :=
    fun hr => by rw [← e5]; exact seg5_frame _ hr
  have f5_v70 : V5 (Proc.devRef .tc main_v70) = x2 := by rw [← e5, seg5_v70, f4_v62, f4_v49, f4_v26, f4_arg5, hX2]
  have f5_v1 : V5 (Proc.devRef .tc main_v1) = s := (fr5 (r := main_v1) (by decide)).trans f4_v1
  have f5_v3 : V5 (Proc.devRef .tc main_v3) = d := (fr5 (r := main_v3) (by decide)).trans f4_v3
  have f5_v25 : V5 (Proc.devRef .tc main_v25) = ew := (fr5 (r := main_v25) (by decide)).trans f4_v25
  have f5_v26 : V5 (Proc.devRef .tc main_v26) = sw := (fr5 (r := main_v26) (by decide)).trans f4_v26
  have f5_arg6 : V5 (Proc.devRef .tc main_arg6) = (V (Proc.devRef .tc main_arg6)) := (fr5 (r := main_arg6) (by decide)).trans f4_arg6
  have f5_arg7 : V5 (Proc.devRef .tc main_arg7) = (V (Proc.devRef .tc main_arg7)) := (fr5 (r := main_arg7) (by decide)).trans f4_arg7
  have f5_arg8 : V5 (Proc.devRef .tc main_arg8) = (V (Proc.devRef .tc main_arg8)) := (fr5 (r := main_arg8) (by decide)).trans f4_arg8
  have f5_arg9 : V5 (Proc.devRef .tc main_arg9) = (V (Proc.devRef .tc main_arg9)) := (fr5 (r := main_arg9) (by decide)).trans f4_arg9
  have f5_arg10 : V5 (Proc.devRef .tc main_arg10) = (V (Proc.devRef .tc main_arg10)) := (fr5 (r := main_arg10) (by decide)).trans f4_arg10
  have f5_arg11 : V5 (Proc.devRef .tc main_arg11) = (V (Proc.devRef .tc main_arg11)) := (fr5 (r := main_arg11) (by decide)).trans f4_arg11
  clear e5
  -- after line 6
  generalize e6 : after seg6 V5 = V6
  have fr6 : ∀ {r : Ref sig .tc}, r ∉ wr6 → V6 (Proc.devRef .tc r) = V5 (Proc.devRef .tc r) :=
    fun hr => by rw [← e6]; exact seg6_frame _ hr
  have f6_v71 : V6 (Proc.devRef .tc main_v71) = p3 := by rw [← e6, seg6_v71, f5_v70, f5_arg6, hP3]
  have f6_v84 : V6 (Proc.devRef .tc main_v84) = a3 := by rw [← e6, seg6_v84, f5_v1, f5_v3, f5_v25, f5_v70, f5_arg6, hP3, hA3]
  have f6_v26 : V6 (Proc.devRef .tc main_v26) = sw := (fr6 (r := main_v26) (by decide)).trans f5_v26
  have f6_arg7 : V6 (Proc.devRef .tc main_arg7) = (V (Proc.devRef .tc main_arg7)) := (fr6 (r := main_arg7) (by decide)).trans f5_arg7
  have f6_arg8 : V6 (Proc.devRef .tc main_arg8) = (V (Proc.devRef .tc main_arg8)) := (fr6 (r := main_arg8) (by decide)).trans f5_arg8
  have f6_arg9 : V6 (Proc.devRef .tc main_arg9) = (V (Proc.devRef .tc main_arg9)) := (fr6 (r := main_arg9) (by decide)).trans f5_arg9
  have f6_arg10 : V6 (Proc.devRef .tc main_arg10) = (V (Proc.devRef .tc main_arg10)) := (fr6 (r := main_arg10) (by decide)).trans f5_arg10
  have f6_arg11 : V6 (Proc.devRef .tc main_arg11) = (V (Proc.devRef .tc main_arg11)) := (fr6 (r := main_arg11) (by decide)).trans f5_arg11
  clear e6
  -- after line 7
  generalize e7 : after seg7 V6 = V7
  have fr7 : ∀ {r : Ref sig .tc}, r ∉ wr7 → V7 (Proc.devRef .tc r) = V6 (Proc.devRef .tc r) :=
    fun hr => by rw [← e7]; exact seg7_frame _ hr
  have f7_v92 : V7 (Proc.devRef .tc main_v92) = x3 := by rw [← e7, seg7_v92, f6_v84, f6_v71, f6_v26, f6_arg7, hX3]
  have f7_arg8 : V7 (Proc.devRef .tc main_arg8) = (V (Proc.devRef .tc main_arg8)) := (fr7 (r := main_arg8) (by decide)).trans f6_arg8
  have f7_arg9 : V7 (Proc.devRef .tc main_arg9) = (V (Proc.devRef .tc main_arg9)) := (fr7 (r := main_arg9) (by decide)).trans f6_arg9
  have f7_arg10 : V7 (Proc.devRef .tc main_arg10) = (V (Proc.devRef .tc main_arg10)) := (fr7 (r := main_arg10) (by decide)).trans f6_arg10
  have f7_arg11 : V7 (Proc.devRef .tc main_arg11) = (V (Proc.devRef .tc main_arg11)) := (fr7 (r := main_arg11) (by decide)).trans f6_arg11
  clear e7
  -- the last two lines
  rw [seg9_v104, seg8_v103, f7_v92, f7_arg8, f7_arg9, f7_arg10, f7_arg11]

/-- On every device, from any memory with zero counters: every weakly fair execution of the program terminates with the
    result buffer at the network of the twelve arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) =
          Cert.Gcn.network (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v104).trans (value (launchContents m c)),
      (h c main_arg0).trans (ops_frame (launchContents m c) (r := main_arg0) (by decide) (by decide) (by decide) (by decide) (by decide) (by decide) (by decide) (by decide) (by decide)),
      (h c main_arg1).trans (ops_frame (launchContents m c) (r := main_arg1) (by decide) (by decide) (by decide) (by decide) (by decide) (by decide) (by decide) (by decide) (by decide)),
      (h c main_arg2).trans (ops_frame (launchContents m c) (r := main_arg2) (by decide) (by decide) (by decide) (by decide) (by decide) (by decide) (by decide) (by decide) (by decide)),
      (h c main_arg3).trans (ops_frame (launchContents m c) (r := main_arg3) (by decide) (by decide) (by decide) (by decide) (by decide) (by decide) (by decide) (by decide) (by decide)),
      (h c main_arg4).trans (ops_frame (launchContents m c) (r := main_arg4) (by decide) (by decide) (by decide) (by decide) (by decide) (by decide) (by decide) (by decide) (by decide)),
      (h c main_arg5).trans (ops_frame (launchContents m c) (r := main_arg5) (by decide) (by decide) (by decide) (by decide) (by decide) (by decide) (by decide) (by decide) (by decide)),
      (h c main_arg6).trans (ops_frame (launchContents m c) (r := main_arg6) (by decide) (by decide) (by decide) (by decide) (by decide) (by decide) (by decide) (by decide) (by decide)),
      (h c main_arg7).trans (ops_frame (launchContents m c) (r := main_arg7) (by decide) (by decide) (by decide) (by decide) (by decide) (by decide) (by decide) (by decide) (by decide)),
      (h c main_arg8).trans (ops_frame (launchContents m c) (r := main_arg8) (by decide) (by decide) (by decide) (by decide) (by decide) (by decide) (by decide) (by decide) (by decide)),
      (h c main_arg9).trans (ops_frame (launchContents m c) (r := main_arg9) (by decide) (by decide) (by decide) (by decide) (by decide) (by decide) (by decide) (by decide) (by decide)),
      (h c main_arg10).trans (ops_frame (launchContents m c) (r := main_arg10) (by decide) (by decide) (by decide) (by decide) (by decide) (by decide) (by decide) (by decide) (by decide)),
      (h c main_arg11).trans (ops_frame (launchContents m c) (r := main_arg11) (by decide) (by decide) (by decide) (by decide) (by decide) (by decide) (by decide) (by decide) (by decide))⟩)
    (run_seq Value.scopedRefs_eq Value.scopedSems_eq defs main (fun _ => Value.ops) Value.main_eq (fun _ => Value.ops_sub) m ρ)

end Cert.ReferenceIdeal.RefValue

end
-- ==== Proof.lean ====
/-
  A three-layer graph-convolution network, computed two ways, gives the same class scores.

  The kernel program runs each layer's dense part in a TensorCore region tiled over blocks of 4000 of the 100000 nodes:
  the product `xw = h · W` (operands narrowed to 16 bits first) and `xw · selfw + b`; the host sends `xw` along the 3.2 million
  edges and adds up at the targets (`agg`); the next region starts from `max (agg + (xw · selfw + b), 0)`. The reference computes
  `max ((agg + xw · selfw) + b, 0)` with whole-array operations. Over the extended reals a change of format is the identity, a
  product accumulated block by block into zero is the whole product, the gather and the scatter-add are the same host
  operations on both sides, and the two groupings of the three-term sum agree because addition is associative; so both
  programs end with `Cert.Gcn.network` of the launch arrays (Proof/Spec.lean). No finiteness of the inputs is used.

  The kernel side: each region's result arrays as whole-array functions (Proof/Region0 … Region3 over Proof/RegionSpec),
  shown to be the network's own functions (Proof/RegionLaw, Proof/LibLayer, Proof/LibPlainProduct); the host operations between the
  regions read over arbitrary buffer contents (Proof/KHost0 … KHost3, Proof/KTail); the program's run with its result buffer named
  (Proof/KRun) and that buffer followed through the nine stretches (Proof/KValue). The reference side: its 145 host operations
  read in nine segments (Proof/RefSegs … RefTail) and its run (Proof/RefValue).
-/
import proofs.«153369_j67937792688718_2_alg».proof.Defs
import proofs.«153369_j67937792688718_2_alg».proof.Proof.Gen.Kernel
import proofs.«153369_j67937792688718_2_alg».proof.Proof.Gen.Kernel.Frame
import proofs.«153369_j67937792688718_2_alg».proof.Proof.Gen.KernelIdeal
import proofs.«153369_j67937792688718_2_alg».proof.Proof.Gen.KernelIdeal.Frame
import proofs.«153369_j67937792688718_2_alg».proof.Proof.Gen.ReferenceIdeal
import proofs.«153369_j67937792688718_2_alg».proof.Proof.Gen.Pre_finite_inputs
import proofs.«153369_j67937792688718_2_alg».proof.Proof.KRun
import proofs.«153369_j67937792688718_2_alg».proof.Proof.KValue
import proofs.«153369_j67937792688718_2_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Nothing was rewritten when the kernel program was read over the extended reals. -/
theorem preserves : Cert.preserves_Kernel_KernelIdeal := trivial

/-- From memories agreeing on the arguments both programs end with the network's answer at those arguments. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.KValue.kernel_value m ρ c), (h c).2⟩)
      (Cert.KernelIdeal.Gen.frame_result m ρ)
  · refine (θ_run Cert.ReferenceIdeal.defs _ _).mono (fun _ h c => ⟨(h c).1.trans ?_, (h c).2⟩)
      (Cert.ReferenceIdeal.RefValue.run m' ρ')
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
